-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S4096x1 : Shape := ⟨2, ![4096, 1]⟩
abbrev S512x4096 : Shape := ⟨2, ![512, 4096]⟩
abbrev S512x1 : Shape := ⟨2, ![512, 1]⟩
abbrev S512 : Shape := ⟨1, ![512]⟩
abbrev S1x4096 : Shape := ⟨2, ![1, 4096]⟩
abbrev S8192x1 : Shape := ⟨2, ![8192, 1]⟩
abbrev S2048x512 : Shape := ⟨2, ![2048, 512]⟩
abbrev S512x2048 : Shape := ⟨2, ![512, 2048]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 13
  | .vmem => 25
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S4096x4096, .bf16⟩
  | .hbm, ⟨5, _⟩ => ⟨S4096x1, .f32⟩
  | .hbm, ⟨6, _⟩ => ⟨S4096x4096, .bf16⟩
  | .hbm, ⟨7, _⟩ => ⟨S1x4096, .f32⟩
  | .hbm, ⟨8, _⟩ => ⟨S8192x4096, .bf16⟩
  | .hbm, ⟨9, _⟩ => ⟨S8192x1, .f32⟩
  | .hbm, ⟨10, _⟩ => ⟨S1x4096, .f32⟩
  | .hbm, ⟨11, _⟩ => ⟨S8192x4096, .f32⟩
  | .hbm, ⟨12, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x1, .f32⟩
  | .local _ .vmem, ⟨5, _⟩ => ⟨S512x1, .f32⟩
  | .local _ .vmem, ⟨6, _⟩ => ⟨S512x4096, .f32⟩
  | .local _ .vmem, ⟨7, _⟩ => ⟨S512x4096, .f32⟩
  | .local _ .vmem, ⟨8, _⟩ => ⟨S512x4096, .bf16⟩
  | .local _ .vmem, ⟨9, _⟩ => ⟨S512x4096, .bf16⟩
  | .local _ .vmem, ⟨10, _⟩ => ⟨S512x1, .f32⟩
  | .local _ .vmem, ⟨11, _⟩ => ⟨S512x1, .f32⟩
  | .local _ .vmem, ⟨12, _⟩ => ⟨S2048x512, .bf16⟩
  | .local _ .vmem, ⟨13, _⟩ => ⟨S2048x512, .bf16⟩
  | .local _ .vmem, ⟨14, _⟩ => ⟨S512x2048, .bf16⟩
  | .local _ .vmem, ⟨15, _⟩ => ⟨S512x2048, .bf16⟩
  | .local _ .vmem, ⟨16, _⟩ => ⟨S2048x1, .f32⟩
  | .local _ .vmem, ⟨17, _⟩ => ⟨S2048x1, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S2048x2048, .f32⟩
  | .local _ .vmem, ⟨23, _⟩ => ⟨S2048x2048, .f32⟩
  | .local _ .vmem, ⟨24, _⟩ => ⟨S2048x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![4, 2, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 2 → Memref sig .tc .vmem S1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true, false]

abbrev stage2_5 : Fin 2 → Memref sig .tc .vmem S2048x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

class Facts₀ : Prop where
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S512x1_S512x1_0_0 : ∀ a, (![0, 0] : Fin 2 → Nat) a + S512x1.size a ≤ S512x1.size a
  h_S512x1 : 0 < S512x1.numel
  transposes_S4096x4096_S4096x4096_1_0 : S4096x4096.Transposes [1, 0] S4096x4096
  shapeCasts_S4096x1_S1x4096 : S4096x1.ShapeCasts S1x4096
  shapeCasts_S512x4096_S512x4096 : S512x4096.ShapeCasts S512x4096
  shapeCasts_S4096_S1x4096 : S4096.ShapeCasts S1x4096
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x2048 : S2048x1.Broadcasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  shapeCasts_S8192x4096_S4x2048x4096 : S8192x4096.ShapeCasts S4x2048x4096
  dot_S2048x512_S512x2048_S2048x2048_1_0_0_1_n_n_wf : DotDims.WF S2048x512 S512x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S8192x4096.size a
  hwx1_1 : ∀ i : grid1.Coords, EltTy.bits .bf16 = 32 ∨ (Rect.block (s := S8192x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x4096.size a
  hwx2_0 : ∀ i : grid2.Coords, EltTy.bits .bf16 = 32 ∨ (Rect.block (s := S8192x4096) S2048x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S4096x4096.size a
  hwx2_1 : ∀ i : grid2.Coords, EltTy.bits .bf16 = 32 ∨ (Rect.block (s := S4096x4096) S512x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x4096.size a
  hwx2_3 : ∀ i : grid2.Coords, EltTy.bits .f32 = 32 ∨ (Rect.block (s := S1x4096) S1x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x4096.size a
  hwx2_4 : ∀ i : grid2.Coords, EltTy.bits .f32 = 32 ∨ (Rect.block (s := S1x4096) S1x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x2048.size a ≤ S8192x4096.size a
  hwx2_5 : ∀ i : grid2.Coords, EltTy.bits .f32 = 32 ∨ (Rect.block (s := S8192x4096) S2048x2048.size (cc2_transform_5 i) (hinb2_5 i)).WholeWords (EltTy.packing .f32)

variable [Facts₀]

def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S512x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S512x4096.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_1) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4_0) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4_1) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v6) S2048x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S8192x4096 : Shape := ⟨2, ![8192, 4096]⟩
abbrev S8192 : Shape := ⟨1, ![8192]⟩
abbrev S8192x1 : Shape := ⟨2, ![8192, 1]⟩
abbrev S1x4096 : Shape := ⟨2, ![1, 4096]⟩

abbrev nBuf : Space → Nat
  | .hbm => 76
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .i1⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S8192x4096, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .i1⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S8192x1, .f32⟩
  | .hbm, ⟨48, _⟩ => ⟨S8192x4096, .f32⟩
  | .hbm, ⟨49, _⟩ => ⟨S8192x4096, .f32⟩
  | .hbm, ⟨50, _⟩ => ⟨S8192x4096, .f32⟩
  | .hbm, ⟨51, _⟩ => ⟨S8192x1, .f32⟩
  | .hbm, ⟨52, _⟩ => ⟨S8192x4096, .f32⟩
  | .hbm, ⟨53, _⟩ => ⟨S8192x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192x4096, .f32⟩
  | .hbm, ⟨58, _⟩ => ⟨S8192x4096, .f32⟩
  | .hbm, ⟨59, _⟩ => ⟨S_, .f32⟩
  | .hbm, ⟨60, _⟩ => ⟨S8192x4096, .f32⟩
  | .hbm, ⟨61, _⟩ => ⟨S8192x4096, .f32⟩
  | .hbm, ⟨62, _⟩ => ⟨S8192x1, .f32⟩
  | .hbm, ⟨63, _⟩ => ⟨S8192x4096, .f32⟩
  | .hbm, ⟨64, _⟩ => ⟨S8192x4096, .f32⟩
  | .hbm, ⟨65, _⟩ => ⟨S8192x4096, .f32⟩
  | .hbm, ⟨66, _⟩ => ⟨S8192x1, .f32⟩
  | .hbm, ⟨67, _⟩ => ⟨S1x4096, .f32⟩
  | .hbm, ⟨68, _⟩ => ⟨S8192x4096, .f32⟩
  | .hbm, ⟨69, _⟩ => ⟨S8192x4096, .f32⟩
  | .hbm, ⟨70, _⟩ => ⟨S8192x4096, .f32⟩
  | .hbm, ⟨71, _⟩ => ⟨S8192x4096, .f32⟩
  | .hbm, ⟨72, _⟩ => ⟨S1x4096, .f32⟩
  | .hbm, ⟨73, _⟩ => ⟨S8192x4096, .f32⟩
  | .hbm, ⟨74, _⟩ => ⟨S8192x4096, .f32⟩
  | .hbm, ⟨75, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_cst_4 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_cst_6 : Ref sig .tc := ⟨.hbm, 31, rfl⟩
abbrev main_v14 : Ref sig .tc := ⟨.hbm, 32, rfl⟩
abbrev main_v15 : Ref sig .tc := ⟨.hbm, 33, rfl⟩
abbrev main_cst_7 : Ref sig .tc := ⟨.hbm, 34, rfl⟩
abbrev main_v16 : Ref sig .tc := ⟨.hbm, 35, rfl⟩
abbrev main_v17 : Ref sig .tc := ⟨.hbm, 36, rfl⟩
abbrev main_cst_8 : Ref sig .tc := ⟨.hbm, 37, rfl⟩
abbrev main_v18 : Ref sig .tc := ⟨.hbm, 38, rfl⟩
abbrev main_v19 : Ref sig .tc := ⟨.hbm, 39, rfl⟩
abbrev main_cst_9 : Ref sig .tc := ⟨.hbm, 40, rfl⟩
abbrev main_call3_v0 : Ref sig .tc := ⟨.hbm, 41, rfl⟩
abbrev main_call3_v1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_10 : Ref sig .tc := ⟨.hbm, 54, rfl⟩
abbrev main_cst_11 : Ref sig .tc := ⟨.hbm, 55, rfl⟩
abbrev main_call6_v0 : Ref sig .tc := ⟨.hbm, 56, rfl⟩
abbrev main_call6_v1 : Ref sig .tc := ⟨.hbm, 57, rfl⟩
abbrev main_call6_v2 : Ref sig .tc := ⟨.hbm, 58, rfl⟩
abbrev main_call6_v3 : Ref sig .tc := ⟨.hbm, 59, rfl⟩
abbrev main_call6_v4 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  shapeCasts_S4x2048x4096_S8192x4096 : S4x2048x4096.ShapeCasts S8192x4096
  reducesTo_S8192x4096_S8192_d1 : S8192x4096.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.QuantBodies.lean ====
/-
  The two quantization regions of the program, each as a pipeline over blocks of 512 rows: what the body leaves in its
  two output buffers at a point, the body's run, and the obligation the pipeline library asks of a body. Stated at a
  parameter V, the contents of the core's arrays when the region is entered.
-/
import proofs.«124754_j56530359550878_2_alg».proof.Proof.Gen.KernelIdeal.Launch
import proofs.«124754_j56530359550878_2_alg».proof.Proof.Gen.KernelIdeal.Skeleton
import proofs.«124754_j56530359550878_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Q0

/-! # The weight-quantization region (pallas_call 0), at the contents V its arrays hold when it is entered

The grid runs over blocks of 512 rows. At a point the body reads the whole 512 x 4096 input block, and stores two
results, each covering its whole staging buffer in one store: the quantized block (a function of the input block
alone) and the column of the 512 rows' scales. So after the body an output buffer holds exactly the stored payload,
whatever it held before. -/

/-- Window w's block at point t, read off the array the region finds. -/
def iblk0 (V : (c : Dev nD) → (b : Ref sig .tc) → Buf (Elt F) ((c : Thread nD τ).loc b)) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

variable (V : (c : Dev nD) → (b : Ref sig .tc) → Buf (Elt F) ((c : Thread nD τ).loc b))

/-- The input window's staging buffer holds its block at every point: it is fetched at every point and the body
    leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512 x 4096 rectangle and the whole 512 x 1 rectangle: the body's only accesses. -/
abbrev rBlk0 : Rect S512x4096 := Rect.unit (s := S512x4096) ![0, 0] S512x4096.size inb_S512x4096_S512x4096_0_0
abbrev rCol0 : Rect S512x1 := Rect.unit (s := S512x1) ![0, 0] S512x1.size inb_S512x1_S512x1_0_0

/-- What the body leaves in the quantized block's buffer: its one store. -/
def out0_1 (x0 : Vec F S512x4096 .f32) : Vec F S512x4096 .bf16 :=
  View.canon [⟨rBlk0, k0_pay2 (View.ld x0 rBlk0)⟩]
/-- What the body leaves in the scale column's buffer: its one store. -/
def out0_2 (x0 : Vec F S512x4096 .f32) : Vec F S512x1 .f32 :=
  View.canon [⟨rCol0, k0_pay1 (View.ld x0 rBlk0)⟩]

/-- The one store covers the buffer. -/
theorem cover0_1 (p0 : Vec F S512x4096 .bf16) (y : S512x4096.Idx) :
    ∃ pc ∈ ([⟨rBlk0, p0⟩] : List (View.Piece (Elt F) S512x4096 .bf16)), y ∈ pc.1.set :=
  View.cover_of_tiled [⟨rBlk0, p0⟩] S512x4096.size (by rfl) y
theorem cover0_2 (p0 : Vec F S512x1 .f32) (y : S512x1.Idx) :
    ∃ pc ∈ ([⟨rCol0, p0⟩] : List (View.Piece (Elt F) S512x1 .f32)), y ∈ pc.1.set :=
  View.cover_of_tiled [⟨rCol0, p0⟩] S512x1.size (by rfl) y

set_option maxHeartbeats 1000000 in
/-- The body on whole staging buffers, the input's at contents x0 and the outputs' at anything, runs to its end with
    the input's as it was and each output's at its stored payload. -/
theorem sound_kernel0 (c : Dev nD) (E : Set ℕ) (i : grid0.Coords) (arg1 : Memref sig .tc .vmem S512x4096 .f32) (harg1 : arg1.IsWhole)
    (arg2 : Memref sig .tc .vmem S512x4096 .bf16) (harg2 : arg2.IsWhole) (arg3 : Memref sig .tc .vmem S512x1 .f32) (harg3 : arg3.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__wquant_kernel i arg1 harg1 arg2 harg2 arg3 harg3) K := by
  simp only [cc0__wquant_kernel_eq_skeleton]; unfold cc0__wquant_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The region's proof data on core c: the arrays as the region finds them; after the body the input's buffer at its
    block and each output's at its payload of that block; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's buffer holds its block, so the body's run applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Q0

section Q1

/-! # The activation-quantization region (pallas_call 1), at the contents V its arrays hold when it is entered

The grid runs over blocks of 512 rows. At a point the body reads the whole 512 x 4096 input block, and stores two
results, each covering its whole staging buffer in one store: the quantized block (a function of the input block
alone) and the column of the 512 rows' scales. So after the body an output buffer holds exactly the stored payload,
whatever it held before. -/

/-- Window w's block at point t, read off the array the region finds. -/
def iblk1 (V : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

variable (V : (c : Dev nD) → (b : Ref sig .tc) → Buf (Elt F) ((c : Thread nD τ).loc b))

/-- The input window's staging buffer holds its block at every point: it is fetched at every point and the body
    leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 512 x 4096 rectangle and the whole 512 x 1 rectangle: the body's only accesses. -/
abbrev rBlk1 : Rect S512x4096 := Rect.unit (s := S512x4096) ![0, 0] S512x4096.size inb_S512x4096_S512x4096_0_0
abbrev rCol1 : Rect S512x1 := Rect.unit (s := S512x1) ![0, 0] S512x1.size inb_S512x1_S512x1_0_0

/-- What the body leaves in the quantized block's buffer: its one store. -/
def out1_1 (x0 : Vec F S512x4096 .f32) : Vec F S512x4096 .bf16 :=
  View.canon [⟨rBlk1, k1_pay4 (View.ld x0 rBlk1)⟩]
/-- What the body leaves in the scale column's buffer: its one store. -/
def out1_2 (x0 : Vec F S512x4096 .f32) : Vec F S512x1 .f32 :=
  View.canon [⟨rCol1, k1_pay3 (View.ld x0 rBlk1)⟩]

/-- The one store covers the buffer. -/
theorem cover1_1 (p0 : Vec F S512x4096 .bf16) (y : S512x4096.Idx) :
    ∃ pc ∈ ([⟨rBlk1, p0⟩] : List (View.Piece (Elt F) S512x4096 .bf16)), y ∈ pc.1.set :=
  View.cover_of_tiled [⟨rBlk1, p0⟩] S512x4096.size (by rfl) y
theorem cover1_2 (p0 : Vec F S512x1 .f32) (y : S512x1.Idx) :
    ∃ pc ∈ ([⟨rCol1, p0⟩] : List (View.Piece (Elt F) S512x1 .f32)), y ∈ pc.1.set :=
  View.cover_of_tiled [⟨rCol1, p0⟩] S512x1.size (by rfl) y

set_option maxHeartbeats 1000000 in
/-- The body on whole staging buffers, the input's at contents x0 and the outputs' at anything, runs to its end with
    the input's as it was and each output's at its stored payload. -/
theorem sound_kernel1 (c : Dev nD) (E : Set ℕ) (i : grid1.Coords) (arg1 : Memref sig .tc .vmem S512x4096 .f32) (harg1 : arg1.IsWhole)
    (arg2 : Memref sig .tc .vmem S512x4096 .bf16) (harg2 : arg2.IsWhole) (arg3 : Memref sig .tc .vmem S512x1 .f32) (harg3 : arg3.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0) ∗ owns (c : Thread nD τ) arg3 fullShare (out1_2 x0)) -∗ K ⟨⟩))
      ⊢ wp frame (wpE (defs₀ (F := F)) Variants.none c none) E (cc1__xquant_kernel i arg1 harg1 arg2 harg2 arg3 harg3) K := by
  simp only [cc1__xquant_kernel_eq_skeleton]; unfold cc1__xquant_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

/-- The region's proof data on core c: the arrays as the region finds them; after the body the input's buffer at its
    block and each output's at its payload of that block; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]
theorem before1_0 (c : Dev nD) (t : Fin cfg1.N) (d) : (dat1 V c).before 0 t d = iblk1 V c 0 t :=
  before1_0_of V (dat1 V c) (A_eq1 V c 0) (after1_0 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input's buffer holds its block, so the body's run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Q1

end Cert.KernelIdeal.Hand

end
-- ==== Proof.GemmShared.lean ====
/-
  The matrix-product region (pallas_call 2): a grid of 4 x 2 x 8 points, the last axis running over the 8 blocks of the
  contracted dimension. The body keeps an accumulator in a scratch buffer of its own across the 8 points of one output
  block: at the first of them it zeroes the accumulator, at every point it adds the product of the point's two input
  blocks, and at the last it scales the accumulator, adds the bias and stores the output block. Here: the two
  conditions in closed form over the grid, where the output window is idle, the names of the staging buffers, and the
  core's scoped buffers split into the accumulator and the others.
-/
import proofs.«124754_j56530359550878_2_alg».proof.Proof.Gen.KernelIdeal.Launch
import proofs.«124754_j56530359550878_2_alg».proof.Proof.Gen.KernelIdeal.Skeleton
import proofs.«124754_j56530359550878_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions -/

/-- "This is the first block of the contracted dimension": the body's first conditional, from the grid coordinates. -/
abbrev cond2_0 (i : grid2.Coords) : Prop := (Scalar.cmpi .ne (Scalar.extui (Scalar.cmpi .eq (BitVec.ofNat 32 (i 2).val) 0#32)) 0#32) = 1#1
/-- It holds at the points whose number is a multiple of 8. -/
theorem hcond2_0 : ∀ t : Fin cfg2.N, cond2_0 (grid2.coords t) ↔ t.val % 8 = 0 :=
  (by decide +kernel : ∀ t : Fin grid2.N, cond2_0 (grid2.coords t) ↔ t.val % 8 = 0)
/-- "This is the last block of the contracted dimension": the body's second conditional. -/
abbrev cond2_1 (i : grid2.Coords) : Prop := k2_cond2 i = 1#1
/-- It holds at the points whose number is 7 modulo 8. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Away from the last block of the contracted dimension the body stores nothing into the output window and the
    pipeline does not write it back. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
/-- At the last block it stores the output block. -/
theorem liveAt2_5 : ∀ t : Fin cfg2.N, cond2_1 (grid2.coords t) → cfg2.idle 5 (grid2.coords t) = false := by decide +kernel

/-! ## The buffers' names -/

/-- One staging buffer of the output window, through which its contents are stated. -/
abbrev VO2_5 : View sig .tc .vmem S2048x2048 .f32 := (Memref.whole cc2_stg5_0 : Memref sig .tc .vmem S2048x2048 .f32).view
/-- Each window's current staging buffer at point t, as the pipeline passes it, and its wholeness. -/
abbrev ms2_0 (t : Fin cfg2.N) : Memref sig .tc .vmem S2048x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2048x2048 .f32 := win2_5.stage (cfg2.slots t 5)
abbrev hs2_5 (t : Fin cfg2.N) : (ms2_5 t).IsWhole := hstage2_5 ((cfg2.slots t 5).cast nbuf2_5)
/-- The accumulator: a whole scoped buffer of the kernel's own. -/
abbrev scM2 : Memref sig .tc .vmem S2048x2048 .f32 := Memref.whole cc2_scratch0
abbrev VS2 : View sig .tc .vmem S2048x2048 .f32 := scM2.view

/-! ## The core's scoped buffers: the accumulator and the others -/

/-- The scoped buffers that are neither a staging buffer of this region nor the accumulator (the other two regions'
    staging buffers), each whole at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region is handed besides its windows: the others, the accumulator at some contents, and the generator
    register at some state. -/
theorem PhiA2_split (c : Dev nD) :
    (Pipeline.ΦA spec2 c : sProp 𝕄) ⊢ iprop(iprop(others2 c ∗ (∃ d, owns (c : Thread nD τ) scM2 fullShare d)) ∗ (∃ r, prngReg c r)) := by
  unfold Pipeline.ΦA others2; rw [scopedRest2_eq]; simp only [scM2, owns_whole]
  iintro ⟨⟨B0, B1, B2, B3, B4, B5, B6, B7, B8, B9, B10, B11, HS⟩, Hg⟩
  isplitl [B0 B1 B2 B3 B4 B5 B6 B7 B8 B9 B10 B11 HS]
  · isplitl [B0 B1 B2 B3 B4 B5 B6 B7 B8 B9 B10 B11]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      iexact B11
    iexact HS
  iexact Hg

/-- And the same given back. -/
theorem PhiA2_join (c : Dev nD) :
    iprop(iprop(others2 c ∗ (∃ d, owns (c : Thread nD τ) scM2 fullShare d)) ∗ (∃ r, prngReg c r)) ⊢ (Pipeline.ΦA spec2 c : sProp 𝕄) := by
  unfold Pipeline.ΦA others2; rw [scopedRest2_eq]; simp only [scM2, owns_whole]
  iintro ⟨⟨⟨B0, B1, B2, B3, B4, B5, B6, B7, B8, B9, B10, B11⟩, HS⟩, Hg⟩
  isplitl [B0 B1 B2 B3 B4 B5 B6 B7 B8 B9 B10 B11 HS]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    iexact HS
  iexact Hg

end Cert.KernelIdeal.Hand

end
-- ==== Proof.GemmRunA.lean ====
/-
  The matrix-product body run whole, at the first block of the contracted dimension (the accumulator zeroed, then the first product added; the output window idle): which pieces its stores leave in the accumulator and in the output
  buffer, with the proof that on whole buffers the body runs to its end leaving exactly those pieces written.
-/
import proofs.«124754_j56530359550878_2_alg».proof.Proof.GemmShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The pieces and the run, at a point where the first conditional holds and the second does not. The accumulator may
    hold anything before; the output buffer is handed back as found. -/
noncomputable def kernelRun2_A (c : Dev nD) (i : grid2.Coords) (arg3 : Memref sig .tc .vmem S2048x512 .bf16) (harg3 : arg3.IsWhole) (arg4 : Memref sig .tc .vmem S512x2048 .bf16) (harg4 : arg4.IsWhole) (arg5 : Memref sig .tc .vmem S2048x1 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x2048 .f32) (harg8 : arg8.IsWhole) (arg9 : Memref sig .tc .vmem S2048x2048 .f32) (harg9 : arg9.IsWhole) (hc0 : cond2_0 i) (hc1 : ¬cond2_1 i)
    (x0 : Vec F S2048x512 .bf16) (x1 : Vec F S512x2048 .bf16) (x2 : Vec F S2048x1 .f32) (x3 : Vec F S1x2048 .f32) (x4 : Vec F S1x2048 .f32) :
    Σ' (L5 : List (View.Piece (Elt F) S2048x2048 .f32)), { LS0 : List (View.Piece (Elt F) S2048x2048 .f32) //
      ∀ (xi5 : Vec F S2048x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2__qgemm_kernel i arg3 harg3 arg4 harg4 arg5 harg5 arg6 harg6 arg7 harg7 arg8 harg8 arg9 harg9) K } := by
  refine ⟨[], ?_, fun xi5 E K => ?run⟩
  case run =>
    simp only [cc2__qgemm_kernel_eq_skeleton]; unfold cc2__qgemm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.GemmRunB.lean ====
/-
  The matrix-product body run whole, at a middle block of the contracted dimension (the product added to the accumulator; the output window idle): which pieces its stores leave in the accumulator and in the output
  buffer, with the proof that on whole buffers the body runs to its end leaving exactly those pieces written.
-/
import proofs.«124754_j56530359550878_2_alg».proof.Proof.GemmShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The pieces and the run, at a point where neither conditional holds. The accumulator holds xs0 before; the output
    buffer is handed back as found. -/
noncomputable def kernelRun2_B (c : Dev nD) (i : grid2.Coords) (arg3 : Memref sig .tc .vmem S2048x512 .bf16) (harg3 : arg3.IsWhole) (arg4 : Memref sig .tc .vmem S512x2048 .bf16) (harg4 : arg4.IsWhole) (arg5 : Memref sig .tc .vmem S2048x1 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x2048 .f32) (harg8 : arg8.IsWhole) (arg9 : Memref sig .tc .vmem S2048x2048 .f32) (harg9 : arg9.IsWhole) (hc0 : ¬cond2_0 i) (hc1 : ¬cond2_1 i)
    (x0 : Vec F S2048x512 .bf16) (x1 : Vec F S512x2048 .bf16) (x2 : Vec F S2048x1 .f32) (x3 : Vec F S1x2048 .f32) (x4 : Vec F S1x2048 .f32) (xs0 : Vec F S2048x2048 .f32) :
    Σ' (L5 : List (View.Piece (Elt F) S2048x2048 .f32)), { LS0 : List (View.Piece (Elt F) S2048x2048 .f32) //
      ∀ (xi5 : Vec F S2048x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2__qgemm_kernel i arg3 harg3 arg4 harg4 arg5 harg5 arg6 harg6 arg7 harg7 arg8 harg8 arg9 harg9) K } := by
  refine ⟨[], ?_, fun xi5 E K => ?run⟩
  case run =>
    simp only [cc2__qgemm_kernel_eq_skeleton]; unfold cc2__qgemm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.GemmRunC.lean ====
/-
  The matrix-product body run whole, at the last block of the contracted dimension (the product added, then the accumulator scaled, the bias added and the output block stored): which pieces its stores leave in the accumulator and in the output
  buffer, with the proof that on whole buffers the body runs to its end leaving exactly those pieces written.
-/
import proofs.«124754_j56530359550878_2_alg».proof.Proof.GemmShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The pieces and the run, at a point where the second conditional holds and the first does not. The accumulator holds
    xs0 before; the output buffer may hold anything before. -/
noncomputable def kernelRun2_C (c : Dev nD) (i : grid2.Coords) (arg3 : Memref sig .tc .vmem S2048x512 .bf16) (harg3 : arg3.IsWhole) (arg4 : Memref sig .tc .vmem S512x2048 .bf16) (harg4 : arg4.IsWhole) (arg5 : Memref sig .tc .vmem S2048x1 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x2048 .f32) (harg8 : arg8.IsWhole) (arg9 : Memref sig .tc .vmem S2048x2048 .f32) (harg9 : arg9.IsWhole) (hc0 : ¬cond2_0 i) (hc1 : cond2_1 i)
    (x0 : Vec F S2048x512 .bf16) (x1 : Vec F S512x2048 .bf16) (x2 : Vec F S2048x1 .f32) (x3 : Vec F S1x2048 .f32) (x4 : Vec F S1x2048 .f32) (xs0 : Vec F S2048x2048 .f32) :
    Σ' (L5 : List (View.Piece (Elt F) S2048x2048 .f32)), { LS0 : List (View.Piece (Elt F) S2048x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc2__qgemm_kernel i arg3 harg3 arg4 harg4 arg5 harg5 arg6 harg6 arg7 harg7 arg8 harg8 arg9 harg9) K } := by
  refine ⟨?_, ?_, fun E K => ?run⟩
  case run =>
    simp only [cc2__qgemm_kernel_eq_skeleton]; unfold cc2__qgemm_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Hand

end
-- ==== Proof.Gemm.lean ====
/-
  The matrix-product region as a pipeline with an accumulator carried from point to point: what each of the three kinds
  of point leaves in the accumulator and in the output buffer, the contents after every point by recursion on the
  point's number, the invariant that hands the accumulator from one point to the next, the pipeline's proof data, and
  the obligation the pipeline library asks of the body. Stated at a parameter V, the contents of the core's arrays when
  the region is entered.
-/
import proofs.«124754_j56530359550878_2_alg».proof.Proof.GemmRunA
import proofs.«124754_j56530359550878_2_alg».proof.Proof.GemmRunB
import proofs.«124754_j56530359550878_2_alg».proof.Proof.GemmRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Window w's block at point t, read off the array the region finds. -/
def iblk2 (V : (c : Dev nD) → (b : Ref sig .tc) → Buf (Elt F) ((c : Thread nD τ).loc b)) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

variable (V : (c : Dev nD) → (b : Ref sig .tc) → Buf (Elt F) ((c : Thread nD τ).loc b))

/-! ## Each input window's staging buffer holds its block at every point (fetched there, or left from the point
    before, whose block is the same) -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What each kind of point leaves -/

section Pieces
variable (c : Dev nD) (i : grid2.Coords) (arg3 : Memref sig .tc .vmem S2048x512 .bf16) (harg3 : arg3.IsWhole) (arg4 : Memref sig .tc .vmem S512x2048 .bf16) (harg4 : arg4.IsWhole) (arg5 : Memref sig .tc .vmem S2048x1 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x2048 .f32) (harg8 : arg8.IsWhole) (arg9 : Memref sig .tc .vmem S2048x2048 .f32) (harg9 : arg9.IsWhole)

/-- At a first block the output buffer gets no store: a placeholder nothing consults. -/
def out2_A_5 (hc0 : cond2_0 i) (hc1 : ¬cond2_1 i) (x0 : Vec F S2048x512 .bf16) (x1 : Vec F S512x2048 .bf16) (x2 : Vec F S2048x1 .f32) (x3 : Vec F S1x2048 .f32) (x4 : Vec F S1x2048 .f32) : Vec F S2048x2048 .f32 :=
  VO2_5.read (Elt F) (VO2_5.writes (Elt F) VO2_5.junk (kernelRun2_A c i arg3 harg3 arg4 harg4 arg5 harg5 arg6 harg6 arg7 harg7 arg8 harg8 arg9 harg9 hc0 hc1 x0 x1 x2 x3 x4).1)
/-- Its stores into the accumulator cover it. -/
theorem scover2_A (hc0 : cond2_0 i) (hc1 : ¬cond2_1 i) (x0 : Vec F S2048x512 .bf16) (x1 : Vec F S512x2048 .bf16) (x2 : Vec F S2048x1 .f32) (x3 : Vec F S1x2048 .f32) (x4 : Vec F S1x2048 .f32) (y : S2048x2048.Idx) :
    ∃ pc ∈ (kernelRun2_A c i arg3 harg3 arg4 harg4 arg5 harg5 arg6 harg6 arg7 harg7 arg8 harg8 arg9 harg9 hc0 hc1 x0 x1 x2 x3 x4).2.1, y ∈ pc.1.set :=
  View.cover_of_tiledL (kernelRun2_A c i arg3 harg3 arg4 harg4 arg5 harg5 arg6 harg6 arg7 harg7 arg8 harg8 arg9 harg9 hc0 hc1 x0 x1 x2 x3 x4).2.1 S2048x2048.size (by sl_kernel_rfl) y
/-- What a first block leaves in the accumulator. -/
def sout2_A (hc0 : cond2_0 i) (hc1 : ¬cond2_1 i) (x0 : Vec F S2048x512 .bf16) (x1 : Vec F S512x2048 .bf16) (x2 : Vec F S2048x1 .f32) (x3 : Vec F S1x2048 .f32) (x4 : Vec F S1x2048 .f32) : Vec F S2048x2048 .f32 :=
  VS2.read (Elt F) (VS2.writes (Elt F) VS2.junk (kernelRun2_A c i arg3 harg3 arg4 harg4 arg5 harg5 arg6 harg6 arg7 harg7 arg8 harg8 arg9 harg9 hc0 hc1 x0 x1 x2 x3 x4).2.1)

/-- At a middle block the output buffer gets no store either. -/
def out2_B_5 (hc0 : ¬cond2_0 i) (hc1 : ¬cond2_1 i) (x0 : Vec F S2048x512 .bf16) (x1 : Vec F S512x2048 .bf16) (x2 : Vec F S2048x1 .f32) (x3 : Vec F S1x2048 .f32) (x4 : Vec F S1x2048 .f32) (xs0 : Vec F S2048x2048 .f32) : Vec F S2048x2048 .f32 :=
  VO2_5.read (Elt F) (VO2_5.writes (Elt F) VO2_5.junk (kernelRun2_B c i arg3 harg3 arg4 harg4 arg5 harg5 arg6 harg6 arg7 harg7 arg8 harg8 arg9 harg9 hc0 hc1 x0 x1 x2 x3 x4 xs0).1)
theorem scover2_B (hc0 : ¬cond2_0 i) (hc1 : ¬cond2_1 i) (x0 : Vec F S2048x512 .bf16) (x1 : Vec F S512x2048 .bf16) (x2 : Vec F S2048x1 .f32) (x3 : Vec F S1x2048 .f32) (x4 : Vec F S1x2048 .f32) (xs0 : Vec F S2048x2048 .f32) (y : S2048x2048.Idx) :
    ∃ pc ∈ (kernelRun2_B c i arg3 harg3 arg4 harg4 arg5 harg5 arg6 harg6 arg7 harg7 arg8 harg8 arg9 harg9 hc0 hc1 x0 x1 x2 x3 x4 xs0).2.1, y ∈ pc.1.set :=
  View.cover_of_tiledL (kernelRun2_B c i arg3 harg3 arg4 harg4 arg5 harg5 arg6 harg6 arg7 harg7 arg8 harg8 arg9 harg9 hc0 hc1 x0 x1 x2 x3 x4 xs0).2.1 S2048x2048.size (by sl_kernel_rfl) y
/-- What a middle block leaves in the accumulator, from what the point before left. -/
def sout2_B (hc0 : ¬cond2_0 i) (hc1 : ¬cond2_1 i) (x0 : Vec F S2048x512 .bf16) (x1 : Vec F S512x2048 .bf16) (x2 : Vec F S2048x1 .f32) (x3 : Vec F S1x2048 .f32) (x4 : Vec F S1x2048 .f32) (xs0 : Vec F S2048x2048 .f32) : Vec F S2048x2048 .f32 :=
  VS2.read (Elt F) (VS2.writes (Elt F) VS2.junk (kernelRun2_B c i arg3 harg3 arg4 harg4 arg5 harg5 arg6 harg6 arg7 harg7 arg8 harg8 arg9 harg9 hc0 hc1 x0 x1 x2 x3 x4 xs0).2.1)

/-- At a last block the one store into the output buffer covers it. -/
theorem cover2_C_5 (hc0 : ¬cond2_0 i) (hc1 : cond2_1 i) (x0 : Vec F S2048x512 .bf16) (x1 : Vec F S512x2048 .bf16) (x2 : Vec F S2048x1 .f32) (x3 : Vec F S1x2048 .f32) (x4 : Vec F S1x2048 .f32) (xs0 : Vec F S2048x2048 .f32) (y : S2048x2048.Idx) :
    ∃ pc ∈ (kernelRun2_C c i arg3 harg3 arg4 harg4 arg5 harg5 arg6 harg6 arg7 harg7 arg8 harg8 arg9 harg9 hc0 hc1 x0 x1 x2 x3 x4 xs0).1, y ∈ pc.1.set :=
  View.cover_of_tiledL (kernelRun2_C c i arg3 harg3 arg4 harg4 arg5 harg5 arg6 harg6 arg7 harg7 arg8 harg8 arg9 harg9 hc0 hc1 x0 x1 x2 x3 x4 xs0).1 S2048x2048.size (by sl_kernel_rfl) y
/-- What a last block leaves in the output buffer. -/
def out2_C_5 (hc0 : ¬cond2_0 i) (hc1 : cond2_1 i) (x0 : Vec F S2048x512 .bf16) (x1 : Vec F S512x2048 .bf16) (x2 : Vec F S2048x1 .f32) (x3 : Vec F S1x2048 .f32) (x4 : Vec F S1x2048 .f32) (xs0 : Vec F S2048x2048 .f32) : Vec F S2048x2048 .f32 :=
  VO2_5.read (Elt F) (VO2_5.writes (Elt F) VO2_5.junk (kernelRun2_C c i arg3 harg3 arg4 harg4 arg5 harg5 arg6 harg6 arg7 harg7 arg8 harg8 arg9 harg9 hc0 hc1 x0 x1 x2 x3 x4 xs0).1)
theorem scover2_C (hc0 : ¬cond2_0 i) (hc1 : cond2_1 i) (x0 : Vec F S2048x512 .bf16) (x1 : Vec F S512x2048 .bf16) (x2 : Vec F S2048x1 .f32) (x3 : Vec F S1x2048 .f32) (x4 : Vec F S1x2048 .f32) (xs0 : Vec F S2048x2048 .f32) (y : S2048x2048.Idx) :
    ∃ pc ∈ (kernelRun2_C c i arg3 harg3 arg4 harg4 arg5 harg5 arg6 harg6 arg7 harg7 arg8 harg8 arg9 harg9 hc0 hc1 x0 x1 x2 x3 x4 xs0).2.1, y ∈ pc.1.set :=
  View.cover_of_tiledL (kernelRun2_C c i arg3 harg3 arg4 harg4 arg5 harg5 arg6 harg6 arg7 harg7 arg8 harg8 arg9 harg9 hc0 hc1 x0 x1 x2 x3 x4 xs0).2.1 S2048x2048.size (by sl_kernel_rfl) y
/-- What a last block leaves in the accumulator. -/
def sout2_C (hc0 : ¬cond2_0 i) (hc1 : cond2_1 i) (x0 : Vec F S2048x512 .bf16) (x1 : Vec F S512x2048 .bf16) (x2 : Vec F S2048x1 .f32) (x3 : Vec F S1x2048 .f32) (x4 : Vec F S1x2048 .f32) (xs0 : Vec F S2048x2048 .f32) : Vec F S2048x2048 .f32 :=
  VS2.read (Elt F) (VS2.writes (Elt F) VS2.junk (kernelRun2_C c i arg3 harg3 arg4 harg4 arg5 harg5 arg6 harg6 arg7 harg7 arg8 harg8 arg9 harg9 hc0 hc1 x0 x1 x2 x3 x4 xs0).2.1)

end Pieces

/-! ## The contents after each point -/

/-- A first block's pair (output buffer, accumulator) at point t, on the point's own buffers and input blocks. -/
def stepA (c : Dev nD) (t : Fin cfg2.N) (h0 : t.val % 8 = 0) (h1 : ¬t.val % 8 = 7) : Vec F S2048x2048 .f32 × Vec F S2048x2048 .f32 :=
  (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t),
   sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t))
/-- A middle block's pair, over what the point before left in the accumulator. -/
def stepB (c : Dev nD) (t : Fin cfg2.N) (h0 : ¬t.val % 8 = 0) (h1 : ¬t.val % 8 = 7) (xs : Vec F S2048x2048 .f32) : Vec F S2048x2048 .f32 × Vec F S2048x2048 .f32 :=
  (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) xs,
   sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) xs)
/-- A last block's pair, over what the point before left in the accumulator. -/
def stepC (c : Dev nD) (t : Fin cfg2.N) (h0 : ¬t.val % 8 = 0) (h1 : t.val % 8 = 7) (xs : Vec F S2048x2048 .f32) : Vec F S2048x2048 .f32 × Vec F S2048x2048 .f32 :=
  (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) xs,
   sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) xs)

/-- THE ACCUMULATION: the output buffer and the accumulator after the body at point n, by recursion on n: the kind of
    point its number selects, a middle or last block over what point n - 1 left in the accumulator. -/
def outsAt2 (c : Dev nD) : (n : ℕ) → n < cfg2.N → Vec F S2048x2048 .f32 × Vec F S2048x2048 .f32
  | 0, hn => stepA V c ⟨0, hn⟩ (show 0 % 8 = 0 from rfl) (show ¬0 % 8 = 7 by decide)
  | n + 1, hn =>
    if h0 : (n + 1) % 8 = 0 then
      if h1 : (n + 1) % 8 = 7 then False.elim (by omega)
      else stepA V c ⟨n + 1, hn⟩ h0 h1
    else
      if h1 : (n + 1) % 8 = 7 then stepC V c ⟨n + 1, hn⟩ h0 h1 (outsAt2 c n (Nat.lt_of_succ_lt hn)).2
      else stepB V c ⟨n + 1, hn⟩ h0 h1 (outsAt2 c n (Nat.lt_of_succ_lt hn)).2

theorem outsAt2_A (c : Dev nD) (t : Fin cfg2.N) (h0 : t.val % 8 = 0) (h1 : ¬t.val % 8 = 7) :
    outsAt2 V c t.val t.isLt = stepA V c t h0 h1 := by
  obtain ⟨n, hn⟩ := t
  cases n with
  | zero => exact rfl
  | succ n => exact (dif_pos h0).trans ((dif_neg h1).trans rfl)
theorem outsAt2_B (c : Dev nD) (t : Fin cfg2.N) (h0 : ¬t.val % 8 = 0) (h1 : ¬t.val % 8 = 7) :
    outsAt2 V c t.val t.isLt = stepB V c t h0 h1 (outsAt2 V c (t.val - 1) (Nat.lt_of_le_of_lt (Nat.sub_le _ _) t.isLt)).2 := by
  obtain ⟨n, hn⟩ := t
  cases n with
  | zero => exact (by exfalso; exact h0 (Nat.zero_mod _))
  | succ n => exact (dif_neg h0).trans ((dif_neg h1).trans rfl)
theorem outsAt2_C (c : Dev nD) (t : Fin cfg2.N) (h0 : ¬t.val % 8 = 0) (h1 : t.val % 8 = 7) :
    outsAt2 V c t.val t.isLt = stepC V c t h0 h1 (outsAt2 V c (t.val - 1) (Nat.lt_of_le_of_lt (Nat.sub_le _ _) t.isLt)).2 := by
  obtain ⟨n, hn⟩ := t
  cases n with
  | zero => exact (by exfalso; exact h0 (Nat.zero_mod _))
  | succ n => exact (dif_neg h0).trans ((dif_pos h1).trans rfl)

/-! ## The invariant: the accumulator handed from point to point -/

/-- Before point n: at the start what the region is handed; afterwards the other scoped buffers at anything, the
    accumulator at what point n - 1 left in it, and the generator register at some state. -/
def PhiS (c : Dev nD) : (n : ℕ) → n ≤ cfg2.N → sProp 𝕄
  | 0, _ => Pipeline.ΦA spec2 c
  | n + 1, hn => iprop(iprop(others2 c ∗ owns (c : Thread nD τ) scM2 fullShare ((outsAt2 V c n hn).2)) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(others2 c ∗ owns (c : Thread nD τ) scM2 fullShare ((outsAt2 V c n hn).2)) ∗ (∃ r, prngReg c r)) := rfl
theorem PhiS_pos (c : Dev nD) (n : ℕ) (h : n ≤ cfg2.N) (hz : n ≠ 0) :
    PhiS V c n h = iprop(iprop(others2 c ∗ owns (c : Thread nD τ) scM2 fullShare ((outsAt2 V c (n - 1) (by omega)).2)) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t)

theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (ms2_3 t) fullShare (iblk2 V c 3 t) := by
  unfold Dat.leavesExact; rw [liveAt2_3 t, after2_3]
theorem leaves2_4 (c : Dev nD) (t : Fin cfg2.N) :
    (dat2 V c).leavesExact 4 t = owns (c : Thread nD τ) (ms2_4 t) fullShare (iblk2 V c 4 t) := by
  unfold Dat.leavesExact; rw [liveAt2_4 t, after2_4]

set_option maxHeartbeats 4800000 in
/-- The body at any point. Its number modulo 8 says which kind of point it is; the inputs' buffers hold their blocks;
    the invariant hands the body the accumulator at what the point before left (at anything, at the very first point)
    and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS V c (t.val + 1) t.isLt from rfl, PhiS_succ]
  rw [leaves2_0, leaves2_1, leaves2_2, leaves2_3, leaves2_4]
  have hN : t.val < 64 := lt_of_lt_of_eq t.isLt (show cfg2.N = 64 from N_2)
  by_cases h0 : t.val % 8 = 0
  · have h1 : ¬t.val % 8 = 7 := by omega
    rw [Dat.leavesExact_idle (dat2 V c) 5 t (idleAt2_5 t (fun h => h1 ((hcond2_1 t).mp h))) (noFlush2_5 t (fun h => h1 ((hcond2_1 t).mp h)))]
    rw [outsAt2_A V c t h0 h1]
    unfold stepA sout2_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA2_split (F := F) c) $$ HΦ
      icases HΦ' with ⟨⟨Hoth, HS0⟩, Hg⟩
      iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg Hoth]
      · isplitl [HS0 Hoth]
        · isplitl [Hoth]; · iexact Hoth
          unfold owns; iexists _; isplitr
          swap; · iexact HS0
          ipureintro; exact View.read_writes_of_cover _ _ _ _ _ (scover2_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hg Hoth]
      · isplitl [HS0 Hoth]
        · isplitl [Hoth]; · iexact Hoth
          unfold owns; iexists _; isplitr
          swap; · iexact HS0
          ipureintro; exact View.read_writes_of_cover _ _ _ _ _ (scover2_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 8 = 7
    · rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold stepC out2_C_5 sout2_C; (try dsimp only)
      rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg Hoth]
      · isplitl [HS0 Hoth]
        · isplitl [Hoth]; · iexact Hoth
          unfold owns; iexists _; isplitr
          swap; · iexact HS0
          ipureintro; exact View.read_writes_of_cover _ _ _ _ _ (scover2_C c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _ _ _)
    · rw [Dat.leavesExact_idle (dat2 V c) 5 t (idleAt2_5 t (fun h => h1 ((hcond2_1 t).mp h))) (noFlush2_5 t (fun h => h1 ((hcond2_1 t).mp h)))]
      rw [outsAt2_B V c t h0 h1]
      unfold stepB sout2_B; (try dsimp only)
      rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg Hoth]
      · isplitl [HS0 Hoth]
        · isplitl [Hoth]; · iexact Hoth
          unfold owns; iexists _; isplitr
          swap; · iexact HS0
          ipureintro; exact View.read_writes_of_cover _ _ _ _ _ (scover2_B c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the same back: the accumulator's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 64 := N_2; omega
  rw [show (dat2 V c).Φ (Fin.last cfg2.N) = PhiS V c (Fin.last cfg2.N).val (Nat.le_of_lt_succ (Fin.last cfg2.N).isLt) from rfl, PhiS_pos V c _ _ hne]
  iintro ⟨⟨Hoth, HS0⟩, Hg⟩
  iapply (PhiA2_join (F := F) c)
  isplitl [Hoth HS0]
  · isplitl [Hoth]; · iexact Hoth
    iexists _; iexact HS0
  iexact Hg

end Cert.KernelIdeal.Hand

end
-- ==== Proof.MainRun.lean ====
/-
  The whole program run: four stretches of host operations around three pipelines. The contents of the core's arrays
  at each of the eight boundaries are a fold from the launch memory (a stretch applies its operations; a region puts
  each of its output arrays at what its write-backs leave). Every weakly fair execution terminates, nothing faulting,
  with every unscoped buffer at the last boundary's contents; in particular the three argument arrays end as launched,
  since no stretch and no region writes one.
-/
import proofs.«124754_j56530359550878_2_alg».proof.Proof.QuantBodies
import proofs.«124754_j56530359550878_2_alg».proof.Proof.Gemm

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After the first stretch (the activations flattened to [8192, 4096]). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After region 0: its arrays at what the pipeline leaves (an input as entered, an output's written-back blocks
    folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the quantized weights transposed, their scales laid out as a row). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After region 1: its arrays at what the pipeline leaves (an input as entered, an output's written-back blocks
    folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (the bias laid out as a row). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After region 2: its arrays at what the pipeline leaves (an input as entered, an output's written-back blocks
    folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last stretch (the product reshaped to [4, 2048, 4096]). -/
abbrev W7 : Dev nD → Valuation τ sig (Elt F) := fun c => StableHlo.after hostOps3 (W6 m ρ c)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at the contents before it, left with them at the
    contents after it. Its arrays are split out of the unscoped buffers and put back at their final contents; the
    generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it. Its arrays are split out of the unscoped buffers and put back at their final contents; the
    generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at the
    contents after it. Its arrays are split out of the unscoped buffers and put back at their final contents; the
    generator register goes into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine BIBase.Entails.trans ?_ (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => show iprop(StableHlo.held (c : Thread nD τ) (Pipeline.ucRefs τ sig) (W7 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every execution terminates, nothing faulting, with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

/-- The run with the result named: the result array ends at the last boundary's contents, the arguments as launched. -/
theorem run_value : θ_run defs (onTc (τ := τ) (main (F := F))) ⟨m, fun _ => 0, ρ⟩ (fun r => ∀ c : Dev nD,
      r.2.mem ((c.tc : Thread nD τ).loc main_v7) = W7 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v7 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

end Cert.KernelIdeal.Hand

end
-- ==== Proof.QuantBodiesBits.lean ====
/-
  The two quantization regions of the program, each as a pipeline over blocks of 512 rows: what the body leaves in its
  two output buffers at a point, the body's run, and the obligation the pipeline library asks of a body. Stated at a
  parameter V, the contents of the core's arrays when the region is entered.
-/
import proofs.«124754_j56530359550878_2_alg».proof.Proof.Gen.Kernel.Launch
import proofs.«124754_j56530359550878_2_alg».proof.Proof.Gen.Kernel.Skeleton
import proofs.«124754_j56530359550878_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Q0

/-! # The weight-quantization region (pallas_call 0), at the contents V its arrays hold when it is entered

The grid runs over blocks of 512 rows. At a point the body reads the whole 512 x 4096 input block, and stores two
results, each covering its whole staging buffer in one store: the quantized block (a function of the input block
alone) and the column of the 512 rows' scales. So after the body an output buffer holds exactly the stored payload,
whatever it held before. -/

/-- Window w's block at point t, read off the array the region finds. -/
def iblk0 (V : (c : Dev nD) → (b : Ref sig .tc) → Buf (Elt F) ((c : Thread nD τ).loc b)) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

variable (V : (c : Dev nD) → (b : Ref sig .tc) → Buf (Elt F) ((c : Thread nD τ).loc b))

/-- The input window's staging buffer holds its block at every point: it is fetched at every point and the body
    leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512 x 4096 rectangle and the whole 512 x 1 rectangle: the body's only accesses. -/
abbrev rBlk0 : Rect S512x4096 := Rect.unit (s := S512x4096) ![0, 0] S512x4096.size inb_S512x4096_S512x4096_0_0
abbrev rCol0 : Rect S512x1 := Rect.unit (s := S512x1) ![0, 0] S512x1.size inb_S512x1_S512x1_0_0

/-- What the body leaves in the quantized block's buffer: its one store. -/
def out0_1 (x0 : Vec F S512x4096 .f32) : Vec F S512x4096 .bf16 :=
  View.canon [⟨rBlk0, k0_pay2 (View.ld x0 rBlk0)⟩]
/-- What the body leaves in the scale column's buffer: its one store. -/
def out0_2 (x0 : Vec F S512x4096 .f32) : Vec F S512x1 .f32 :=
  View.canon [⟨rCol0, k0_pay1 (View.ld x0 rBlk0)⟩]

/-- The one store covers the buffer. -/
theorem cover0_1 (p0 : Vec F S512x4096 .bf16) (y : S512x4096.Idx) :
    ∃ pc ∈ ([⟨rBlk0, p0⟩] : List (View.Piece (Elt F) S512x4096 .bf16)), y ∈ pc.1.set :=
  View.cover_of_tiled [⟨rBlk0, p0⟩] S512x4096.size (by rfl) y
theorem cover0_2 (p0 : Vec F S512x1 .f32) (y : S512x1.Idx) :
    ∃ pc ∈ ([⟨rCol0, p0⟩] : List (View.Piece (Elt F) S512x1 .f32)), y ∈ pc.1.set :=
  View.cover_of_tiled [⟨rCol0, p0⟩] S512x1.size (by rfl) y

set_option maxHeartbeats 1000000 in
/-- The body on whole staging buffers, the input's at contents x0 and the outputs' at anything, runs to its end with
    the input's as it was and each output's at its stored payload. -/
theorem sound_kernel0 (c : Dev nD) (E : Set ℕ) (i : grid0.Coords) (arg1 : Memref sig .tc .vmem S512x4096 .f32) (harg1 : arg1.IsWhole)
    (arg2 : Memref sig .tc .vmem S512x4096 .bf16) (harg2 : arg2.IsWhole) (arg3 : Memref sig .tc .vmem S512x1 .f32) (harg3 : arg3.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__wquant_kernel i arg1 harg1 arg2 harg2 arg3 harg3) K := by
  simp only [cc0__wquant_kernel_eq_skeleton]; unfold cc0__wquant_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The region's proof data on core c: the arrays as the region finds them; after the body the input's buffer at its
    block and each output's at its payload of that block; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's buffer holds its block, so the body's run applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Q0

section Q1

/-! # The activation-quantization region (pallas_call 1), at the contents V its arrays hold when it is entered

The grid runs over blocks of 512 rows. At a point the body reads the whole 512 x 4096 input block, and stores two
results, each covering its whole staging buffer in one store: the quantized block (a function of the input block
alone) and the column of the 512 rows' scales. So after the body an output buffer holds exactly the stored payload,
whatever it held before. -/

/-- Window w's block at point t, read off the array the region finds. -/
def iblk1 (V : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

variable (V : (c : Dev nD) → (b : Ref sig .tc) → Buf (Elt F) ((c : Thread nD τ).loc b))

/-- The input window's staging buffer holds its block at every point: it is fetched at every point and the body
    leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 512 x 4096 rectangle and the whole 512 x 1 rectangle: the body's only accesses. -/
abbrev rBlk1 : Rect S512x4096 := Rect.unit (s := S512x4096) ![0, 0] S512x4096.size inb_S512x4096_S512x4096_0_0
abbrev rCol1 : Rect S512x1 := Rect.unit (s := S512x1) ![0, 0] S512x1.size inb_S512x1_S512x1_0_0

/-- What the body leaves in the quantized block's buffer: its one store. -/
def out1_1 (x0 : Vec F S512x4096 .f32) : Vec F S512x4096 .bf16 :=
  View.canon [⟨rBlk1, k1_pay4 (View.ld x0 rBlk1)⟩]
/-- What the body leaves in the scale column's buffer: its one store. -/
def out1_2 (x0 : Vec F S512x4096 .f32) : Vec F S512x1 .f32 :=
  View.canon [⟨rCol1, k1_pay3 (View.ld x0 rBlk1)⟩]

/-- The one store covers the buffer. -/
theorem cover1_1 (p0 : Vec F S512x4096 .bf16) (y : S512x4096.Idx) :
    ∃ pc ∈ ([⟨rBlk1, p0⟩] : List (View.Piece (Elt F) S512x4096 .bf16)), y ∈ pc.1.set :=
  View.cover_of_tiled [⟨rBlk1, p0⟩] S512x4096.size (by rfl) y
theorem cover1_2 (p0 : Vec F S512x1 .f32) (y : S512x1.Idx) :
    ∃ pc ∈ ([⟨rCol1, p0⟩] : List (View.Piece (Elt F) S512x1 .f32)), y ∈ pc.1.set :=
  View.cover_of_tiled [⟨rCol1, p0⟩] S512x1.size (by rfl) y

set_option maxHeartbeats 1000000 in
/-- The body on whole staging buffers, the input's at contents x0 and the outputs' at anything, runs to its end with
    the input's as it was and each output's at its stored payload. -/
theorem sound_kernel1 (c : Dev nD) (E : Set ℕ) (i : grid1.Coords) (arg1 : Memref sig .tc .vmem S512x4096 .f32) (harg1 : arg1.IsWhole)
    (arg2 : Memref sig .tc .vmem S512x4096 .bf16) (harg2 : arg2.IsWhole) (arg3 : Memref sig .tc .vmem S512x1 .f32) (harg3 : arg3.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0) ∗ owns (c : Thread nD τ) arg3 fullShare (out1_2 x0)) -∗ K ⟨⟩))
      ⊢ wp frame (wpE (defs₀ (F := F)) Variants.none c none) E (cc1__xquant_kernel i arg1 harg1 arg2 harg2 arg3 harg3) K := by
  simp only [cc1__xquant_kernel_eq_skeleton]; unfold cc1__xquant_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

/-- The region's proof data on core c: the arrays as the region finds them; after the body the input's buffer at its
    block and each output's at its payload of that block; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]
theorem before1_0 (c : Dev nD) (t : Fin cfg1.N) (d) : (dat1 V c).before 0 t d = iblk1 V c 0 t :=
  before1_0_of V (dat1 V c) (A_eq1 V c 0) (after1_0 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input's buffer holds its block, so the body's run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Q1

end Cert.Kernel.Hand

end
-- ==== Proof.GemmSharedBits.lean ====
/-
  The matrix-product region (pallas_call 2): a grid of 4 x 2 x 8 points, the last axis running over the 8 blocks of the
  contracted dimension. The body keeps an accumulator in a scratch buffer of its own across the 8 points of one output
  block: at the first of them it zeroes the accumulator, at every point it adds the product of the point's two input
  blocks, and at the last it scales the accumulator, adds the bias and stores the output block. Here: the two
  conditions in closed form over the grid, where the output window is idle, the names of the staging buffers, and the
  core's scoped buffers split into the accumulator and the others.
-/
import proofs.«124754_j56530359550878_2_alg».proof.Proof.Gen.Kernel.Launch
import proofs.«124754_j56530359550878_2_alg».proof.Proof.Gen.Kernel.Skeleton
import proofs.«124754_j56530359550878_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions -/

/-- "This is the first block of the contracted dimension": the body's first conditional, from the grid coordinates. -/
abbrev cond2_0 (i : grid2.Coords) : Prop := (Scalar.cmpi .ne (Scalar.extui (Scalar.cmpi .eq (BitVec.ofNat 32 (i 2).val) 0#32)) 0#32) = 1#1
/-- It holds at the points whose number is a multiple of 8. -/
theorem hcond2_0 : ∀ t : Fin cfg2.N, cond2_0 (grid2.coords t) ↔ t.val % 8 = 0 :=
  (by decide +kernel : ∀ t : Fin grid2.N, cond2_0 (grid2.coords t) ↔ t.val % 8 = 0)
/-- "This is the last block of the contracted dimension": the body's second conditional. -/
abbrev cond2_1 (i : grid2.Coords) : Prop := k2_cond2 i = 1#1
/-- It holds at the points whose number is 7 modulo 8. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Away from the last block of the contracted dimension the body stores nothing into the output window and the
    pipeline does not write it back. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
/-- At the last block it stores the output block. -/
theorem liveAt2_5 : ∀ t : Fin cfg2.N, cond2_1 (grid2.coords t) → cfg2.idle 5 (grid2.coords t) = false := by decide +kernel

/-! ## The buffers' names -/

/-- One staging buffer of the output window, through which its contents are stated. -/
abbrev VO2_5 : View sig .tc .vmem S2048x2048 .f32 := (Memref.whole cc2_stg5_0 : Memref sig .tc .vmem S2048x2048 .f32).view
/-- Each window's current staging buffer at point t, as the pipeline passes it, and its wholeness. -/
abbrev ms2_0 (t : Fin cfg2.N) : Memref sig .tc .vmem S2048x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2048x2048 .f32 := win2_5.stage (cfg2.slots t 5)
abbrev hs2_5 (t : Fin cfg2.N) : (ms2_5 t).IsWhole := hstage2_5 ((cfg2.slots t 5).cast nbuf2_5)
/-- The accumulator: a whole scoped buffer of the kernel's own. -/
abbrev scM2 : Memref sig .tc .vmem S2048x2048 .f32 := Memref.whole cc2_scratch0
abbrev VS2 : View sig .tc .vmem S2048x2048 .f32 := scM2.view

/-! ## The core's scoped buffers: the accumulator and the others -/

/-- The scoped buffers that are neither a staging buffer of this region nor the accumulator (the other two regions'
    staging buffers), each whole at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region is handed besides its windows: the others, the accumulator at some contents, and the generator
    register at some state. -/
theorem PhiA2_split (c : Dev nD) :
    (Pipeline.ΦA spec2 c : sProp 𝕄) ⊢ iprop(iprop(others2 c ∗ (∃ d, owns (c : Thread nD τ) scM2 fullShare d)) ∗ (∃ r, prngReg c r)) := by
  unfold Pipeline.ΦA others2; rw [scopedRest2_eq]; simp only [scM2, owns_whole]
  iintro ⟨⟨B0, B1, B2, B3, B4, B5, B6, B7, B8, B9, B10, B11, HS⟩, Hg⟩
  isplitl [B0 B1 B2 B3 B4 B5 B6 B7 B8 B9 B10 B11 HS]
  · isplitl [B0 B1 B2 B3 B4 B5 B6 B7 B8 B9 B10 B11]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      iexact B11
    iexact HS
  iexact Hg

/-- And the same given back. -/
theorem PhiA2_join (c : Dev nD) :
    iprop(iprop(others2 c ∗ (∃ d, owns (c : Thread nD τ) scM2 fullShare d)) ∗ (∃ r, prngReg c r)) ⊢ (Pipeline.ΦA spec2 c : sProp 𝕄) := by
  unfold Pipeline.ΦA others2; rw [scopedRest2_eq]; simp only [scM2, owns_whole]
  iintro ⟨⟨⟨B0, B1, B2, B3, B4, B5, B6, B7, B8, B9, B10, B11⟩, HS⟩, Hg⟩
  isplitl [B0 B1 B2 B3 B4 B5 B6 B7 B8 B9 B10 B11 HS]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    iexact HS
  iexact Hg

end Cert.Kernel.Hand

end
-- ==== Proof.GemmRunABits.lean ====
/-
  The matrix-product body run whole, at the first block of the contracted dimension (the accumulator zeroed, then the first product added; the output window idle): which pieces its stores leave in the accumulator and in the output
  buffer, with the proof that on whole buffers the body runs to its end leaving exactly those pieces written.
-/
import proofs.«124754_j56530359550878_2_alg».proof.Proof.GemmSharedBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The pieces and the run, at a point where the first conditional holds and the second does not. The accumulator may
    hold anything before; the output buffer is handed back as found. -/
noncomputable def kernelRun2_A (c : Dev nD) (i : grid2.Coords) (arg3 : Memref sig .tc .vmem S2048x512 .bf16) (harg3 : arg3.IsWhole) (arg4 : Memref sig .tc .vmem S512x2048 .bf16) (harg4 : arg4.IsWhole) (arg5 : Memref sig .tc .vmem S2048x1 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x2048 .f32) (harg8 : arg8.IsWhole) (arg9 : Memref sig .tc .vmem S2048x2048 .f32) (harg9 : arg9.IsWhole) (hc0 : cond2_0 i) (hc1 : ¬cond2_1 i)
    (x0 : Vec F S2048x512 .bf16) (x1 : Vec F S512x2048 .bf16) (x2 : Vec F S2048x1 .f32) (x3 : Vec F S1x2048 .f32) (x4 : Vec F S1x2048 .f32) :
    Σ' (L5 : List (View.Piece (Elt F) S2048x2048 .f32)), { LS0 : List (View.Piece (Elt F) S2048x2048 .f32) //
      ∀ (xi5 : Vec F S2048x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2__qgemm_kernel i arg3 harg3 arg4 harg4 arg5 harg5 arg6 harg6 arg7 harg7 arg8 harg8 arg9 harg9) K } := by
  refine ⟨[], ?_, fun xi5 E K => ?run⟩
  case run =>
    simp only [cc2__qgemm_kernel_eq_skeleton]; unfold cc2__qgemm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.GemmRunBBits.lean ====
/-
  The matrix-product body run whole, at a middle block of the contracted dimension (the product added to the accumulator; the output window idle): which pieces its stores leave in the accumulator and in the output
  buffer, with the proof that on whole buffers the body runs to its end leaving exactly those pieces written.
-/
import proofs.«124754_j56530359550878_2_alg».proof.Proof.GemmSharedBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The pieces and the run, at a point where neither conditional holds. The accumulator holds xs0 before; the output
    buffer is handed back as found. -/
noncomputable def kernelRun2_B (c : Dev nD) (i : grid2.Coords) (arg3 : Memref sig .tc .vmem S2048x512 .bf16) (harg3 : arg3.IsWhole) (arg4 : Memref sig .tc .vmem S512x2048 .bf16) (harg4 : arg4.IsWhole) (arg5 : Memref sig .tc .vmem S2048x1 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x2048 .f32) (harg8 : arg8.IsWhole) (arg9 : Memref sig .tc .vmem S2048x2048 .f32) (harg9 : arg9.IsWhole) (hc0 : ¬cond2_0 i) (hc1 : ¬cond2_1 i)
    (x0 : Vec F S2048x512 .bf16) (x1 : Vec F S512x2048 .bf16) (x2 : Vec F S2048x1 .f32) (x3 : Vec F S1x2048 .f32) (x4 : Vec F S1x2048 .f32) (xs0 : Vec F S2048x2048 .f32) :
    Σ' (L5 : List (View.Piece (Elt F) S2048x2048 .f32)), { LS0 : List (View.Piece (Elt F) S2048x2048 .f32) //
      ∀ (xi5 : Vec F S2048x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2__qgemm_kernel i arg3 harg3 arg4 harg4 arg5 harg5 arg6 harg6 arg7 harg7 arg8 harg8 arg9 harg9) K } := by
  refine ⟨[], ?_, fun xi5 E K => ?run⟩
  case run =>
    simp only [cc2__qgemm_kernel_eq_skeleton]; unfold cc2__qgemm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.GemmRunCBits.lean ====
/-
  The matrix-product body run whole, at the last block of the contracted dimension (the product added, then the accumulator scaled, the bias added and the output block stored): which pieces its stores leave in the accumulator and in the output
  buffer, with the proof that on whole buffers the body runs to its end leaving exactly those pieces written.
-/
import proofs.«124754_j56530359550878_2_alg».proof.Proof.GemmSharedBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The pieces and the run, at a point where the second conditional holds and the first does not. The accumulator holds
    xs0 before; the output buffer may hold anything before. -/
noncomputable def kernelRun2_C (c : Dev nD) (i : grid2.Coords) (arg3 : Memref sig .tc .vmem S2048x512 .bf16) (harg3 : arg3.IsWhole) (arg4 : Memref sig .tc .vmem S512x2048 .bf16) (harg4 : arg4.IsWhole) (arg5 : Memref sig .tc .vmem S2048x1 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x2048 .f32) (harg8 : arg8.IsWhole) (arg9 : Memref sig .tc .vmem S2048x2048 .f32) (harg9 : arg9.IsWhole) (hc0 : ¬cond2_0 i) (hc1 : cond2_1 i)
    (x0 : Vec F S2048x512 .bf16) (x1 : Vec F S512x2048 .bf16) (x2 : Vec F S2048x1 .f32) (x3 : Vec F S1x2048 .f32) (x4 : Vec F S1x2048 .f32) (xs0 : Vec F S2048x2048 .f32) :
    Σ' (L5 : List (View.Piece (Elt F) S2048x2048 .f32)), { LS0 : List (View.Piece (Elt F) S2048x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc2__qgemm_kernel i arg3 harg3 arg4 harg4 arg5 harg5 arg6 harg6 arg7 harg7 arg8 harg8 arg9 harg9) K } := by
  refine ⟨?_, ?_, fun E K => ?run⟩
  case run =>
    simp only [cc2__qgemm_kernel_eq_skeleton]; unfold cc2__qgemm_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Hand

end
-- ==== Proof.GemmBits.lean ====
/-
  The matrix-product region as a pipeline with an accumulator carried from point to point: what each of the three kinds
  of point leaves in the accumulator and in the output buffer, the contents after every point by recursion on the
  point's number, the invariant that hands the accumulator from one point to the next, the pipeline's proof data, and
  the obligation the pipeline library asks of the body. Stated at a parameter V, the contents of the core's arrays when
  the region is entered.
-/
import proofs.«124754_j56530359550878_2_alg».proof.Proof.GemmRunABits
import proofs.«124754_j56530359550878_2_alg».proof.Proof.GemmRunBBits
import proofs.«124754_j56530359550878_2_alg».proof.Proof.GemmRunCBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Window w's block at point t, read off the array the region finds. -/
def iblk2 (V : (c : Dev nD) → (b : Ref sig .tc) → Buf (Elt F) ((c : Thread nD τ).loc b)) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

variable (V : (c : Dev nD) → (b : Ref sig .tc) → Buf (Elt F) ((c : Thread nD τ).loc b))

/-! ## Each input window's staging buffer holds its block at every point (fetched there, or left from the point
    before, whose block is the same) -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What each kind of point leaves -/

section Pieces
variable (c : Dev nD) (i : grid2.Coords) (arg3 : Memref sig .tc .vmem S2048x512 .bf16) (harg3 : arg3.IsWhole) (arg4 : Memref sig .tc .vmem S512x2048 .bf16) (harg4 : arg4.IsWhole) (arg5 : Memref sig .tc .vmem S2048x1 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x2048 .f32) (harg8 : arg8.IsWhole) (arg9 : Memref sig .tc .vmem S2048x2048 .f32) (harg9 : arg9.IsWhole)

/-- At a first block the output buffer gets no store: a placeholder nothing consults. -/
def out2_A_5 (hc0 : cond2_0 i) (hc1 : ¬cond2_1 i) (x0 : Vec F S2048x512 .bf16) (x1 : Vec F S512x2048 .bf16) (x2 : Vec F S2048x1 .f32) (x3 : Vec F S1x2048 .f32) (x4 : Vec F S1x2048 .f32) : Vec F S2048x2048 .f32 :=
  VO2_5.read (Elt F) (VO2_5.writes (Elt F) VO2_5.junk (kernelRun2_A c i arg3 harg3 arg4 harg4 arg5 harg5 arg6 harg6 arg7 harg7 arg8 harg8 arg9 harg9 hc0 hc1 x0 x1 x2 x3 x4).1)
/-- Its stores into the accumulator cover it. -/
theorem scover2_A (hc0 : cond2_0 i) (hc1 : ¬cond2_1 i) (x0 : Vec F S2048x512 .bf16) (x1 : Vec F S512x2048 .bf16) (x2 : Vec F S2048x1 .f32) (x3 : Vec F S1x2048 .f32) (x4 : Vec F S1x2048 .f32) (y : S2048x2048.Idx) :
    ∃ pc ∈ (kernelRun2_A c i arg3 harg3 arg4 harg4 arg5 harg5 arg6 harg6 arg7 harg7 arg8 harg8 arg9 harg9 hc0 hc1 x0 x1 x2 x3 x4).2.1, y ∈ pc.1.set :=
  View.cover_of_tiledL (kernelRun2_A c i arg3 harg3 arg4 harg4 arg5 harg5 arg6 harg6 arg7 harg7 arg8 harg8 arg9 harg9 hc0 hc1 x0 x1 x2 x3 x4).2.1 S2048x2048.size (by sl_kernel_rfl) y
/-- What a first block leaves in the accumulator. -/
def sout2_A (hc0 : cond2_0 i) (hc1 : ¬cond2_1 i) (x0 : Vec F S2048x512 .bf16) (x1 : Vec F S512x2048 .bf16) (x2 : Vec F S2048x1 .f32) (x3 : Vec F S1x2048 .f32) (x4 : Vec F S1x2048 .f32) : Vec F S2048x2048 .f32 :=
  VS2.read (Elt F) (VS2.writes (Elt F) VS2.junk (kernelRun2_A c i arg3 harg3 arg4 harg4 arg5 harg5 arg6 harg6 arg7 harg7 arg8 harg8 arg9 harg9 hc0 hc1 x0 x1 x2 x3 x4).2.1)

/-- At a middle block the output buffer gets no store either. -/
def out2_B_5 (hc0 : ¬cond2_0 i) (hc1 : ¬cond2_1 i) (x0 : Vec F S2048x512 .bf16) (x1 : Vec F S512x2048 .bf16) (x2 : Vec F S2048x1 .f32) (x3 : Vec F S1x2048 .f32) (x4 : Vec F S1x2048 .f32) (xs0 : Vec F S2048x2048 .f32) : Vec F S2048x2048 .f32 :=
  VO2_5.read (Elt F) (VO2_5.writes (Elt F) VO2_5.junk (kernelRun2_B c i arg3 harg3 arg4 harg4 arg5 harg5 arg6 harg6 arg7 harg7 arg8 harg8 arg9 harg9 hc0 hc1 x0 x1 x2 x3 x4 xs0).1)
theorem scover2_B (hc0 : ¬cond2_0 i) (hc1 : ¬cond2_1 i) (x0 : Vec F S2048x512 .bf16) (x1 : Vec F S512x2048 .bf16) (x2 : Vec F S2048x1 .f32) (x3 : Vec F S1x2048 .f32) (x4 : Vec F S1x2048 .f32) (xs0 : Vec F S2048x2048 .f32) (y : S2048x2048.Idx) :
    ∃ pc ∈ (kernelRun2_B c i arg3 harg3 arg4 harg4 arg5 harg5 arg6 harg6 arg7 harg7 arg8 harg8 arg9 harg9 hc0 hc1 x0 x1 x2 x3 x4 xs0).2.1, y ∈ pc.1.set :=
  View.cover_of_tiledL (kernelRun2_B c i arg3 harg3 arg4 harg4 arg5 harg5 arg6 harg6 arg7 harg7 arg8 harg8 arg9 harg9 hc0 hc1 x0 x1 x2 x3 x4 xs0).2.1 S2048x2048.size (by sl_kernel_rfl) y
/-- What a middle block leaves in the accumulator, from what the point before left. -/
def sout2_B (hc0 : ¬cond2_0 i) (hc1 : ¬cond2_1 i) (x0 : Vec F S2048x512 .bf16) (x1 : Vec F S512x2048 .bf16) (x2 : Vec F S2048x1 .f32) (x3 : Vec F S1x2048 .f32) (x4 : Vec F S1x2048 .f32) (xs0 : Vec F S2048x2048 .f32) : Vec F S2048x2048 .f32 :=
  VS2.read (Elt F) (VS2.writes (Elt F) VS2.junk (kernelRun2_B c i arg3 harg3 arg4 harg4 arg5 harg5 arg6 harg6 arg7 harg7 arg8 harg8 arg9 harg9 hc0 hc1 x0 x1 x2 x3 x4 xs0).2.1)

/-- At a last block the one store into the output buffer covers it. -/
theorem cover2_C_5 (hc0 : ¬cond2_0 i) (hc1 : cond2_1 i) (x0 : Vec F S2048x512 .bf16) (x1 : Vec F S512x2048 .bf16) (x2 : Vec F S2048x1 .f32) (x3 : Vec F S1x2048 .f32) (x4 : Vec F S1x2048 .f32) (xs0 : Vec F S2048x2048 .f32) (y : S2048x2048.Idx) :
    ∃ pc ∈ (kernelRun2_C c i arg3 harg3 arg4 harg4 arg5 harg5 arg6 harg6 arg7 harg7 arg8 harg8 arg9 harg9 hc0 hc1 x0 x1 x2 x3 x4 xs0).1, y ∈ pc.1.set :=
  View.cover_of_tiledL (kernelRun2_C c i arg3 harg3 arg4 harg4 arg5 harg5 arg6 harg6 arg7 harg7 arg8 harg8 arg9 harg9 hc0 hc1 x0 x1 x2 x3 x4 xs0).1 S2048x2048.size (by sl_kernel_rfl) y
/-- What a last block leaves in the output buffer. -/
def out2_C_5 (hc0 : ¬cond2_0 i) (hc1 : cond2_1 i) (x0 : Vec F S2048x512 .bf16) (x1 : Vec F S512x2048 .bf16) (x2 : Vec F S2048x1 .f32) (x3 : Vec F S1x2048 .f32) (x4 : Vec F S1x2048 .f32) (xs0 : Vec F S2048x2048 .f32) : Vec F S2048x2048 .f32 :=
  VO2_5.read (Elt F) (VO2_5.writes (Elt F) VO2_5.junk (kernelRun2_C c i arg3 harg3 arg4 harg4 arg5 harg5 arg6 harg6 arg7 harg7 arg8 harg8 arg9 harg9 hc0 hc1 x0 x1 x2 x3 x4 xs0).1)
theorem scover2_C (hc0 : ¬cond2_0 i) (hc1 : cond2_1 i) (x0 : Vec F S2048x512 .bf16) (x1 : Vec F S512x2048 .bf16) (x2 : Vec F S2048x1 .f32) (x3 : Vec F S1x2048 .f32) (x4 : Vec F S1x2048 .f32) (xs0 : Vec F S2048x2048 .f32) (y : S2048x2048.Idx) :
    ∃ pc ∈ (kernelRun2_C c i arg3 harg3 arg4 harg4 arg5 harg5 arg6 harg6 arg7 harg7 arg8 harg8 arg9 harg9 hc0 hc1 x0 x1 x2 x3 x4 xs0).2.1, y ∈ pc.1.set :=
  View.cover_of_tiledL (kernelRun2_C c i arg3 harg3 arg4 harg4 arg5 harg5 arg6 harg6 arg7 harg7 arg8 harg8 arg9 harg9 hc0 hc1 x0 x1 x2 x3 x4 xs0).2.1 S2048x2048.size (by sl_kernel_rfl) y
/-- What a last block leaves in the accumulator. -/
def sout2_C (hc0 : ¬cond2_0 i) (hc1 : cond2_1 i) (x0 : Vec F S2048x512 .bf16) (x1 : Vec F S512x2048 .bf16) (x2 : Vec F S2048x1 .f32) (x3 : Vec F S1x2048 .f32) (x4 : Vec F S1x2048 .f32) (xs0 : Vec F S2048x2048 .f32) : Vec F S2048x2048 .f32 :=
  VS2.read (Elt F) (VS2.writes (Elt F) VS2.junk (kernelRun2_C c i arg3 harg3 arg4 harg4 arg5 harg5 arg6 harg6 arg7 harg7 arg8 harg8 arg9 harg9 hc0 hc1 x0 x1 x2 x3 x4 xs0).2.1)

end Pieces

/-! ## The contents after each point -/

/-- A first block's pair (output buffer, accumulator) at point t, on the point's own buffers and input blocks. -/
def stepA (c : Dev nD) (t : Fin cfg2.N) (h0 : t.val % 8 = 0) (h1 : ¬t.val % 8 = 7) : Vec F S2048x2048 .f32 × Vec F S2048x2048 .f32 :=
  (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t),
   sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t))
/-- A middle block's pair, over what the point before left in the accumulator. -/
def stepB (c : Dev nD) (t : Fin cfg2.N) (h0 : ¬t.val % 8 = 0) (h1 : ¬t.val % 8 = 7) (xs : Vec F S2048x2048 .f32) : Vec F S2048x2048 .f32 × Vec F S2048x2048 .f32 :=
  (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) xs,
   sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) xs)
/-- A last block's pair, over what the point before left in the accumulator. -/
def stepC (c : Dev nD) (t : Fin cfg2.N) (h0 : ¬t.val % 8 = 0) (h1 : t.val % 8 = 7) (xs : Vec F S2048x2048 .f32) : Vec F S2048x2048 .f32 × Vec F S2048x2048 .f32 :=
  (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) xs,
   sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) xs)

/-- THE ACCUMULATION: the output buffer and the accumulator after the body at point n, by recursion on n: the kind of
    point its number selects, a middle or last block over what point n - 1 left in the accumulator. -/
def outsAt2 (c : Dev nD) : (n : ℕ) → n < cfg2.N → Vec F S2048x2048 .f32 × Vec F S2048x2048 .f32
  | 0, hn => stepA V c ⟨0, hn⟩ (show 0 % 8 = 0 from rfl) (show ¬0 % 8 = 7 by decide)
  | n + 1, hn =>
    if h0 : (n + 1) % 8 = 0 then
      if h1 : (n + 1) % 8 = 7 then False.elim (by omega)
      else stepA V c ⟨n + 1, hn⟩ h0 h1
    else
      if h1 : (n + 1) % 8 = 7 then stepC V c ⟨n + 1, hn⟩ h0 h1 (outsAt2 c n (Nat.lt_of_succ_lt hn)).2
      else stepB V c ⟨n + 1, hn⟩ h0 h1 (outsAt2 c n (Nat.lt_of_succ_lt hn)).2

theorem outsAt2_A (c : Dev nD) (t : Fin cfg2.N) (h0 : t.val % 8 = 0) (h1 : ¬t.val % 8 = 7) :
    outsAt2 V c t.val t.isLt = stepA V c t h0 h1 := by
  obtain ⟨n, hn⟩ := t
  cases n with
  | zero => exact rfl
  | succ n => exact (dif_pos h0).trans ((dif_neg h1).trans rfl)
theorem outsAt2_B (c : Dev nD) (t : Fin cfg2.N) (h0 : ¬t.val % 8 = 0) (h1 : ¬t.val % 8 = 7) :
    outsAt2 V c t.val t.isLt = stepB V c t h0 h1 (outsAt2 V c (t.val - 1) (Nat.lt_of_le_of_lt (Nat.sub_le _ _) t.isLt)).2 := by
  obtain ⟨n, hn⟩ := t
  cases n with
  | zero => exact (by exfalso; exact h0 (Nat.zero_mod _))
  | succ n => exact (dif_neg h0).trans ((dif_neg h1).trans rfl)
theorem outsAt2_C (c : Dev nD) (t : Fin cfg2.N) (h0 : ¬t.val % 8 = 0) (h1 : t.val % 8 = 7) :
    outsAt2 V c t.val t.isLt = stepC V c t h0 h1 (outsAt2 V c (t.val - 1) (Nat.lt_of_le_of_lt (Nat.sub_le _ _) t.isLt)).2 := by
  obtain ⟨n, hn⟩ := t
  cases n with
  | zero => exact (by exfalso; exact h0 (Nat.zero_mod _))
  | succ n => exact (dif_neg h0).trans ((dif_pos h1).trans rfl)

/-! ## The invariant: the accumulator handed from point to point -/

/-- Before point n: at the start what the region is handed; afterwards the other scoped buffers at anything, the
    accumulator at what point n - 1 left in it, and the generator register at some state. -/
def PhiS (c : Dev nD) : (n : ℕ) → n ≤ cfg2.N → sProp 𝕄
  | 0, _ => Pipeline.ΦA spec2 c
  | n + 1, hn => iprop(iprop(others2 c ∗ owns (c : Thread nD τ) scM2 fullShare ((outsAt2 V c n hn).2)) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(others2 c ∗ owns (c : Thread nD τ) scM2 fullShare ((outsAt2 V c n hn).2)) ∗ (∃ r, prngReg c r)) := rfl
theorem PhiS_pos (c : Dev nD) (n : ℕ) (h : n ≤ cfg2.N) (hz : n ≠ 0) :
    PhiS V c n h = iprop(iprop(others2 c ∗ owns (c : Thread nD τ) scM2 fullShare ((outsAt2 V c (n - 1) (by omega)).2)) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t)

theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (ms2_3 t) fullShare (iblk2 V c 3 t) := by
  unfold Dat.leavesExact; rw [liveAt2_3 t, after2_3]
theorem leaves2_4 (c : Dev nD) (t : Fin cfg2.N) :
    (dat2 V c).leavesExact 4 t = owns (c : Thread nD τ) (ms2_4 t) fullShare (iblk2 V c 4 t) := by
  unfold Dat.leavesExact; rw [liveAt2_4 t, after2_4]

set_option maxHeartbeats 4800000 in
/-- The body at any point. Its number modulo 8 says which kind of point it is; the inputs' buffers hold their blocks;
    the invariant hands the body the accumulator at what the point before left (at anything, at the very first point)
    and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS V c (t.val + 1) t.isLt from rfl, PhiS_succ]
  rw [leaves2_0, leaves2_1, leaves2_2, leaves2_3, leaves2_4]
  have hN : t.val < 64 := lt_of_lt_of_eq t.isLt (show cfg2.N = 64 from N_2)
  by_cases h0 : t.val % 8 = 0
  · have h1 : ¬t.val % 8 = 7 := by omega
    rw [Dat.leavesExact_idle (dat2 V c) 5 t (idleAt2_5 t (fun h => h1 ((hcond2_1 t).mp h))) (noFlush2_5 t (fun h => h1 ((hcond2_1 t).mp h)))]
    rw [outsAt2_A V c t h0 h1]
    unfold stepA sout2_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA2_split (F := F) c) $$ HΦ
      icases HΦ' with ⟨⟨Hoth, HS0⟩, Hg⟩
      iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg Hoth]
      · isplitl [HS0 Hoth]
        · isplitl [Hoth]; · iexact Hoth
          unfold owns; iexists _; isplitr
          swap; · iexact HS0
          ipureintro; exact View.read_writes_of_cover _ _ _ _ _ (scover2_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hg Hoth]
      · isplitl [HS0 Hoth]
        · isplitl [Hoth]; · iexact Hoth
          unfold owns; iexists _; isplitr
          swap; · iexact HS0
          ipureintro; exact View.read_writes_of_cover _ _ _ _ _ (scover2_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 8 = 7
    · rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold stepC out2_C_5 sout2_C; (try dsimp only)
      rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg Hoth]
      · isplitl [HS0 Hoth]
        · isplitl [Hoth]; · iexact Hoth
          unfold owns; iexists _; isplitr
          swap; · iexact HS0
          ipureintro; exact View.read_writes_of_cover _ _ _ _ _ (scover2_C c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _ _ _)
    · rw [Dat.leavesExact_idle (dat2 V c) 5 t (idleAt2_5 t (fun h => h1 ((hcond2_1 t).mp h))) (noFlush2_5 t (fun h => h1 ((hcond2_1 t).mp h)))]
      rw [outsAt2_B V c t h0 h1]
      unfold stepB sout2_B; (try dsimp only)
      rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg Hoth]
      · isplitl [HS0 Hoth]
        · isplitl [Hoth]; · iexact Hoth
          unfold owns; iexists _; isplitr
          swap; · iexact HS0
          ipureintro; exact View.read_writes_of_cover _ _ _ _ _ (scover2_B c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the same back: the accumulator's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 64 := N_2; omega
  rw [show (dat2 V c).Φ (Fin.last cfg2.N) = PhiS V c (Fin.last cfg2.N).val (Nat.le_of_lt_succ (Fin.last cfg2.N).isLt) from rfl, PhiS_pos V c _ _ hne]
  iintro ⟨⟨Hoth, HS0⟩, Hg⟩
  iapply (PhiA2_join (F := F) c)
  isplitl [Hoth HS0]
  · isplitl [Hoth]; · iexact Hoth
    iexists _; iexact HS0
  iexact Hg

end Cert.Kernel.Hand

end
-- ==== Proof.MainRunBits.lean ====
/-
  The whole program run: four stretches of host operations around three pipelines. The contents of the core's arrays
  at each of the eight boundaries are a fold from the launch memory (a stretch applies its operations; a region puts
  each of its output arrays at what its write-backs leave). Every weakly fair execution terminates, nothing faulting,
  with every unscoped buffer at the last boundary's contents; in particular the three argument arrays end as launched,
  since no stretch and no region writes one.
-/
import proofs.«124754_j56530359550878_2_alg».proof.Proof.QuantBodiesBits
import proofs.«124754_j56530359550878_2_alg».proof.Proof.GemmBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After the first stretch (the activations flattened to [8192, 4096]). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After region 0: its arrays at what the pipeline leaves (an input as entered, an output's written-back blocks
    folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the quantized weights transposed, their scales laid out as a row). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After region 1: its arrays at what the pipeline leaves (an input as entered, an output's written-back blocks
    folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (the bias laid out as a row). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After region 2: its arrays at what the pipeline leaves (an input as entered, an output's written-back blocks
    folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last stretch (the product reshaped to [4, 2048, 4096]). -/
abbrev W7 : Dev nD → Valuation τ sig (Elt F) := fun c => StableHlo.after hostOps3 (W6 m ρ c)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at the contents before it, left with them at the
    contents after it. Its arrays are split out of the unscoped buffers and put back at their final contents; the
    generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it. Its arrays are split out of the unscoped buffers and put back at their final contents; the
    generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at the
    contents after it. Its arrays are split out of the unscoped buffers and put back at their final contents; the
    generator register goes into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine BIBase.Entails.trans ?_ (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => show iprop(StableHlo.held (c : Thread nD τ) (Pipeline.ucRefs τ sig) (W7 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every execution terminates, nothing faulting, with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

/-- The run with the result named: the result array ends at the last boundary's contents, the arguments as launched. -/
theorem run_value : θ_run defs (onTc (τ := τ) (main (F := F))) ⟨m, fun _ => 0, ρ⟩ (fun r => ∀ c : Dev nD,
      r.2.mem ((c.tc : Thread nD τ).loc main_v7) = W7 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v7 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

end Cert.Kernel.Hand

end
-- ==== Proof.Spec.lean ====
/-
  The quantized linear layer, row by row, on the extended reals.

  A weight row w (4096 entries) is scaled by s_w = a / 127 where a is the largest magnitude in the row (s_w = 1 when
  a is not positive), and quantized to q_w(k) = clamp(round(w(k) / s_w), -127, 127).  An activation row x is scaled by
  s_x = (max x - min x) / 255 (s_x = 1 when the range is not positive), shifted by the zero point
  z = round((0 - min x) / s_x), and quantized to q_x(k) = clamp(round(x(k) / s_x) + z, 0, 255) - z.  The output entry for
  an activation row x, a weight row w and a bias b is ((sum over k of q_x(k) * q_w(k)) * s_x) * s_w + b.
  Rounding is to nearest, ties to even; a maximum over a row is its supremum (the maximum taken from minus infinity), a
  minimum its infimum (taken from plus infinity).
-/
import Idealize.ShloMosaic.PureOps.Ideal
import Idealize.ShloMosaic.Lib.ValueIdx

noncomputable section

namespace Cert.QuantLinear

open Idealize.ShloMosaic Idealize.ShloMosaic.ValueIdx

/-- The f32 words the two programs share, as the extended reals they denote. -/
abbrev c0 : EReal := FloatOps.ofBits (F := Ideal) .f32 0x00000000#32
abbrev c1 : EReal := FloatOps.ofBits (F := Ideal) .f32 0x3F800000#32
abbrev c127 : EReal := FloatOps.ofBits (F := Ideal) .f32 0x42FE0000#32
abbrev cm127 : EReal := FloatOps.ofBits (F := Ideal) .f32 0xC2FE0000#32
abbrev c255 : EReal := FloatOps.ofBits (F := Ideal) .f32 0x437F0000#32

/-- Rounding to the nearest integer, ties to even; the infinities are fixed. -/
def rnd (x : EReal) : EReal := FloatOps.roundeven (F := Ideal) (φ := .f32) x

/-- The quotient of the extended reals the programs use. -/
def quo (x y : EReal) : EReal := FloatOps.divf (F := Ideal) (φ := .f32) x y

/-- A scale: r / q when r is positive, else 1. -/
def scaleOf (r q : EReal) : EReal :=
  Scalar.select (FloatOps.cmpf (F := Ideal) (φ := .f32) .ogt r c0) (quo r q) c1

/-- The largest magnitude of a row. -/
def absMax (w : Fin 4096 → EReal) : EReal := ⨆ k, FloatOps.absf (F := Ideal) (φ := .f32) (w k)

/-- The scale of a weight row. -/
def rowScale (w : Fin 4096 → EReal) : EReal := scaleOf (absMax w) c127

/-- A weight row quantized: round(w / s_w) clamped to [-127, 127]. -/
def wq (w : Fin 4096 → EReal) (k : Fin 4096) : EReal := min c127 (max cm127 (rnd (quo (w k) (rowScale w))))

/-- The smallest and the largest entry of an activation row. -/
def rowMin (x : Fin 4096 → EReal) : EReal := ⨅ k, x k
def rowMax (x : Fin 4096 → EReal) : EReal := ⨆ k, x k

/-- The scale of an activation row. -/
def colScale (x : Fin 4096 → EReal) : EReal := scaleOf (rowMax x - rowMin x) c255

/-- The zero point of an activation row. -/
def zp (x : Fin 4096 → EReal) : EReal := rnd (quo (c0 - rowMin x) (colScale x))

/-- An activation row quantized and shifted back: clamp(round(x / s_x) + z, 0, 255) - z. -/
def aq (x : Fin 4096 → EReal) (k : Fin 4096) : EReal :=
  min c255 (max c0 (rnd (quo (x k) (colScale x)) + zp x)) - zp x

/-- The integer product of a quantized activation row and a quantized weight row. -/
def dotRow (x w : Fin 4096 → EReal) : EReal := ∑ k : Fin 4096, aq x k * wq w k

/-- One output entry. -/
def outEntry (x w : Fin 4096 → EReal) (b : EReal) : EReal := (dotRow x w * colScale x) * rowScale w + b

/-- Row m of the activations [4, 2048, 4096] flattened to [8192, 4096]: m = 2048 * i + j. -/
def xRow (x : (⟨3, ![4, 2048, 4096]⟩ : Shape).Idx → EReal) (i : Fin 4) (j : Fin 2048) : Fin 4096 → EReal :=
  fun k => x (ix3 i j k)

/-- Row n of the weights. -/
def wRow (w : (⟨2, ![4096, 4096]⟩ : Shape).Idx → EReal) (n : Fin 4096) : Fin 4096 → EReal := fun k => w (ix2 n k)

/-- The whole result [4, 2048, 4096] as one function of the three argument arrays. -/
def result (x : (⟨3, ![4, 2048, 4096]⟩ : Shape).Idx → EReal) (w : (⟨2, ![4096, 4096]⟩ : Shape).Idx → EReal)
    (b : (⟨1, ![4096]⟩ : Shape).Idx → EReal) : (⟨3, ![4, 2048, 4096]⟩ : Shape).Idx → EReal :=
  fun j => outEntry (xRow x (j 0) (j 1)) (wRow w (j 2)) (b (ix1 (j 2)))

end Cert.QuantLinear

end
-- ==== Proof.LibMaxBounds.lean ====
/-
  A maximum read by its upper bounds.

  The maximum of a family, taken from minus infinity (the bottom element of the extended reals), lies below z exactly
  when every member of the family does: the universal property of a supremum. Three reductions are read this way, at the
  ideal values (a float is an extended real, the maximum of two floats is their max, and the f32 word 0xFF800000 is minus
  infinity): a maximum along the columns of a matrix [a, b], read at row r, ranges over the entries (r, k); a maximum
  along the rows of a one-column matrix [a, 1] ranges over the entries (p, 0); and a maximum over all three axes of an
  array [a, b, c] into a rank-zero result, taken from a rank-zero initial value, lies below z exactly when the initial
  value and every entry (i, j, k) do. General in the extents.
-/
import Idealize.ShloMosaic.Lib.Pipeline.Value
import Idealize.ShloMosaic.Lib.ValueIdx
import Idealize.ShloMosaic.PureOps.Ideal.Laws

namespace Cert.MaxBounds

open Idealize.ShloMosaic Idealize.ShloMosaic.ValueIdx

/-! ## The accumulator word -/

/-- The f32 word 0xFF800000 (sign set, exponent all ones, significand zero) is minus infinity, the bottom element. -/
theorem ofBits_negInf : Ideal.ofBits .f32 0xFF800000#32 = ⊥ := by
  rfl

/-- A fold of max from the bottom element lies below z exactly when every term does. -/
theorem fold_max_bot_le_iff {ι : Type} (s : Finset ι) (f : ι → EReal) (z : EReal) :
    s.fold max ⊥ f ≤ z ↔ ∀ k ∈ s, f k ≤ z :=
  (Finset.fold_max_le z).trans ⟨fun hk => hk.2, fun hk => ⟨bot_le, hk⟩⟩

/-! ## The reduced index with the coordinate put back -/

/-- Reducing the columns of [a, b]: the row index r with the column coordinate k put back is (r, k). -/
theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- Reducing the rows of [a, 1]: the one reduced index with the row coordinate p put back is (p, 0). -/
theorem lift_rows {a : ℕ} (h : (⟨2, ![a, 1]⟩ : Shape).Reduces [0] ⟨1, ![1]⟩)
    (p : Fin ((⟨2, ![a, 1]⟩ : Shape).size 0)) :
    h.lift (ix1 (0 : Fin 1)) p = ix2 (⟨p.val, p.isLt⟩ : Fin a) (0 : Fin 1) := by
  funext c; apply Fin.ext
  fin_cases c <;> rfl

/-- The shape [1] has the one index, 0. -/
theorem eq_ix1_zero (j : (⟨1, ![1]⟩ : Shape).Idx) : j = ix1 (0 : Fin 1) :=
  (eq_ix1 j).trans (congrArg ix1 (Subsingleton.elim (α := Fin 1) (j 0) 0))

/-! ## A kernel's maximum along one axis, from the accumulator at minus infinity -/

/-- The maximum along the columns of [a, b], at row r, lies below z exactly when every entry (r, k) of the row does. -/
theorem max_cols_le_iff {a b : ℕ} (src : FVec Ideal ⟨2, ![a, b]⟩ .f32) (h : (⟨2, ![a, b]⟩ : Shape).Reduces [1] ⟨1, ![a]⟩)
    (r : Fin a) (z : EReal) :
    multiReduction .maximumf [1] ⟨1, ![a]⟩ src 0xFF800000#32 h (.inl rfl) rfl (ix1 r) ≤ z
      ↔ ∀ k : Fin b, src (ix2 r k) ≤ z := by
  have e : multiReduction .maximumf [1] ⟨1, ![a]⟩ src 0xFF800000#32 h (.inl rfl) rfl (ix1 r)
      = (Finset.univ : Finset (Fin b)).fold max ⊥ (fun k => src (ix2 r k)) :=
    (Ideal.multiReduction_maximumf_single src 0xFF800000#32 h (.inl rfl) rfl (ix1 r)).trans
      (congrArg₂ (fun (i : EReal) f => (Finset.univ : Finset (Fin b)).fold max i f) ofBits_negInf
        (funext fun k => congrArg src (lift_cols h r k)))
  rw [e]
  exact (fold_max_bot_le_iff _ _ z).trans ⟨fun hk k => hk k (Finset.mem_univ k), fun hk k _ => hk k⟩

/-- The maximum along the rows of a one-column matrix [a, 1] lies below z exactly when every entry (p, 0) does. -/
theorem max_rows_le_iff {a : ℕ} (src : FVec Ideal ⟨2, ![a, 1]⟩ .f32) (h : (⟨2, ![a, 1]⟩ : Shape).Reduces [0] ⟨1, ![1]⟩)
    (z : EReal) :
    multiReduction .maximumf [0] ⟨1, ![1]⟩ src 0xFF800000#32 h (.inl rfl) rfl (ix1 0) ≤ z
      ↔ ∀ p : Fin a, src (ix2 p 0) ≤ z := by
  have e : multiReduction .maximumf [0] ⟨1, ![1]⟩ src 0xFF800000#32 h (.inl rfl) rfl (ix1 0)
      = (Finset.univ : Finset (Fin a)).fold max ⊥ (fun p => src (ix2 p 0)) :=
    (Ideal.multiReduction_maximumf_single src 0xFF800000#32 h (.inl rfl) rfl (ix1 0)).trans
      (congrArg₂ (fun (i : EReal) f => (Finset.univ : Finset (Fin a)).fold max i f) ofBits_negInf
        (funext fun p => congrArg src (lift_rows h p)))
  rw [e]
  exact (fold_max_bot_le_iff _ _ z).trans ⟨fun hk k => hk k (Finset.mem_univ k), fun hk k _ => hk k⟩

/-! ## The host's maximum over every axis -/

/-- The host's reduce with a maximum body over all three axes of [a, b, c], from a rank-zero initial value, lies below
    z exactly when the initial value and every entry (i, j, k) do. -/
theorem hostMax_all_le_iff {a b c : ℕ} (x : FVec Ideal ⟨3, ![a, b, c]⟩ .f32) (init : FVec Ideal ⟨0, ![]⟩ .f32)
    (h : (⟨3, ![a, b, c]⟩ : Shape).ReducesTo [0, 1, 2] ⟨0, ![]⟩) (hS : 0 < (⟨0, ![]⟩ : Shape).numel) (z : EReal) :
    Host.reduce FloatOps.maximumf x init h hS ix0 ≤ z
      ↔ init ix0 ≤ z ∧ ∀ (i : Fin a) (j : Fin b) (k : Fin c), x (ix3 i j k) ≤ z := by
  rw [Host.reduce_eq_fold FloatOps.maximumf x init h hS ix0]
  have e0 : Shape.Idx.first hS = ix0 := funext fun d => d.elim0
  rw [e0]
  refine (Finset.fold_max_le (s := Finset.univ.filter fun i => h.drop i = ix0) (f := x) (b := init ix0) (c := z)).trans
    (and_congr_right fun _ => ⟨fun hk i j k => hk _ (Finset.mem_filter.2 ⟨Finset.mem_univ _, eq_ix0 _⟩), fun hk q _ => ?_⟩)
  rw [eq_ix3 q]
  exact hk _ _ _

end Cert.MaxBounds
-- ==== Proof.PayloadsA.lean ====
/-
  The two quantization kernels' stored values, read at one row of a 512-row block.

  Each kernel loads a block of 512 rows of 4096 entries and works row by row. The weight kernel takes a row's largest
  magnitude, turns it into the row's scale (the magnitude over 127 when positive, else 1), and stores the scale and the
  row divided by it, rounded and clamped to [-127, 127]. The activation kernel takes a row's minimum and maximum, turns
  their difference into the row's scale (the difference over 255 when positive, else 1), rounds minus the minimum over
  the scale into a zero point, and stores the scale and the row divided by the scale, rounded, shifted by the zero
  point, clamped to [0, 255] and shifted back.

  At the ideal values a float is an extended real, and a maximum taken along a row from minus infinity is the row's
  supremum: it has the same upper bounds. Dually a minimum taken from plus infinity is the row's infimum. A row
  statistic is kept as a one-column matrix: entry (p, 0) of the column is entry p of the vector of statistics, and
  entry (p, k) of the column spread over 4096 columns is entry (p, 0) of the column. Narrowing to bf16 changes nothing
  at the ideal values.
-/
import proofs.«124754_j56530359550878_2_alg».proof.Proof.Gen.KernelIdeal.Skeleton
import proofs.«124754_j56530359550878_2_alg».proof.Proof.Spec
import proofs.«124754_j56530359550878_2_alg».proof.Proof.LibMaxBounds
import Idealize.ShloMosaic.Lib.ValueIdx
import Idealize.ShloMosaic.Lib.Pipeline.Value
import Idealize.ShloMosaic.Lib.ValueLayout
import Idealize.ShloMosaic.PureOps.Ideal.Laws

namespace Cert.QuantLinear.Pay

open Cert.KernelIdeal Cert.KernelIdeal.Gen Cert.QuantLinear Idealize.ShloMosaic Idealize.ShloMosaic.ValueIdx

/-! ## Column forms of a vector of row statistics -/

/-- A vector [a] cast to a one-column matrix [a, 1] reads, at (p, u), the operand at p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column matrix [a, 1] broadcast to [a, b] reads, at (p, c), the operand's row p. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's maximum is its supremum, a row's minimum its infimum -/

/-- The maximum along the columns of [a, b] taken from minus infinity is, at row r, the supremum of the row. -/
theorem max_cols_eq_iSup {a b : ℕ} (src : FVec Ideal ⟨2, ![a, b]⟩ .f32)
    (h : (⟨2, ![a, b]⟩ : Shape).Reduces [1] ⟨1, ![a]⟩) (r : Fin a) :
    multiReduction .maximumf [1] ⟨1, ![a]⟩ src 0xFF800000#32 h (.inl rfl) rfl (ix1 r) = ⨆ k : Fin b, src (ix2 r k) :=
  eq_of_forall_ge_iff fun z => (Cert.MaxBounds.max_cols_le_iff src h r z).trans iSup_le_iff.symm

/-- The f32 word 0x7F800000 (sign clear, exponent all ones, significand zero) is plus infinity, the top element. -/
theorem ofBits_posInf : Ideal.ofBits .f32 0x7F800000#32 = ⊤ := by
  rfl

/-- A fold of min from the top element lies above z exactly when every term does. -/
theorem le_fold_min_top_iff {ι : Type} (s : Finset ι) (f : ι → EReal) (z : EReal) :
    z ≤ s.fold min ⊤ f ↔ ∀ k ∈ s, z ≤ f k :=
  (Finset.le_fold_min z).trans ⟨fun hk => hk.2, fun hk => ⟨le_top, hk⟩⟩

/-- The minimum along the columns of [a, b], at row r, lies above z exactly when every entry (r, k) of the row does. -/
theorem le_min_cols_iff {a b : ℕ} (src : FVec Ideal ⟨2, ![a, b]⟩ .f32)
    (h : (⟨2, ![a, b]⟩ : Shape).Reduces [1] ⟨1, ![a]⟩) (r : Fin a) (z : EReal) :
    z ≤ multiReduction .minimumf [1] ⟨1, ![a]⟩ src 0x7F800000#32 h (.inl rfl) rfl (ix1 r)
      ↔ ∀ k : Fin b, z ≤ src (ix2 r k) := by
  have e : multiReduction .minimumf [1] ⟨1, ![a]⟩ src 0x7F800000#32 h (.inl rfl) rfl (ix1 r)
      = (Finset.univ : Finset (Fin b)).fold min ⊤ (fun k => src (ix2 r k)) :=
    ((multiReduction_minimumf_eq_fold src 0x7F800000#32 h (.inl rfl) rfl (ix1 r)).trans
      (h.fold_filter_drop_single _ _ src (ix1 r))).trans
      (congrArg₂ (fun (i : EReal) f => (Finset.univ : Finset (Fin b)).fold min i f) ofBits_posInf
        (funext fun k => congrArg src (Cert.MaxBounds.lift_cols h r k)))
  rw [e]
  exact (le_fold_min_top_iff _ _ z).trans ⟨fun hk k => hk k (Finset.mem_univ k), fun hk k _ => hk k⟩

/-- The minimum along the columns of [a, b] taken from plus infinity is, at row r, the infimum of the row. -/
theorem min_cols_eq_iInf {a b : ℕ} (src : FVec Ideal ⟨2, ![a, b]⟩ .f32)
    (h : (⟨2, ![a, b]⟩ : Shape).Reduces [1] ⟨1, ![a]⟩) (r : Fin a) :
    multiReduction .minimumf [1] ⟨1, ![a]⟩ src 0x7F800000#32 h (.inl rfl) rfl (ix1 r) = ⨅ k : Fin b, src (ix2 r k) :=
  eq_of_forall_le_iff fun z => (le_min_cols_iff src h r z).trans le_iInf_iff.symm

/-! ## Scales, quantized entries and zero points as functions of the row statistics -/

/-- A scale depends only on the statistic it is computed from. -/
theorem scaleOf_congr {r r' : EReal} (q : EReal) (h : r = r') : scaleOf r q = scaleOf r' q := by
  subst h
  rfl

/-- A scale computed from a range depends only on the two ends. -/
theorem scaleOf_sub_congr {M M' m m' : EReal} (q : EReal) (hM : M = M') (hm : m = m') :
    scaleOf (M - m) q = scaleOf (M' - m') q := by
  subst hM hm
  rfl

/-- A quantized weight depends only on the entry and the scale. -/
theorem wq_congr {x x' s s' : EReal} (hx : x = x') (hs : s = s') :
    min c127 (max cm127 (rnd (quo x s))) = min c127 (max cm127 (rnd (quo x' s'))) := by
  subst hx hs
  rfl

/-- A zero point depends only on the minimum and the scale. -/
theorem zp_congr {m m' s s' : EReal} (hm : m = m') (hs : s = s') :
    rnd (quo (c0 - m) s) = rnd (quo (c0 - m') s') := by
  subst hm hs
  rfl

/-- A quantized activation depends only on the entry, the scale and the zero point. -/
theorem aq_congr {x x' s s' z z' : EReal} (hx : x = x') (hs : s = s') (hz : z = z') :
    min c255 (max c0 (rnd (quo x s) + z)) - z = min c255 (max c0 (rnd (quo x' s') + z')) - z' := by
  subst hx hs hz
  rfl

/-! ## The kernels' columns and blocks over any row statistics -/

/-- A column of scales from a column of row statistics m and a divisor word c: at each row, m over the divisor when m is
    positive, else 1. -/
theorem scaleCol_apply (m : FVec Ideal S512x1 .f32) (c : BitVec 32) (j : S512x1.Idx) :
    select (cmpf .ogt m (broadcast S512x1 (Scalar.ofBits (F := Ideal) .f32 0x00000000#32)))
      (divf m (broadcast S512x1 (Scalar.ofBits (F := Ideal) .f32 c)))
      (broadcast S512x1 (Scalar.ofBits (F := Ideal) .f32 0x3F800000#32)) j
      = scaleOf (m j) (FloatOps.ofBits (F := Ideal) .f32 c) := rfl

/-- The same from a column of maxima M and a column of minima m: the statistic is their difference. -/
theorem rangeScaleCol_apply (M m : FVec Ideal S512x1 .f32) (c : BitVec 32) (j : S512x1.Idx) :
    select (cmpf .ogt (subf M m) (broadcast S512x1 (Scalar.ofBits (F := Ideal) .f32 0x00000000#32)))
      (divf (subf M m) (broadcast S512x1 (Scalar.ofBits (F := Ideal) .f32 c)))
      (broadcast S512x1 (Scalar.ofBits (F := Ideal) .f32 0x3F800000#32)) j
      = scaleOf (M j - m j) (FloatOps.ofBits (F := Ideal) .f32 c) := rfl

/-- The block of quantized weights from a block x and a column of scales s0, at (p, k). -/
theorem wqBlock_apply (x : FVec Ideal S512x4096 .f32) (s0 : FVec Ideal S512x1 .f32) (p : Fin 512) (k : Fin 4096) :
    (truncf .bf16 (minimumf (broadcast S512x4096 (Scalar.ofBits (F := Ideal) .f32 0x42FE0000#32))
      (maximumf (broadcast S512x4096 (Scalar.ofBits (F := Ideal) .f32 0xC2FE0000#32))
        (roundeven (divf x (broadcastTo S512x4096 s0 broadcasts_S512x1_S512x4096))))) bitsLt_bf16_f32 (ix2 p k) : EReal)
      = min c127 (max cm127 (rnd (quo (x (ix2 p k)) (s0 (ix2 p 0))))) :=
  wq_congr rfl (broadcastTo_col_apply s0 broadcasts_S512x1_S512x4096 p k)

/-- The column of zero points from a column of minima m and a column of scales s. -/
theorem zpCol_apply (m s : FVec Ideal S512x1 .f32) (j : S512x1.Idx) :
    roundeven (divf (subf (broadcast S512x1 (Scalar.ofBits (F := Ideal) .f32 0x00000000#32)) m) s) j
      = rnd (quo (c0 - m j) (s j)) := rfl

/-- The block of quantized activations from a block x, a column of scales s0 and a column of zero points z0, at
    (p, k). -/
theorem aqBlock_apply (x : FVec Ideal S512x4096 .f32) (s0 z0 : FVec Ideal S512x1 .f32) (p : Fin 512) (k : Fin 4096) :
    (truncf .bf16 (subf (minimumf (broadcast S512x4096 (Scalar.ofBits (F := Ideal) .f32 0x437F0000#32))
      (maximumf (broadcast S512x4096 (Scalar.ofBits (F := Ideal) .f32 0x00000000#32))
        (addf (roundeven (divf x (broadcastTo S512x4096 s0 broadcasts_S512x1_S512x4096)))
          (broadcastTo S512x4096 z0 broadcasts_S512x1_S512x4096))))
      (broadcastTo S512x4096 z0 broadcasts_S512x1_S512x4096)) bitsLt_bf16_f32 (ix2 p k) : EReal)
      = min c255 (max c0 (rnd (quo (x (ix2 p k)) (s0 (ix2 p 0))) + z0 (ix2 p 0))) - z0 (ix2 p 0) :=
  aq_congr rfl (broadcastTo_col_apply s0 broadcasts_S512x1_S512x4096 p k)
    (broadcastTo_col_apply z0 broadcasts_S512x1_S512x4096 p k)

/-! ## The weight kernel -/

/-- The column of largest magnitudes, at (p, 0): the largest magnitude of row p. -/
theorem read_absMax (v0 : Vec Ideal S512x4096 .f32) (p : Fin 512) :
    shapeCast S512x1 (multiReduction (F := Ideal) .maximumf [1] S512 (absf v0) 0xFF800000#32 reduces_S512x4096_S512
      (.inl rfl) rfl) shapeCasts_S512_S512x1 (ix2 p 0) = absMax (fun k => v0 (ix2 p k)) :=
  (shapeCast_a_a1_apply _ _ p 0).trans (max_cols_eq_iSup (absf v0) reduces_S512x4096_S512 p)

/-- The stored column of scales, at (p, 0): the scale of weight row p. -/
theorem pay_rowScale (v0 : Vec Ideal S512x4096 .f32) (p : Fin 512) :
    k0_pay1 (F := Ideal) v0 (ix2 p 0) = rowScale (fun k => v0 (ix2 p k)) := by
  unfold k0_pay1
  refine (scaleCol_apply _ 0x42FE0000#32 (ix2 p 0)).trans ?_
  exact scaleOf_congr c127 (read_absMax v0 p)

/-- The stored block of quantized weights, at (p, k): entry k of row p quantized. -/
theorem pay_wq (v0 : Vec Ideal S512x4096 .f32) (p : Fin 512) (k : Fin 4096) :
    k0_pay2 (F := Ideal) v0 (ix2 p k) = wq (fun k => v0 (ix2 p k)) k := by
  unfold k0_pay2
  refine (wqBlock_apply v0 (k0_pay1 (F := Ideal) v0) p k).trans ?_
  exact wq_congr rfl (pay_rowScale v0 p)

/-! ## The activation kernel -/

/-- The block the activation kernel works on is the block it loaded. -/
theorem pay_block (v0 : Vec Ideal S512x4096 .f32) : k1_pay1 (F := Ideal) v0 = v0 := by
  unfold k1_pay1
  exact shapeCast_self _ _

/-- The column of row minima, at (p, 0): the smallest entry of row p. -/
theorem pay_rowMin (v0 : Vec Ideal S512x4096 .f32) (p : Fin 512) :
    k1_pay2 (F := Ideal) v0 (ix2 p 0) = rowMin (fun k => v0 (ix2 p k)) := by
  unfold k1_pay2
  refine (shapeCast_a_a1_apply _ _ p 0).trans ?_
  refine (min_cols_eq_iInf (k1_pay1 (F := Ideal) v0) reduces_S512x4096_S512 p).trans ?_
  exact iInf_congr fun k => congrFun (pay_block v0) (ix2 p k)

/-- The column of row maxima, at (p, 0): the largest entry of row p. -/
theorem read_rowMax (v0 : Vec Ideal S512x4096 .f32) (p : Fin 512) :
    shapeCast S512x1 (multiReduction (F := Ideal) .maximumf [1] S512 (k1_pay1 (F := Ideal) v0) 0xFF800000#32
      reduces_S512x4096_S512 (.inl rfl) rfl) shapeCasts_S512_S512x1 (ix2 p 0) = rowMax (fun k => v0 (ix2 p k)) := by
  refine (shapeCast_a_a1_apply _ _ p 0).trans ?_
  refine (max_cols_eq_iSup (k1_pay1 (F := Ideal) v0) reduces_S512x4096_S512 p).trans ?_
  exact iSup_congr fun k => congrFun (pay_block v0) (ix2 p k)

/-- The stored column of scales, at (p, 0): the scale of activation row p. -/
theorem pay_colScale (v0 : Vec Ideal S512x4096 .f32) (p : Fin 512) :
    k1_pay3 (F := Ideal) v0 (ix2 p 0) = colScale (fun k => v0 (ix2 p k)) := by
  unfold k1_pay3
  refine (rangeScaleCol_apply _ (k1_pay2 (F := Ideal) v0) 0x437F0000#32 (ix2 p 0)).trans ?_
  exact scaleOf_sub_congr c255 (read_rowMax v0 p) (pay_rowMin v0 p)

/-- The stored block of quantized activations, at (p, k): entry k of row p quantized and shifted back. -/
theorem pay_aq (v0 : Vec Ideal S512x4096 .f32) (p : Fin 512) (k : Fin 4096) :
    k1_pay4 (F := Ideal) v0 (ix2 p k) = aq (fun k => v0 (ix2 p k)) k := by
  unfold k1_pay4
  refine (aqBlock_apply (k1_pay1 (F := Ideal) v0) (k1_pay3 (F := Ideal) v0) _ p k).trans ?_
  refine aq_congr (congrFun (pay_block v0) (ix2 p k)) (pay_colScale v0 p) ?_
  refine (zpCol_apply (k1_pay2 (F := Ideal) v0) (k1_pay3 (F := Ideal) v0) (ix2 p 0)).trans ?_
  exact zp_congr (pay_rowMin v0 p) (pay_colScale v0 p)

end Cert.QuantLinear.Pay
-- ==== Proof.QuantArrays.lean ====
/-
  From blocks to arrays: what the two quantization regions leave in their output arrays.

  Each region runs over blocks of 512 rows. At a point the body stores, in each output buffer, a function of the input
  block's rows alone: row p of the quantized block is the quantization of row p of the input block, and entry p of the
  scale column is that row's scale. Point t's blocks are rows 512 t .. 512 t + 511 of their arrays, so what point t writes
  back is block t of ONE function of the input array, row by row; the blocks of the points cover every row (row r is in
  the block of point r / 512), so the array ends holding that function.
-/
import proofs.«124754_j56530359550878_2_alg».proof.Proof.QuantBodies
import proofs.«124754_j56530359550878_2_alg».proof.Proof.Spec
import proofs.«124754_j56530359550878_2_alg».proof.Proof.PayloadsA
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.QuantLinear

/-- The two zero offsets of a whole-block access. -/
theorem hz00 : (![0, 0] : Fin 2 → Nat) = fun _ => 0 := funext fun a => by fin_cases a <;> rfl

/-! # The weight-quantization region -/

section Q0

/-- The printed index maps, decided over the grid: at point t every window's block is block (t, 0) of its array. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The quantized weights and the scale column, as functions of the weight array. -/
abbrev Gwq (a : S4096x4096.Idx → EReal) : S4096x4096.Idx → EReal := fun j => wq (fun k => a (ix2 (j 0) k)) (j 1)
abbrev Gws (a : S4096x4096.Idx → EReal) : S4096x1.Idx → EReal := fun j => rowScale (fun k => a (ix2 (j 0) k))

/-- A payload that quantizes each row of its block, on a block whose row y 0 is row i 0 of the array, is at y the
    quantized array at any i of that row and of y's column. -/
theorem wq_of_block
    (hpay : ∀ (v0 : Vec Ideal S512x4096 .f32) (p : Fin 512) (k : Fin 4096),
      k0_pay2 (F := Ideal) v0 (ix2 p k) = wq (fun k => v0 (ix2 p k)) k)
    (a : S4096x4096.Idx → EReal) (x0 : Vec Ideal S512x4096 .f32) (y : S512x4096.Idx) (i : S4096x4096.Idx)
    (hrow : ∀ k : Fin 4096, x0 (ix2 (y 0) k) = a (ix2 (i 0) k)) (hcol : y 1 = i 1) :
    k0_pay2 (F := Ideal) x0 y = Gwq a i :=
  (congrArg (k0_pay2 (F := Ideal) x0) (eq_ix2 y)).trans ((hpay x0 (y 0) (y 1)).trans (by
    rw [show (fun k => x0 (ix2 (y 0) k)) = fun k => a (ix2 (i 0) k) from funext hrow, hcol]))

/-- A payload that takes each row's scale, on such a block, is at y (a one-column index) the scale of the array's row. -/
theorem rowScale_of_block
    (hpay : ∀ (v0 : Vec Ideal S512x4096 .f32) (p : Fin 512),
      k0_pay1 (F := Ideal) v0 (ix2 p 0) = rowScale (fun k => v0 (ix2 p k)))
    (a : S4096x4096.Idx → EReal) (x0 : Vec Ideal S512x4096 .f32) (y : S512x1.Idx) (i : S4096x1.Idx)
    (hrow : ∀ k : Fin 4096, x0 (ix2 (y 0) k) = a (ix2 (i 0) k)) :
    k0_pay1 (F := Ideal) x0 y = Gws a i :=
  (congrArg (k0_pay1 (F := Ideal) x0)
      ((eq_ix2 y).trans (congrArg (ix2 (y 0)) (Subsingleton.elim (α := Fin 1) (y 1) 0)))).trans
    ((hpay x0 (y 0)).trans (by
      rw [show (fun k => x0 (ix2 (y 0) k)) = fun k => a (ix2 (i 0) k) from funext hrow]))

variable (V : (c : Dev nD) → (b : Ref sig .tc) → Buf (Elt Ideal) ((c : Thread nD τ).loc b))

/-- Point t's input block at y is the input array at any index of row 512 t + (y's row) and of y's column. -/
theorem iblk0_apply (c : Dev nD) (t : Fin cfg0.N) (y : S512x4096.Idx) (i : S4096x4096.Idx)
    (h0 : (i 0).val = t.val * 512 + (y 0).val) (h1 : (i 1).val = (y 1).val) :
    iblk0 (F := Ideal) V c 0 t y = V c main_arg1 i := by
  obtain ⟨e0, e1, -⟩ := idx_facts0 t
  show V c main_arg1 (((cfg0.win 0).blk t).view.emb y) = V c main_arg1 i
  refine congrArg _ (funext fun a => Fin.ext ?_)
  match a with
  | ⟨0, _⟩ => show win0_0.index t (0 : Fin 2) * 512 + 1 * (y 0).val = (i 0).val; omega
  | ⟨1, _⟩ => show win0_0.index t (1 : Fin 2) * 4096 + 1 * (y 1).val = (i 1).val; omega

/-- Where point t's quantized block and its scale column sit in their arrays. -/
theorem emb0_1 (t : Fin cfg0.N) (y : S512x4096.Idx) :
    ((((cfg0.win 1).blk t).view.emb y) 0).val = t.val * 512 + (y 0).val
      ∧ ((((cfg0.win 1).blk t).view.emb y) 1).val = (y 1).val := by
  obtain ⟨-, -, e2, e3, -⟩ := idx_facts0 t
  constructor
  · show win0_1.index t (0 : Fin 2) * 512 + 1 * (y 0).val = _; omega
  · show win0_1.index t (1 : Fin 2) * 4096 + 1 * (y 1).val = _; omega

theorem emb0_2 (t : Fin cfg0.N) (y : S512x1.Idx) :
    ((((cfg0.win 2).blk t).view.emb y) 0).val = t.val * 512 + (y 0).val := by
  obtain ⟨-, -, -, -, e4, e5⟩ := idx_facts0 t
  show win0_2.index t (0 : Fin 2) * 512 + 1 * (y 0).val = _; omega

/-- What point t writes back is block t of the quantized array, -/
theorem flushed0_1_eq
    (hpay : ∀ (v0 : Vec Ideal S512x4096 .f32) (p : Fin 512) (k : Fin 4096),
      k0_pay2 (F := Ideal) v0 (ix2 p k) = wq (fun k => v0 (ix2 p k)) k)
    (c : Dev nD) (t : Fin cfg0.N) :
    (dat0 (F := Ideal) V c).flushed 1 t = ((cfg0.win 1).blk t).view.read (Elt Ideal) (Gwq (V c main_arg1)) := by
  show (cfg0.win 1).cut (grid0.coords t) ((dat0 V c).after 1 t) = _
  rw [after0_1]
  unfold out0_1
  rw [View.canon_unit_zero hz00]
  simp only [View.ld_unit_zero (S := S512x4096) hz00]
  funext y
  have hemb := emb0_1 t y
  exact wq_of_block hpay (V c main_arg1) (iblk0 V c 0 t) y (((cfg0.win 1).blk t).view.emb y)
    (fun k => iblk0_apply V c t (ix2 (y 0) k) (ix2 ((((cfg0.win 1).blk t).view.emb y) 0) k) hemb.1 rfl)
    (Fin.ext hemb.2.symm)

/-- and block t of the scale column. -/
theorem flushed0_2_eq
    (hpay : ∀ (v0 : Vec Ideal S512x4096 .f32) (p : Fin 512),
      k0_pay1 (F := Ideal) v0 (ix2 p 0) = rowScale (fun k => v0 (ix2 p k)))
    (c : Dev nD) (t : Fin cfg0.N) :
    (dat0 (F := Ideal) V c).flushed 2 t = ((cfg0.win 2).blk t).view.read (Elt Ideal) (Gws (V c main_arg1)) := by
  show (cfg0.win 2).cut (grid0.coords t) ((dat0 V c).after 2 t) = _
  rw [after0_2]
  unfold out0_2
  rw [View.canon_unit_zero hz00]
  simp only [View.ld_unit_zero (S := S512x4096) hz00]
  funext y
  have hemb := emb0_2 t y
  exact rowScale_of_block hpay (V c main_arg1) (iblk0 V c 0 t) y (((cfg0.win 2).blk t).view.emb y)
    (fun k => iblk0_apply V c t (ix2 (y 0) k) (ix2 ((((cfg0.win 2).blk t).view.emb y) 0) k) hemb rfl)

/-- An index of the array is in point t's block iff each coordinate is in the block's range on its axis. -/
theorem mem_blk0_1 (t : Fin cfg0.N) (i : S4096x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v1_0).slice (win0_1.rect t)).set ↔ _
  rw [View.set_slice_whole, Rect.mem_set_unit]
  exact Iff.rfl

theorem mem_blk0_2 (t : Fin cfg0.N) (i : S4096x1.Idx) :
    i ∈ ((cfg0.win 2).blk t).view.set ↔ ∀ a : Fin 2, win0_2.index t a * S512x1.size a ≤ (i a).val
      ∧ (i a).val < win0_2.index t a * S512x1.size a + S512x1.size a := by
  show i ∈ ((View.whole main_v1_1).slice (win0_2.rect t)).set ↔ _
  rw [View.set_slice_whole, Rect.mem_set_unit]
  exact Iff.rfl

/-- Row r is in the block of point r / 512: the blocks cover the arrays. -/
theorem covered0_1 (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  have hN := N_0
  obtain ⟨t, ht⟩ : ∃ t : Fin cfg0.N, t.val = (i 0).val / 512 :=
    ⟨⟨(i 0).val / 512, by show (i 0).val / 512 < grid0.N; omega⟩, rfl⟩
  obtain ⟨-, -, e2, e3, -⟩ := idx_facts0 t
  refine ⟨t, flush0_1 t, ?_⟩
  rw [mem_blk0_1]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

theorem covered0_2 (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  have hN := N_0
  obtain ⟨t, ht⟩ : ∃ t : Fin cfg0.N, t.val = (i 0).val / 512 :=
    ⟨⟨(i 0).val / 512, by show (i 0).val / 512 < grid0.N; omega⟩, rfl⟩
  obtain ⟨-, -, -, -, e4, e5⟩ := idx_facts0 t
  refine ⟨t, flush0_2 t, ?_⟩
  rw [mem_blk0_2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1 ≤ (i 1).val ∧ (i 1).val < win0_2.index t (1 : Fin 2) * 1 + 1; omega

/-- The arrays after the region. -/
theorem arr0_wq_of
    (hpay : ∀ (v0 : Vec Ideal S512x4096 .f32) (p : Fin 512) (k : Fin 4096),
      k0_pay2 (F := Ideal) v0 (ix2 p k) = wq (fun k => v0 (ix2 p k)) k)
    (c : Dev nD) :
    (dat0 (F := Ideal) V c).arrAt 1 cfg0.N
      = fun j : S4096x4096.Idx => wq (fun k => V c main_arg1 (ix2 (j 0) k)) (j 1) :=
  (dat0 (F := Ideal) V c).arrAt_eq_of_cover 1 (Gwq (V c main_arg1)) (fun t _ => flushed0_1_eq V hpay c t) covered0_1

theorem arr0_scale_of
    (hpay : ∀ (v0 : Vec Ideal S512x4096 .f32) (p : Fin 512),
      k0_pay1 (F := Ideal) v0 (ix2 p 0) = rowScale (fun k => v0 (ix2 p k)))
    (c : Dev nD) :
    (dat0 (F := Ideal) V c).arrAt 2 cfg0.N
      = fun j : S4096x1.Idx => rowScale (fun k => V c main_arg1 (ix2 (j 0) k)) :=
  (dat0 (F := Ideal) V c).arrAt_eq_of_cover 2 (Gws (V c main_arg1)) (fun t _ => flushed0_2_eq V hpay c t) covered0_2

end Q0

/-! # The activation-quantization region -/

section Q1

/-- The printed index maps, decided over the grid: at point t every window's block is block (t, 0) of its array. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The quantized activations and the scale column, as functions of the flattened activation array. -/
abbrev Gaq (a : S8192x4096.Idx → EReal) : S8192x4096.Idx → EReal := fun j => aq (fun k => a (ix2 (j 0) k)) (j 1)
abbrev Gas (a : S8192x4096.Idx → EReal) : S8192x1.Idx → EReal := fun j => colScale (fun k => a (ix2 (j 0) k))

/-- A payload that quantizes each row of its block, on a block whose row y 0 is row i 0 of the array, is at y the
    quantized array at any i of that row and of y's column. -/
theorem aq_of_block
    (hpay : ∀ (v0 : Vec Ideal S512x4096 .f32) (p : Fin 512) (k : Fin 4096),
      k1_pay4 (F := Ideal) v0 (ix2 p k) = aq (fun k => v0 (ix2 p k)) k)
    (a : S8192x4096.Idx → EReal) (x0 : Vec Ideal S512x4096 .f32) (y : S512x4096.Idx) (i : S8192x4096.Idx)
    (hrow : ∀ k : Fin 4096, x0 (ix2 (y 0) k) = a (ix2 (i 0) k)) (hcol : y 1 = i 1) :
    k1_pay4 (F := Ideal) x0 y = Gaq a i :=
  (congrArg (k1_pay4 (F := Ideal) x0) (eq_ix2 y)).trans ((hpay x0 (y 0) (y 1)).trans (by
    rw [show (fun k => x0 (ix2 (y 0) k)) = fun k => a (ix2 (i 0) k) from funext hrow, hcol]))

/-- A payload that takes each row's scale, on such a block, is at y (a one-column index) the scale of the array's row. -/
theorem colScale_of_block
    (hpay : ∀ (v0 : Vec Ideal S512x4096 .f32) (p : Fin 512),
      k1_pay3 (F := Ideal) v0 (ix2 p 0) = colScale (fun k => v0 (ix2 p k)))
    (a : S8192x4096.Idx → EReal) (x0 : Vec Ideal S512x4096 .f32) (y : S512x1.Idx) (i : S8192x1.Idx)
    (hrow : ∀ k : Fin 4096, x0 (ix2 (y 0) k) = a (ix2 (i 0) k)) :
    k1_pay3 (F := Ideal) x0 y = Gas a i :=
  (congrArg (k1_pay3 (F := Ideal) x0)
      ((eq_ix2 y).trans (congrArg (ix2 (y 0)) (Subsingleton.elim (α := Fin 1) (y 1) 0)))).trans
    ((hpay x0 (y 0)).trans (by
      rw [show (fun k => x0 (ix2 (y 0) k)) = fun k => a (ix2 (i 0) k) from funext hrow]))

variable (V : (c : Dev nD) → (b : Ref sig .tc) → Buf (Elt Ideal) ((c : Thread nD τ).loc b))

/-- Point t's input block at y is the input array at any index of row 512 t + (y's row) and of y's column. -/
theorem iblk1_apply (c : Dev nD) (t : Fin cfg1.N) (y : S512x4096.Idx) (i : S8192x4096.Idx)
    (h0 : (i 0).val = t.val * 512 + (y 0).val) (h1 : (i 1).val = (y 1).val) :
    iblk1 (F := Ideal) V c 0 t y = V c main_v0 i := by
  obtain ⟨e0, e1, -⟩ := idx_facts1 t
  show V c main_v0 (((cfg1.win 0).blk t).view.emb y) = V c main_v0 i
  refine congrArg _ (funext fun a => Fin.ext ?_)
  match a with
  | ⟨0, _⟩ => show win1_0.index t (0 : Fin 2) * 512 + 1 * (y 0).val = (i 0).val; omega
  | ⟨1, _⟩ => show win1_0.index t (1 : Fin 2) * 4096 + 1 * (y 1).val = (i 1).val; omega

/-- Where point t's quantized block and its scale column sit in their arrays. -/
theorem emb1_1 (t : Fin cfg1.N) (y : S512x4096.Idx) :
    ((((cfg1.win 1).blk t).view.emb y) 0).val = t.val * 512 + (y 0).val
      ∧ ((((cfg1.win 1).blk t).view.emb y) 1).val = (y 1).val := by
  obtain ⟨-, -, e2, e3, -⟩ := idx_facts1 t
  constructor
  · show win1_1.index t (0 : Fin 2) * 512 + 1 * (y 0).val = _; omega
  · show win1_1.index t (1 : Fin 2) * 4096 + 1 * (y 1).val = _; omega

theorem emb1_2 (t : Fin cfg1.N) (y : S512x1.Idx) :
    ((((cfg1.win 2).blk t).view.emb y) 0).val = t.val * 512 + (y 0).val := by
  obtain ⟨-, -, -, -, e4, e5⟩ := idx_facts1 t
  show win1_2.index t (0 : Fin 2) * 512 + 1 * (y 0).val = _; omega

/-- What point t writes back is block t of the quantized array, -/
theorem flushed1_1_eq
    (hpay : ∀ (v0 : Vec Ideal S512x4096 .f32) (p : Fin 512) (k : Fin 4096),
      k1_pay4 (F := Ideal) v0 (ix2 p k) = aq (fun k => v0 (ix2 p k)) k)
    (c : Dev nD) (t : Fin cfg1.N) :
    (dat1 (F := Ideal) V c).flushed 1 t = ((cfg1.win 1).blk t).view.read (Elt Ideal) (Gaq (V c main_v0)) := by
  show (cfg1.win 1).cut (grid1.coords t) ((dat1 V c).after 1 t) = _
  rw [after1_1]
  unfold out1_1
  rw [View.canon_unit_zero hz00]
  simp only [View.ld_unit_zero (S := S512x4096) hz00]
  funext y
  have hemb := emb1_1 t y
  exact aq_of_block hpay (V c main_v0) (iblk1 V c 0 t) y (((cfg1.win 1).blk t).view.emb y)
    (fun k => iblk1_apply V c t (ix2 (y 0) k) (ix2 ((((cfg1.win 1).blk t).view.emb y) 0) k) hemb.1 rfl)
    (Fin.ext hemb.2.symm)

/-- and block t of the scale column. -/
theorem flushed1_2_eq
    (hpay : ∀ (v0 : Vec Ideal S512x4096 .f32) (p : Fin 512),
      k1_pay3 (F := Ideal) v0 (ix2 p 0) = colScale (fun k => v0 (ix2 p k)))
    (c : Dev nD) (t : Fin cfg1.N) :
    (dat1 (F := Ideal) V c).flushed 2 t = ((cfg1.win 2).blk t).view.read (Elt Ideal) (Gas (V c main_v0)) := by
  show (cfg1.win 2).cut (grid1.coords t) ((dat1 V c).after 2 t) = _
  rw [after1_2]
  unfold out1_2
  rw [View.canon_unit_zero hz00]
  simp only [View.ld_unit_zero (S := S512x4096) hz00]
  funext y
  have hemb := emb1_2 t y
  exact colScale_of_block hpay (V c main_v0) (iblk1 V c 0 t) y (((cfg1.win 2).blk t).view.emb y)
    (fun k => iblk1_apply V c t (ix2 (y 0) k) (ix2 ((((cfg1.win 2).blk t).view.emb y) 0) k) hemb rfl)

/-- An index of the array is in point t's block iff each coordinate is in the block's range on its axis. -/
theorem mem_blk1_1 (t : Fin cfg1.N) (i : S8192x4096.Idx) :
    i ∈ ((cfg1.win 1).blk t).view.set ↔ ∀ a : Fin 2, win1_1.index t a * S512x4096.size a ≤ (i a).val
      ∧ (i a).val < win1_1.index t a * S512x4096.size a + S512x4096.size a := by
  show i ∈ ((View.whole main_v4_0).slice (win1_1.rect t)).set ↔ _
  rw [View.set_slice_whole, Rect.mem_set_unit]
  exact Iff.rfl

theorem mem_blk1_2 (t : Fin cfg1.N) (i : S8192x1.Idx) :
    i ∈ ((cfg1.win 2).blk t).view.set ↔ ∀ a : Fin 2, win1_2.index t a * S512x1.size a ≤ (i a).val
      ∧ (i a).val < win1_2.index t a * S512x1.size a + S512x1.size a := by
  show i ∈ ((View.whole main_v4_1).slice (win1_2.rect t)).set ↔ _
  rw [View.set_slice_whole, Rect.mem_set_unit]
  exact Iff.rfl

/-- Row r is in the block of point r / 512: the blocks cover the arrays. -/
theorem covered1_1 (i : S8192x4096.Idx) :
    ∃ t : Fin cfg1.N, (cfg1.win 1).flush t = true ∧ i ∈ ((cfg1.win 1).blk t).view.set := by
  have hi0 : (i 0).val < 8192 := (i 0).isLt
  have hi1 : (i 1).val < 4096 := (i 1).isLt
  have hN := N_1
  obtain ⟨t, ht⟩ : ∃ t : Fin cfg1.N, t.val = (i 0).val / 512 :=
    ⟨⟨(i 0).val / 512, by show (i 0).val / 512 < grid1.N; omega⟩, rfl⟩
  obtain ⟨-, -, e2, e3, -⟩ := idx_facts1 t
  refine ⟨t, flush1_1 t, ?_⟩
  rw [mem_blk1_1]
  intro a
  match a with
  | ⟨0, _⟩ => show win1_1.index t (0 : Fin 2) * 512 ≤ (i 0).val ∧ (i 0).val < win1_1.index t (0 : Fin 2) * 512 + 512; omega
  | ⟨1, _⟩ => show win1_1.index t (1 : Fin 2) * 4096 ≤ (i 1).val ∧ (i 1).val < win1_1.index t (1 : Fin 2) * 4096 + 4096; omega

theorem covered1_2 (i : S8192x1.Idx) :
    ∃ t : Fin cfg1.N, (cfg1.win 2).flush t = true ∧ i ∈ ((cfg1.win 2).blk t).view.set := by
  have hi0 : (i 0).val < 8192 := (i 0).isLt
  have hi1 : (i 1).val < 1 := (i 1).isLt
  have hN := N_1
  obtain ⟨t, ht⟩ : ∃ t : Fin cfg1.N, t.val = (i 0).val / 512 :=
    ⟨⟨(i 0).val / 512, by show (i 0).val / 512 < grid1.N; omega⟩, rfl⟩
  obtain ⟨-, -, -, -, e4, e5⟩ := idx_facts1 t
  refine ⟨t, flush1_2 t, ?_⟩
  rw [mem_blk1_2]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 1 ≤ (i 1).val ∧ (i 1).val < win1_2.index t (1 : Fin 2) * 1 + 1; omega

/-- The arrays after the region. -/
theorem arr1_aq_of
    (hpay : ∀ (v0 : Vec Ideal S512x4096 .f32) (p : Fin 512) (k : Fin 4096),
      k1_pay4 (F := Ideal) v0 (ix2 p k) = aq (fun k => v0 (ix2 p k)) k)
    (c : Dev nD) :
    (dat1 (F := Ideal) V c).arrAt 1 cfg1.N
      = fun j : S8192x4096.Idx => aq (fun k => V c main_v0 (ix2 (j 0) k)) (j 1) :=
  (dat1 (F := Ideal) V c).arrAt_eq_of_cover 1 (Gaq (V c main_v0)) (fun t _ => flushed1_1_eq V hpay c t) covered1_1

theorem arr1_scale_of
    (hpay : ∀ (v0 : Vec Ideal S512x4096 .f32) (p : Fin 512),
      k1_pay3 (F := Ideal) v0 (ix2 p 0) = colScale (fun k => v0 (ix2 p k)))
    (c : Dev nD) :
    (dat1 (F := Ideal) V c).arrAt 2 cfg1.N
      = fun j : S8192x1.Idx => colScale (fun k => V c main_v0 (ix2 (j 0) k)) :=
  (dat1 (F := Ideal) V c).arrAt_eq_of_cover 2 (Gas (V c main_v0)) (fun t _ => flushed1_2_eq V hpay c t) covered1_2

end Q1

/-! # With the bodies' payloads read: the four arrays -/

section Arrays

variable (V : (c : Dev nD) → (b : Ref sig .tc) → Buf (Elt Ideal) ((c : Thread nD τ).loc b))

/-- After the weight region: the quantized weights, row by row, and the column of the rows' scales. -/
theorem arr0_wq (c : Dev nD) :
    (dat0 (F := Ideal) V c).arrAt 1 cfg0.N
      = fun j : S4096x4096.Idx => wq (fun k => V c main_arg1 (ix2 (j 0) k)) (j 1) :=
  arr0_wq_of V Cert.QuantLinear.Pay.pay_wq c

theorem arr0_scale (c : Dev nD) :
    (dat0 (F := Ideal) V c).arrAt 2 cfg0.N
      = fun j : S4096x1.Idx => rowScale (fun k => V c main_arg1 (ix2 (j 0) k)) :=
  arr0_scale_of V Cert.QuantLinear.Pay.pay_rowScale c

/-- After the activation region: the quantized activations, row by row, and the column of the rows' scales. -/
theorem arr1_aq (c : Dev nD) :
    (dat1 (F := Ideal) V c).arrAt 1 cfg1.N
      = fun j : S8192x4096.Idx => aq (fun k => V c main_v0 (ix2 (j 0) k)) (j 1) :=
  arr1_aq_of V Cert.QuantLinear.Pay.pay_aq c

theorem arr1_scale (c : Dev nD) :
    (dat1 (F := Ideal) V c).arrAt 2 cfg1.N
      = fun j : S8192x1.Idx => colScale (fun k => V c main_v0 (ix2 (j 0) k)) :=
  arr1_scale_of V Cert.QuantLinear.Pay.pay_colScale c

end Arrays

end Cert.KernelIdeal.Hand

end
-- ==== Proof.GemmPieces.lean ====
/-
  What the matrix-product body leaves, read back as values. At a middle block the accumulator ends at the accumulate
  step's payload of its previous contents and the two input blocks; at a first block the same payload of the zero block;
  at a last block the accumulator likewise, and the output buffer at the epilogue's payload of that new accumulator, the
  row scales' column, the column scales' row and the bias row.
-/
import proofs.«124754_j56530359550878_2_alg».proof.Proof.Gemm
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

section
variable (c : Dev nD) (i : grid2.Coords) (arg3 : Memref sig .tc .vmem S2048x512 .bf16) (harg3 : arg3.IsWhole) (arg4 : Memref sig .tc .vmem S512x2048 .bf16) (harg4 : arg4.IsWhole) (arg5 : Memref sig .tc .vmem S2048x1 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x2048 .f32) (harg8 : arg8.IsWhole) (arg9 : Memref sig .tc .vmem S2048x2048 .f32) (harg9 : arg9.IsWhole)

/-- A middle block: the accumulator ends at the accumulate step of what it held and the two input blocks. -/
theorem acc_B (hc0 : ¬cond2_0 i) (hc1 : ¬cond2_1 i) (x0 : Vec F S2048x512 .bf16) (x1 : Vec F S512x2048 .bf16) (x2 : Vec F S2048x1 .f32) (x3 : Vec F S1x2048 .f32) (x4 : Vec F S1x2048 .f32) (xs0 : Vec F S2048x2048 .f32) :
    sout2_B c i arg3 harg3 arg4 harg4 arg5 harg5 arg6 harg6 arg7 harg7 arg8 harg8 arg9 harg9 hc0 hc1 x0 x1 x2 x3 x4 xs0 = k2_pay2 xs0 x0 x1 := by
  unfold sout2_B
  rw [View.read_writes_eq_canon _ _ _ (scover2_B c i arg3 harg3 arg4 harg4 arg5 harg5 arg6 harg6 arg7 harg7 arg8 harg8 arg9 harg9 hc0 hc1 x0 x1 x2 x3 x4 xs0)]
  unfold kernelRun2_B
  dsimp only
  rw [View.canon_unit_zero hz2]
  simp only [View.readAt_eq_ld, harg3.read_unread, harg4.read_unread, harg9.read_unread, View.ld_unit_zero (S := S2048x2048) hz2, View.ld_unit_zero (S := S2048x512) hz2, View.ld_unit_zero (S := S512x2048) hz2]

/-- A first block: the accumulator is zeroed, read back, and ends at the accumulate step of the zero block. -/
theorem acc_A (hc0 : cond2_0 i) (hc1 : ¬cond2_1 i) (x0 : Vec F S2048x512 .bf16) (x1 : Vec F S512x2048 .bf16) (x2 : Vec F S2048x1 .f32) (x3 : Vec F S1x2048 .f32) (x4 : Vec F S1x2048 .f32) :
    sout2_A c i arg3 harg3 arg4 harg4 arg5 harg5 arg6 harg6 arg7 harg7 arg8 harg8 arg9 harg9 hc0 hc1 x0 x1 x2 x3 x4 = k2_pay2 (k2_pay1 (F := F)) x0 x1 := by
  unfold sout2_A
  rw [View.read_writes_eq_canon _ _ _ (scover2_A c i arg3 harg3 arg4 harg4 arg5 harg5 arg6 harg6 arg7 harg7 arg8 harg8 arg9 harg9 hc0 hc1 x0 x1 x2 x3 x4)]
  unfold kernelRun2_A
  dsimp only
  sl_unfold_words
  rw [View.canon_cons_unit_zero (S := S2048x2048) hz2, View.readCov_unit_zero (S := S2048x2048) _ hz2]
  simp only [View.readAt_eq_ld, harg3.read_unread, harg4.read_unread, View.ld_unit_zero (S := S2048x2048) hz2, View.ld_unit_zero (S := S2048x512) hz2, View.ld_unit_zero (S := S512x2048) hz2]

/-- A last block: the accumulator as at a middle block. -/
theorem acc_C (hc0 : ¬cond2_0 i) (hc1 : cond2_1 i) (x0 : Vec F S2048x512 .bf16) (x1 : Vec F S512x2048 .bf16) (x2 : Vec F S2048x1 .f32) (x3 : Vec F S1x2048 .f32) (x4 : Vec F S1x2048 .f32) (xs0 : Vec F S2048x2048 .f32) :
    sout2_C c i arg3 harg3 arg4 harg4 arg5 harg5 arg6 harg6 arg7 harg7 arg8 harg8 arg9 harg9 hc0 hc1 x0 x1 x2 x3 x4 xs0 = k2_pay2 xs0 x0 x1 := by
  unfold sout2_C
  rw [View.read_writes_eq_canon _ _ _ (scover2_C c i arg3 harg3 arg4 harg4 arg5 harg5 arg6 harg6 arg7 harg7 arg8 harg8 arg9 harg9 hc0 hc1 x0 x1 x2 x3 x4 xs0)]
  unfold kernelRun2_C
  dsimp only
  sl_unfold_words
  rw [View.canon_unit_zero hz2]
  simp only [View.readAt_eq_ld, harg3.read_unread, harg4.read_unread, harg9.read_unread, View.ld_unit_zero (S := S2048x2048) hz2, View.ld_unit_zero (S := S2048x512) hz2, View.ld_unit_zero (S := S512x2048) hz2]

/-- A last block: the output buffer ends at the epilogue of the new accumulator, the activation scales' column, the
    weight scales' row and the bias row. -/
theorem out_C (hc0 : ¬cond2_0 i) (hc1 : cond2_1 i) (x0 : Vec F S2048x512 .bf16) (x1 : Vec F S512x2048 .bf16) (x2 : Vec F S2048x1 .f32) (x3 : Vec F S1x2048 .f32) (x4 : Vec F S1x2048 .f32) (xs0 : Vec F S2048x2048 .f32) :
    out2_C_5 c i arg3 harg3 arg4 harg4 arg5 harg5 arg6 harg6 arg7 harg7 arg8 harg8 arg9 harg9 hc0 hc1 x0 x1 x2 x3 x4 xs0 = k2_pay3 (k2_pay2 xs0 x0 x1) x2 x3 x4 := by
  unfold out2_C_5
  rw [View.read_writes_eq_canon _ _ _ (cover2_C_5 c i arg3 harg3 arg4 harg4 arg5 harg5 arg6 harg6 arg7 harg7 arg8 harg8 arg9 harg9 hc0 hc1 x0 x1 x2 x3 x4 xs0)]
  unfold kernelRun2_C
  dsimp only
  sl_unfold_words
  rw [View.canon_unit_zero hz2]
  simp only [View.readAt_eq_ld, harg3.read_unread, harg4.read_unread, harg5.read_unread, harg6.read_unread, harg7.read_unread, harg9.read_unread, View.readCov_unit_zero (S := S2048x2048) _ hz2, View.ld_unit_zero (S := S2048x2048) hz2, View.ld_unit_zero (S := S2048x512) hz2, View.ld_unit_zero (S := S512x2048) hz2, View.ld_unit_zero (S := S2048x1) hz2, View.ld_unit_zero (S := S1x2048) hz2]

end

/-! ## The accumulator from point to point, in closed form -/

variable (V : (c : Dev nD) → (b : Ref sig .tc) → Buf (Elt F) ((c : Thread nD τ).loc b))

/-- The accumulator after point n: at a first block (n a multiple of 8) the accumulate step of the zero block, else the
    accumulate step of what point n - 1 left, each with the point's two input blocks. -/
def accAt (c : Dev nD) : (n : ℕ) → n < cfg2.N → Vec F S2048x2048 .f32
  | 0, h => k2_pay2 (k2_pay1 (F := F)) (iblk2 V c 0 ⟨0, h⟩) (iblk2 V c 1 ⟨0, h⟩)
  | n + 1, h =>
    if (n + 1) % 8 = 0 then k2_pay2 (k2_pay1 (F := F)) (iblk2 V c 0 ⟨n + 1, h⟩) (iblk2 V c 1 ⟨n + 1, h⟩)
    else k2_pay2 (accAt c n (Nat.lt_of_succ_lt h)) (iblk2 V c 0 ⟨n + 1, h⟩) (iblk2 V c 1 ⟨n + 1, h⟩)

/-- What the pipeline's proof data says the accumulator holds after point n is that closed form: by induction on n. -/
theorem outsAt_acc (c : Dev nD) : ∀ (n : ℕ) (h : n < cfg2.N), (outsAt2 V c n h).2 = accAt V c n h
  | 0, h => by
    rw [outsAt2_A V c ⟨0, h⟩ (show 0 % 8 = 0 from rfl) (show ¬0 % 8 = 7 by decide)]
    unfold stepA; dsimp only
    rw [acc_A]; rfl
  | n + 1, h => by
    by_cases h0 : (n + 1) % 8 = 0
    · have h1 : ¬(n + 1) % 8 = 7 := by omega
      rw [outsAt2_A V c ⟨n + 1, h⟩ h0 h1]
      unfold stepA; dsimp only
      rw [acc_A, accAt, if_pos h0]
    · by_cases h1 : (n + 1) % 8 = 7
      · rw [outsAt2_C V c ⟨n + 1, h⟩ h0 h1]
        unfold stepC; dsimp only
        rw [acc_C, accAt, if_neg h0]
        show k2_pay2 (outsAt2 V c n _).2 _ _ = _
        rw [outsAt_acc c n]
      · rw [outsAt2_B V c ⟨n + 1, h⟩ h0 h1]
        unfold stepB; dsimp only
        rw [acc_B, accAt, if_neg h0]
        show k2_pay2 (outsAt2 V c n _).2 _ _ = _
        rw [outsAt_acc c n]

/-- At a last block the output buffer ends at the epilogue of the accumulator after that point, the point's block of
    the activation scales, of the weight scales and of the bias. -/
theorem outsAt_out (c : Dev nD) (t : Fin cfg2.N) (h1 : t.val % 8 = 7) :
    (outsAt2 V c t.val t.isLt).1 = k2_pay3 (accAt V c t.val t.isLt) (iblk2 V c 2 t) (iblk2 V c 3 t) (iblk2 V c 4 t) := by
  obtain ⟨n, hn⟩ := t
  cases n with
  | zero => exact absurd h1 (show ¬(0 : ℕ) % 8 = 7 by decide)
  | succ n =>
    have h0 : ¬(n + 1) % 8 = 0 := by dsimp only at h1; omega
    rw [outsAt2_C V c ⟨n + 1, hn⟩ h0 h1]
    unfold stepC; dsimp only
    rw [out_C]
    show k2_pay3 (k2_pay2 (outsAt2 V c n _).2 _ _) _ _ _ = _
    rw [outsAt_acc V c n, accAt, if_neg h0]

end Cert.KernelIdeal.Hand

end
-- ==== Proof.PayloadsB.lean ====
/-
  The matrix-product kernel's three stored values, read at one entry of the 2048 × 2048 output block.

  The kernel walks the contraction axis in eight steps of 512. On the first step it fills its accumulator with zeros;
  on every step it adds, at entry (p, q), the product of row p of a 2048 × 512 block of quantized activations with
  column q of a 512 × 2048 block of quantized weights; on the last step it multiplies the accumulated entry by the
  activation row's scale and the weight row's scale and adds the bias. At the ideal values a float is an extended
  real, a matrix product into a zero accumulator is the plain sum of products, and a cast between equal shapes changes
  nothing.
-/
import proofs.«124754_j56530359550878_2_alg».proof.Proof.Gen.KernelIdeal.Skeleton
import proofs.«124754_j56530359550878_2_alg».proof.Proof.Spec
import proofs.«124754_j56530359550878_2_alg».proof.Proof.LibMaxBounds
import Idealize.ShloMosaic.Lib.ValueIdx
import Idealize.ShloMosaic.Lib.Pipeline.Value
import Idealize.ShloMosaic.Lib.ValueLayout
import Idealize.ShloMosaic.PureOps.Ideal.Laws

namespace Cert.QuantLinear.Pay

open Cert.KernelIdeal Cert.KernelIdeal.Gen Cert.QuantLinear Idealize.ShloMosaic Idealize.ShloMosaic.ValueIdx

/-! ## The accumulator's zero fill -/

/-- The block stored on the first step along the contraction axis is zero at every entry. -/
theorem pay_zero (p q : Fin 2048) : k2_pay1 (F := Ideal) (ix2 p q) = c0 := by
  unfold k2_pay1
  exact (congrFun (shapeCast_self _ _) (ix2 p q)).trans rfl

/-! ## One accumulation step -/

/-- The left operand's row coordinate is the output entry's row. -/
theorem lhs_row (i : S2048x2048.Idx) (c : dot_S2048x512_S512x2048_S2048x2048_1_0_0_1_n_n.contr.Idx) :
    (dot_S2048x512_S512x2048_S2048x2048_1_0_0_1_n_n.lhsIdx i c 0).val = (i 0).val := by
  unfold DotDims.lhsIdx
  rw [dif_neg (show ¬(0 : Fin S2048x512.rank) ∈ dot_S2048x512_S512x2048_S2048x2048_1_0_0_1_n_n.lhsBatch by decide),
    dif_pos (show (0 : Fin S2048x512.rank) ∈ dot_S2048x512_S512x2048_S2048x2048_1_0_0_1_n_n.lhsNonContracting by decide)]
  rfl

/-- The left operand's column coordinate is the contraction coordinate. -/
theorem lhs_col (i : S2048x2048.Idx) (c : dot_S2048x512_S512x2048_S2048x2048_1_0_0_1_n_n.contr.Idx) :
    (dot_S2048x512_S512x2048_S2048x2048_1_0_0_1_n_n.lhsIdx i c 1).val = (c ⟨0, by decide⟩).val :=
  dot_S2048x512_S512x2048_S2048x2048_1_0_0_1_n_n.lhsIdx_val_of_single rfl i c

/-- The right operand's row coordinate is the contraction coordinate. -/
theorem rhs_row (i : S2048x2048.Idx) (c : dot_S2048x512_S512x2048_S2048x2048_1_0_0_1_n_n.contr.Idx) :
    (dot_S2048x512_S512x2048_S2048x2048_1_0_0_1_n_n.rhsIdx i c 0).val = (c ⟨0, by decide⟩).val :=
  dot_S2048x512_S512x2048_S2048x2048_1_0_0_1_n_n.rhsIdx_val_of_single rfl i c

/-- The right operand's column coordinate is the output entry's column. -/
theorem rhs_col (i : S2048x2048.Idx) (c : dot_S2048x512_S512x2048_S2048x2048_1_0_0_1_n_n.contr.Idx) :
    (dot_S2048x512_S512x2048_S2048x2048_1_0_0_1_n_n.rhsIdx i c 1).val = (i 1).val := by
  unfold DotDims.rhsIdx
  rw [dif_neg (show ¬(1 : Fin S512x2048.rank) ∈ dot_S2048x512_S512x2048_S2048x2048_1_0_0_1_n_n.rhsBatch by decide),
    dif_pos (show (1 : Fin S512x2048.rank) ∈ dot_S2048x512_S512x2048_S2048x2048_1_0_0_1_n_n.rhsNonContracting by decide)]
  rfl

/-- The block stored by an accumulation step: at (p, q), the accumulator's entry plus the product of row p of the
    2048 × 512 left block with column q of the 512 × 2048 right block. -/
theorem pay_acc (v3 : Vec Ideal S2048x2048 .f32) (v4 : Vec Ideal S2048x512 .bf16) (v6 : Vec Ideal S512x2048 .bf16)
    (p q : Fin 2048) :
    k2_pay2 (F := Ideal) v3 v4 v6 (ix2 p q) = v3 (ix2 p q) + ∑ k : Fin 512, v4 (ix2 p k) * v6 (ix2 k q) := by
  unfold k2_pay2
  refine (congrFun (shapeCast_self _ _) (ix2 p q)).trans ?_
  refine congrArg (v3 (ix2 p q) + ·) ?_
  refine (Ideal.matmul_constant_zero_apply dot_S2048x512_S512x2048_S2048x2048_1_0_0_1_n_n none _ _ (ix2 p q)).trans ?_
  rw [shapeCast_self, shapeCast_self,
    ← Equiv.sum_comp (contrEquiv1 dot_S2048x512_S512x2048_S2048x2048_1_0_0_1_n_n 512 rfl rfl).symm]
  refine Finset.sum_congr rfl fun k _ => ?_
  have hk := contrEquiv1_symm_val dot_S2048x512_S512x2048_S2048x2048_1_0_0_1_n_n 512 rfl rfl k
  have el : dot_S2048x512_S512x2048_S2048x2048_1_0_0_1_n_n.lhsIdx (ix2 p q)
      ((contrEquiv1 dot_S2048x512_S512x2048_S2048x2048_1_0_0_1_n_n 512 rfl rfl).symm k) = ix2 p k :=
    funext fun a => Fin.ext (by
      match a with
      | ⟨0, _⟩ => exact lhs_row _ _
      | ⟨1, _⟩ => exact (lhs_col _ _).trans hk)
  have er : dot_S2048x512_S512x2048_S2048x2048_1_0_0_1_n_n.rhsIdx (ix2 p q)
      ((contrEquiv1 dot_S2048x512_S512x2048_S2048x2048_1_0_0_1_n_n 512 rfl rfl).symm k) = ix2 k q :=
    funext fun a => Fin.ext (by
      match a with
      | ⟨0, _⟩ => exact (rhs_row _ _).trans hk
      | ⟨1, _⟩ => exact rhs_col _ _)
  rw [el, er]

/-! ## The epilogue -/

/-- A one-column matrix [a, 1] broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block stored on the last step: at (p, q), the accumulator's entry times the row scale (p, 0), times the column
    scale (0, q), plus the bias (0, q). -/
theorem pay_out (v16 : Vec Ideal S2048x2048 .f32) (v17 : Vec Ideal S2048x1 .f32) (v21 v25 : Vec Ideal S1x2048 .f32)
    (p q : Fin 2048) :
    k2_pay3 (F := Ideal) v16 v17 v21 v25 (ix2 p q)
      = (v16 (ix2 p q) * v17 (ix2 p 0)) * v21 (ix2 0 q) + v25 (ix2 0 q) := by
  unfold k2_pay3
  have e19 : broadcastTo S2048x2048 (shapeCast S2048x1 v17 shapeCasts_S2048x1_S2048x1) broadcasts_S2048x1_S2048x2048
      (ix2 p q) = v17 (ix2 p 0) :=
    (broadcastTo_a1_ab_apply _ _ p q).trans (congrFun (shapeCast_self _ _) _)
  have e23 : broadcastTo S2048x2048 (shapeCast S1x2048 v21 shapeCasts_S1x2048_S1x2048) broadcasts_S1x2048_S2048x2048
      (ix2 p q) = v21 (ix2 0 q) :=
    (broadcastTo_1b_ab_apply _ _ p q).trans (congrFun (shapeCast_self _ _) _)
  have e27 : broadcastTo S2048x2048 (shapeCast S1x2048 v25 shapeCasts_S1x2048_S1x2048) broadcasts_S1x2048_S2048x2048
      (ix2 p q) = v25 (ix2 0 q) :=
    (broadcastTo_1b_ab_apply _ _ p q).trans (congrFun (shapeCast_self _ _) _)
  exact congrArg₂ (· + ·) (congrArg₂ (· * ·) (congrArg (v16 (ix2 p q) * ·) e19) e23) e27

end Cert.QuantLinear.Pay
-- ==== Proof.LibBlockSum.lean ====
/-
  A long sum cut into blocks.

  A sum of a * b consecutive terms f 0, f 1, …, f (a * b - 1) in a commutative additive monoid is the sum, over the
  a blocks i = 0, …, a - 1, of the b consecutive terms f (b * i), …, f (b * i + b - 1) of block i: the terms are the
  same and only the bracketing changes. By induction on the number of blocks: one more block appends b more terms.
-/
import Mathlib.Algebra.BigOperators.Fin
import Mathlib.Algebra.BigOperators.Group.Finset.Basic

namespace Cert.BlockSum

variable {M : Type*} [AddCommMonoid M]

/-- Over ranges: the sum of the first a * b terms is the sum over a blocks of b terms. -/
theorem sum_range_blocks (a b : ℕ) (f : ℕ → M) :
    ∑ k ∈ Finset.range (a * b), f k = ∑ i ∈ Finset.range a, ∑ j ∈ Finset.range b, f (b * i + j) := by
  induction a with
  | zero => rw [Nat.zero_mul, Finset.range_zero, Finset.sum_empty, Finset.sum_empty]
  | succ a ih =>
    rw [Nat.succ_mul, Finset.sum_range_add f (a * b) b,
      Finset.sum_range_succ (fun i => ∑ j ∈ Finset.range b, f (b * i + j)) a, ih, Nat.mul_comm a b]

/-- A sum over a * b consecutive terms is the sum over a blocks of b terms. -/
theorem sum_blocks (a b : ℕ) (f : ℕ → M) :
    ∑ k : Fin (a * b), f k.val = ∑ i ∈ Finset.range a, ∑ j : Fin b, f (b * i + j.val) := by
  rw [Fin.sum_univ_eq_sum_range (fun k => f k) (a * b), sum_range_blocks]
  refine Finset.sum_congr rfl fun i _ => ?_
  exact (Fin.sum_univ_eq_sum_range (fun j => f (b * i + j)) b).symm

/-- 4096 terms as 8 blocks of 512. -/
theorem sum_8_512 (f : ℕ → M) :
    ∑ k : Fin 4096, f k.val = ∑ i ∈ Finset.range 8, ∑ j : Fin 512, f (512 * i + j.val) :=
  sum_blocks 8 512 f

end Cert.BlockSum
-- ==== Proof.GemmBlocks.lean ====
/-
  The geometry of the matrix-product region's output window.

  The grid has 4 x 2 x 8 points; point t = (i * 2 + j) * 8 + kb has i = t / 16, j = t / 8 mod 2, kb = t mod 8. The output
  array [8192, 4096] is cut into blocks [2048, 2048]; point t's output block is block (i, j), rows 2048 i .. 2048 i + 2047
  and columns 2048 j .. 2048 j + 2047, and it is written back at the last point of each run of eight (kb = 7). So the
  entry (M, n) of the array lies in the block of the writing point ((M / 2048) * 2 + n / 2048) * 8 + 7, and the blocks of
  the writing points cover the array.
-/
import proofs.«124754_j56530359550878_2_alg».proof.Proof.GemmPieces
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

/-! ## The output window -/

/-- The output window's printed index map, decided over the grid: point t's block is block (t / 16, t / 8 mod 2). -/
theorem idx_facts2_5 : ∀ t : Fin cfg2.N, win2_5.index t (0 : Fin 2) = t.val / 16 ∧ win2_5.index t (1 : Fin 2) = t.val / 8 % 2 :=
  (by decide +kernel : ∀ t : Fin grid2.N, _)

/-- An index of the output array is in point t's block iff each coordinate is in the block's range on its axis. -/
theorem mem_blk2_5 (t : Fin cfg2.N) (i : S8192x4096.Idx) :
    i ∈ ((cfg2.win 5).blk t).view.set ↔ ∀ a : Fin 2, win2_5.index t a * S2048x2048.size a ≤ (i a).val
      ∧ (i a).val < win2_5.index t a * S2048x2048.size a + S2048x2048.size a := by
  show i ∈ ((View.whole main_v6).slice (win2_5.rect t)).set ↔ _
  rw [View.set_slice_whole, Rect.mem_set_unit]
  exact Iff.rfl

/-- The same in numbers: rows 2048 (t / 16) .. + 2047, columns 2048 (t / 8 mod 2) .. + 2047. -/
theorem mem_blk2_5_iff (t : Fin cfg2.N) (i : S8192x4096.Idx) :
    i ∈ ((cfg2.win 5).blk t).view.set ↔ 2048 * (t.val / 16) ≤ (i 0).val ∧ (i 0).val < 2048 * (t.val / 16) + 2048
      ∧ 2048 * (t.val / 8 % 2) ≤ (i 1).val ∧ (i 1).val < 2048 * (t.val / 8 % 2) + 2048 := by
  obtain ⟨e0, e1⟩ := idx_facts2_5 t
  rw [mem_blk2_5]
  constructor
  · intro h
    have b0 : win2_5.index t (0 : Fin 2) * 2048 ≤ (i 0).val ∧ (i 0).val < win2_5.index t (0 : Fin 2) * 2048 + 2048 := h 0
    have b1 : win2_5.index t (1 : Fin 2) * 2048 ≤ (i 1).val ∧ (i 1).val < win2_5.index t (1 : Fin 2) * 2048 + 2048 := h 1
    omega
  · intro h a
    match a with
    | ⟨0, _⟩ => show win2_5.index t (0 : Fin 2) * 2048 ≤ (i 0).val ∧ (i 0).val < win2_5.index t (0 : Fin 2) * 2048 + 2048; omega
    | ⟨1, _⟩ => show win2_5.index t (1 : Fin 2) * 2048 ≤ (i 1).val ∧ (i 1).val < win2_5.index t (1 : Fin 2) * 2048 + 2048; omega

/-- The writing point whose block holds the entry i = (M, n): ((M / 2048) * 2 + n / 2048) * 8 + 7. -/
def coverPt2_5 (i : S8192x4096.Idx) : Fin cfg2.N :=
  ⟨((i 0).val / 2048 * 2 + (i 1).val / 2048) * 8 + 7, by
    have hi0 : (i 0).val < 8192 := (i 0).isLt
    have hi1 : (i 1).val < 4096 := (i 1).isLt
    have hN := N_2
    show ((i 0).val / 2048 * 2 + (i 1).val / 2048) * 8 + 7 < grid2.N
    omega⟩

theorem coverPt2_5_val (i : S8192x4096.Idx) :
    (coverPt2_5 i).val = ((i 0).val / 2048 * 2 + (i 1).val / 2048) * 8 + 7 := rfl

/-- It writes its block back, and the block holds i. -/
theorem coverPt2_5_spec (i : S8192x4096.Idx) :
    (cfg2.win 5).flush (coverPt2_5 i) = true ∧ i ∈ ((cfg2.win 5).blk (coverPt2_5 i)).view.set := by
  have hi0 : (i 0).val < 8192 := (i 0).isLt
  have hi1 : (i 1).val < 4096 := (i 1).isLt
  have ht := coverPt2_5_val i
  refine ⟨(flush2_5 (coverPt2_5 i)).2 (by omega), ?_⟩
  rw [mem_blk2_5_iff]
  omega

/-- The blocks of the writing points cover the output array. -/
theorem covered2_5 (i : S8192x4096.Idx) :
    ∃ t : Fin cfg2.N, (cfg2.win 5).flush t = true ∧ i ∈ ((cfg2.win 5).blk t).view.set :=
  ⟨coverPt2_5 i, coverPt2_5_spec i⟩

/-- A function of the output array's indices, read through point t's block at (p, q), is the function at any index
    of row 2048 (t / 16) + p and column 2048 (t / 8 mod 2) + q. -/
theorem read_blk2_5 (G : S8192x4096.Idx → Elt F .f32) (t : Fin cfg2.N) (p q : Fin 2048) (i' : S8192x4096.Idx)
    (h0 : (i' 0).val = 2048 * (t.val / 16) + p.val) (h1 : (i' 1).val = 2048 * (t.val / 8 % 2) + q.val) :
    ((cfg2.win 5).blk t).view.read (Elt F) G (ix2 p q) = G i' := by
  obtain ⟨e0, e1⟩ := idx_facts2_5 t
  show G (((cfg2.win 5).blk t).view.emb (ix2 p q)) = G i'
  refine congrArg G (funext fun a => Fin.ext ?_)
  match a with
  | ⟨0, _⟩ => show win2_5.index t (0 : Fin 2) * 2048 + 1 * p.val = (i' 0).val; omega
  | ⟨1, _⟩ => show win2_5.index t (1 : Fin 2) * 2048 + 1 * q.val = (i' 1).val; omega

end Cert.KernelIdeal.Hand

end
-- ==== Proof.GemmOut.lean ====
/-
  What the matrix-product pipeline leaves in its output array, from the five arrays it reads: at row M and column n,
  ((the zero word plus the sum over the 4096 contracted entries of A(M, k) times B(k, n)) times the row's activation
  scale) times the column's weight scale, plus the column's bias.
-/
import proofs.«124754_j56530359550878_2_alg».proof.Proof.Spec

noncomputable section

namespace Cert.QuantLinear

open Idealize.ShloMosaic Idealize.ShloMosaic.ValueIdx

def gemmOut (A : (⟨2, ![8192, 4096]⟩ : Shape).Idx → EReal) (B : (⟨2, ![4096, 4096]⟩ : Shape).Idx → EReal)
    (cs : (⟨2, ![8192, 1]⟩ : Shape).Idx → EReal) (rs bs : (⟨2, ![1, 4096]⟩ : Shape).Idx → EReal) :
    (⟨2, ![8192, 4096]⟩ : Shape).Idx → EReal :=
  fun j => ((c0 + ∑ k : Fin 4096, A (ix2 (j 0) k) * B (ix2 k (j 1))) * cs (ix2 (j 0) 0)) * rs (ix2 0 (j 1)) + bs (ix2 0 (j 1))

theorem gemmOut_apply (A : (⟨2, ![8192, 4096]⟩ : Shape).Idx → EReal) (B : (⟨2, ![4096, 4096]⟩ : Shape).Idx → EReal)
    (cs : (⟨2, ![8192, 1]⟩ : Shape).Idx → EReal) (rs bs : (⟨2, ![1, 4096]⟩ : Shape).Idx → EReal) (M : Fin 8192) (n : Fin 4096) :
    gemmOut A B cs rs bs (ix2 M n) = ((c0 + ∑ k : Fin 4096, A (ix2 M k) * B (ix2 k n)) * cs (ix2 M 0)) * rs (ix2 0 n) + bs (ix2 0 n) := rfl

/-- The same entry when each array it reads is known entry by entry. -/
theorem gemmOut_eq {A : (⟨2, ![8192, 4096]⟩ : Shape).Idx → EReal} {B : (⟨2, ![4096, 4096]⟩ : Shape).Idx → EReal}
    {cs : (⟨2, ![8192, 1]⟩ : Shape).Idx → EReal} {rs bs : (⟨2, ![1, 4096]⟩ : Shape).Idx → EReal} {M : Fin 8192} {n : Fin 4096}
    {a w : Fin 4096 → EReal} {s r b : EReal}
    (hA : ∀ k, A (ix2 M k) = a k) (hB : ∀ k, B (ix2 k n) = w k) (hcs : cs (ix2 M 0) = s) (hrs : rs (ix2 0 n) = r)
    (hbs : bs (ix2 0 n) = b) :
    gemmOut A B cs rs bs (ix2 M n) = ((c0 + ∑ k : Fin 4096, a k * w k) * s) * r + b := by
  have hs : (∑ k : Fin 4096, A (ix2 M k) * B (ix2 k n)) = ∑ k : Fin 4096, a k * w k :=
    Finset.sum_congr rfl (fun k _ => by rw [hA k, hB k])
  rw [gemmOut_apply, hs, hcs, hrs, hbs]

end Cert.QuantLinear

end
-- ==== Proof.GemmArray.lean ====
/-
  The matrix-product region's output array as one function of the arrays the region finds.

  The region walks a grid of 4 x 2 x 8 points: row block i of 2048 rows, column block j of 2048 columns, and block kb of
  512 of the 4096 contracted positions. Point number t = (2 i + j) * 8 + kb reads rows 2048 i .. of the activations at
  contracted positions 512 kb .., and the same contracted positions of the weights at columns 2048 j ... Over the eight
  points of one output block the accumulator gathers, entry by entry, zero plus the eight partial sums of products, which
  together are the sum over all 4096 contracted positions; the last of the eight points scales the entry by its row's and
  its column's scale, adds the column's bias, and writes the block back. The 4 x 2 written blocks tile the output array.
-/
import proofs.«124754_j56530359550878_2_alg».proof.Proof.GemmPieces
import proofs.«124754_j56530359550878_2_alg».proof.Proof.PayloadsB
import proofs.«124754_j56530359550878_2_alg».proof.Proof.Spec
import proofs.«124754_j56530359550878_2_alg».proof.Proof.LibBlockSum
import proofs.«124754_j56530359550878_2_alg».proof.Proof.GemmBlocks
import proofs.«124754_j56530359550878_2_alg».proof.Proof.GemmOut
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.QuantLinear Cert.QuantLinear.Pay

/-! ## Where each window's block sits, at every point of the grid -/

/-- The activations' block at point t: row block t / 16, contracted block t % 8. -/
theorem idx2_0 : ∀ t : Fin cfg2.N, win2_0.index t 0 = t.val / 16 ∧ win2_0.index t 1 = t.val % 8 :=
  (by decide +kernel : ∀ t : Fin grid2.N, win2_0.index t 0 = t.val / 16 ∧ win2_0.index t 1 = t.val % 8)
/-- The weights' block: contracted block t % 8, column block t / 8 % 2. -/
theorem idx2_1 : ∀ t : Fin cfg2.N, win2_1.index t 0 = t.val % 8 ∧ win2_1.index t 1 = t.val / 8 % 2 :=
  (by decide +kernel : ∀ t : Fin grid2.N, win2_1.index t 0 = t.val % 8 ∧ win2_1.index t 1 = t.val / 8 % 2)
/-- The row scales' block: row block t / 16 of the one column. -/
theorem idx2_2 : ∀ t : Fin cfg2.N, win2_2.index t 0 = t.val / 16 ∧ win2_2.index t 1 = 0 :=
  (by decide +kernel : ∀ t : Fin grid2.N, win2_2.index t 0 = t.val / 16 ∧ win2_2.index t 1 = 0)
/-- The column scales' block: column block t / 8 % 2 of the one row. -/
theorem idx2_3 : ∀ t : Fin cfg2.N, win2_3.index t 0 = 0 ∧ win2_3.index t 1 = t.val / 8 % 2 :=
  (by decide +kernel : ∀ t : Fin grid2.N, win2_3.index t 0 = 0 ∧ win2_3.index t 1 = t.val / 8 % 2)
/-- The bias's block: the same. -/
theorem idx2_4 : ∀ t : Fin cfg2.N, win2_4.index t 0 = 0 ∧ win2_4.index t 1 = t.val / 8 % 2 :=
  (by decide +kernel : ∀ t : Fin grid2.N, win2_4.index t 0 = 0 ∧ win2_4.index t 1 = t.val / 8 % 2)
/-- The output's block: row block t / 16, column block t / 8 % 2. -/
theorem idx2_5 : ∀ t : Fin cfg2.N, win2_5.index t 0 = t.val / 16 ∧ win2_5.index t 1 = t.val / 8 % 2 :=
  (by decide +kernel : ∀ t : Fin grid2.N, win2_5.index t 0 = t.val / 16 ∧ win2_5.index t 1 = t.val / 8 % 2)

variable (V : (c : Dev nD) → (b : Ref sig .tc) → Buf (Elt Ideal) ((c : Thread nD τ).loc b)) (c : Dev nD)

/-! ## The five input arrays by natural-number coordinates

A coordinate is taken modulo its extent, so that a coordinate computed as "block index times block size plus position in
the block" needs no bound carried along; inside the array the reduction changes nothing. -/

/-- Entry (M, k) of the quantized activations [8192, 4096]. -/
def actN (M k : ℕ) : EReal := V c main_v4_0 (ix2 (⟨M % 8192, Nat.mod_lt _ (by decide)⟩ : Fin 8192) (⟨k % 4096, Nat.mod_lt _ (by decide)⟩ : Fin 4096))
/-- Entry (k, n) of the quantized weights [4096, 4096], contracted position first. -/
def wgtN (k n : ℕ) : EReal := V c main_v2 (ix2 (⟨k % 4096, Nat.mod_lt _ (by decide)⟩ : Fin 4096) (⟨n % 4096, Nat.mod_lt _ (by decide)⟩ : Fin 4096))
/-- Row M's scale, from the one column of [8192, 1]. -/
def rsN (M : ℕ) : EReal := V c main_v4_1 (ix2 (⟨M % 8192, Nat.mod_lt _ (by decide)⟩ : Fin 8192) (0 : Fin 1))
/-- Column n's scale, from the one row of [1, 4096]. -/
def csN (n : ℕ) : EReal := V c main_v3 (ix2 (0 : Fin 1) (⟨n % 4096, Nat.mod_lt _ (by decide)⟩ : Fin 4096))
/-- Column n's bias, from the one row of [1, 4096]. -/
def bsN (n : ℕ) : EReal := V c main_v5 (ix2 (0 : Fin 1) (⟨n % 4096, Nat.mod_lt _ (by decide)⟩ : Fin 4096))

/-! ## Each window's block, read at an entry: block index times block size plus the position inside the block -/

theorem blk2_0 (t : Fin cfg2.N) (p : Fin 2048) (kk : Fin 512) :
    iblk2 V c 0 t (ix2 p kk) = actN V c (2048 * (t.val / 16) + p.val) (512 * (t.val % 8) + kk.val) := by
  have hN : t.val < 64 := lt_of_lt_of_eq t.isLt (show cfg2.N = 64 from N_2)
  have hi := idx2_0 t
  have hp := p.isLt
  have hk := kk.isLt
  unfold iblk2 actN
  rw [View.read_apply]
  show V c main_v4_0 _ = V c main_v4_0 _
  congr 1
  funext a
  apply Fin.ext
  match a with
  | ⟨0, _⟩ => show win2_0.index t 0 * 2048 + 1 * p.val = (2048 * (t.val / 16) + p.val) % 8192; rw [hi.1]; omega
  | ⟨1, _⟩ => show win2_0.index t 1 * 512 + 1 * kk.val = (512 * (t.val % 8) + kk.val) % 4096; rw [hi.2]; omega

theorem blk2_1 (t : Fin cfg2.N) (kk : Fin 512) (q : Fin 2048) :
    iblk2 V c 1 t (ix2 kk q) = wgtN V c (512 * (t.val % 8) + kk.val) (2048 * (t.val / 8 % 2) + q.val) := by
  have hN : t.val < 64 := lt_of_lt_of_eq t.isLt (show cfg2.N = 64 from N_2)
  have hi := idx2_1 t
  have hq := q.isLt
  have hk := kk.isLt
  unfold iblk2 wgtN
  rw [View.read_apply]
  show V c main_v2 _ = V c main_v2 _
  congr 1
  funext a
  apply Fin.ext
  match a with
  | ⟨0, _⟩ => show win2_1.index t 0 * 512 + 1 * kk.val = (512 * (t.val % 8) + kk.val) % 4096; rw [hi.1]; omega
  | ⟨1, _⟩ => show win2_1.index t 1 * 2048 + 1 * q.val = (2048 * (t.val / 8 % 2) + q.val) % 4096; rw [hi.2]; omega

theorem blk2_2 (t : Fin cfg2.N) (p : Fin 2048) :
    iblk2 V c 2 t (ix2 p (0 : Fin 1)) = rsN V c (2048 * (t.val / 16) + p.val) := by
  have hN : t.val < 64 := lt_of_lt_of_eq t.isLt (show cfg2.N = 64 from N_2)
  have hi := idx2_2 t
  have hp := p.isLt
  unfold iblk2 rsN
  rw [View.read_apply]
  show V c main_v4_1 _ = V c main_v4_1 _
  congr 1
  funext a
  apply Fin.ext
  match a with
  | ⟨0, _⟩ => show win2_2.index t 0 * 2048 + 1 * p.val = (2048 * (t.val / 16) + p.val) % 8192; rw [hi.1]; omega
  | ⟨1, _⟩ => show win2_2.index t 1 * 1 + 1 * 0 = 0; rw [hi.2]

theorem blk2_3 (t : Fin cfg2.N) (q : Fin 2048) :
    iblk2 V c 3 t (ix2 (0 : Fin 1) q) = csN V c (2048 * (t.val / 8 % 2) + q.val) := by
  have hN : t.val < 64 := lt_of_lt_of_eq t.isLt (show cfg2.N = 64 from N_2)
  have hi := idx2_3 t
  have hq := q.isLt
  unfold iblk2 csN
  rw [View.read_apply]
  show V c main_v3 _ = V c main_v3 _
  congr 1
  funext a
  apply Fin.ext
  match a with
  | ⟨0, _⟩ => show win2_3.index t 0 * 1 + 1 * 0 = 0; rw [hi.1]
  | ⟨1, _⟩ => show win2_3.index t 1 * 2048 + 1 * q.val = (2048 * (t.val / 8 % 2) + q.val) % 4096; rw [hi.2]; omega

theorem blk2_4 (t : Fin cfg2.N) (q : Fin 2048) :
    iblk2 V c 4 t (ix2 (0 : Fin 1) q) = bsN V c (2048 * (t.val / 8 % 2) + q.val) := by
  have hN : t.val < 64 := lt_of_lt_of_eq t.isLt (show cfg2.N = 64 from N_2)
  have hi := idx2_4 t
  have hq := q.isLt
  unfold iblk2 bsN
  rw [View.read_apply]
  show V c main_v5 _ = V c main_v5 _
  congr 1
  funext a
  apply Fin.ext
  match a with
  | ⟨0, _⟩ => show win2_4.index t 0 * 1 + 1 * 0 = 0; rw [hi.1]
  | ⟨1, _⟩ => show win2_4.index t 1 * 2048 + 1 * q.val = (2048 * (t.val / 8 % 2) + q.val) % 4096; rw [hi.2]; omega

/-! ## The accumulator at an entry -/

/-- At a first block of the contracted dimension the accumulator is the accumulate step of the zero block. -/
theorem accAt_first (n : ℕ) (h : n < cfg2.N) (h0 : n % 8 = 0) :
    accAt V c n h = k2_pay2 (k2_pay1 (F := Ideal)) (iblk2 V c 0 ⟨n, h⟩) (iblk2 V c 1 ⟨n, h⟩) := by
  cases n with
  | zero => rfl
  | succ n => rw [accAt, if_pos h0]

/-- At any other it is the accumulate step of what the point before left. -/
theorem accAt_next (n : ℕ) (h : n + 1 < cfg2.N) (h0 : ¬(n + 1) % 8 = 0) :
    accAt V c (n + 1) h = k2_pay2 (accAt V c n (Nat.lt_of_succ_lt h)) (iblk2 V c 0 ⟨n + 1, h⟩) (iblk2 V c 1 ⟨n + 1, h⟩) := by
  rw [accAt, if_neg h0]

/-- The partial sum of products over contracted block b, for row M and column n. -/
def partN (M n b : ℕ) : EReal := ∑ kk : Fin 512, actN V c M (512 * b + kk.val) * wgtN V c (512 * b + kk.val) n

/-- After point n the accumulator's entry (p, q) is zero plus the partial sums of the contracted blocks up to the
    point's own, n % 8, for row 2048 (n / 16) + p and column 2048 (n / 8 % 2) + q: by induction on the point's number. -/
theorem accAt_apply : ∀ (n : ℕ) (h : n < cfg2.N) (p q : Fin 2048),
    accAt V c n h (ix2 p q)
      = c0 + ∑ b ∈ Finset.range (n % 8 + 1), partN V c (2048 * (n / 16) + p.val) (2048 * (n / 8 % 2) + q.val) b
  | 0, h, p, q => by
    rw [accAt_first V c 0 h rfl]
    refine (pay_acc _ _ _ p q).trans ?_
    rw [Pay.pay_zero, Finset.sum_range_one]
    refine congrArg (c0 + ·) ?_
    unfold partN
    refine Finset.sum_congr rfl fun kk _ => ?_
    rw [blk2_0, blk2_1]
    rfl
  | n + 1, h, p, q => by
    by_cases h0 : (n + 1) % 8 = 0
    · rw [accAt_first V c (n + 1) h h0]
      refine (pay_acc _ _ _ p q).trans ?_
      rw [Pay.pay_zero, h0, Finset.sum_range_one]
      refine congrArg (c0 + ·) ?_
      unfold partN
      refine Finset.sum_congr rfl fun kk _ => ?_
      rw [blk2_0, blk2_1, h0]
    · rw [accAt_next V c n h h0]
      refine (pay_acc _ _ _ p q).trans ?_
      rw [accAt_apply n (Nat.lt_of_succ_lt h) p q]
      have e8 : (n + 1) % 8 = n % 8 + 1 := by omega
      have e16 : (n + 1) / 16 = n / 16 := by omega
      have e2 : (n + 1) / 8 % 2 = n / 8 % 2 := by omega
      rw [e8, e16, e2, Finset.sum_range_succ (n := n % 8 + 1), add_assoc]
      refine congrArg (c0 + ·) (congrArg (_ + ·) ?_)
      unfold partN
      refine Finset.sum_congr rfl fun kk _ => ?_
      rw [blk2_0, blk2_1]
      show actN V c (2048 * ((n + 1) / 16) + p.val) (512 * ((n + 1) % 8) + kk.val) * wgtN V c (512 * ((n + 1) % 8) + kk.val) (2048 * ((n + 1) / 8 % 2) + q.val) = _
      rw [e8, e16, e2]

/-! ## The output array -/

/-- Eight blocks of 512 contracted positions are the 4096 of them. -/
theorem dot_blocks (M n : ℕ) :
    ∑ b ∈ Finset.range 8, partN V c M n b = ∑ k : Fin 4096, actN V c M k.val * wgtN V c k.val n :=
  (Cert.BlockSum.sum_8_512 (fun k => actN V c M k * wgtN V c k n)).symm

/-- The output array's entry by natural-number coordinates and blocks of the contracted dimension. -/
theorem out2_apply (j : S8192x4096.Idx) :
    gemmOut (V c main_v4_0) (V c main_v2) (V c main_v4_1) (V c main_v3) (V c main_v5) j
      = ((c0 + ∑ b ∈ Finset.range 8, partN V c (j 0).val (j 1).val b) * rsN V c (j 0).val) * csN V c (j 1).val
        + bsN V c (j 1).val := by
  have e0 : (⟨(j 0).val % 8192, Nat.mod_lt _ (by decide)⟩ : Fin 8192) = j 0 := Fin.ext (Nat.mod_eq_of_lt (j 0).isLt)
  have e1 : (⟨(j 1).val % 4096, Nat.mod_lt _ (by decide)⟩ : Fin 4096) = j 1 := Fin.ext (Nat.mod_eq_of_lt (j 1).isLt)
  have hk : ∀ k : Fin 4096, (⟨k.val % 4096, Nat.mod_lt _ (by decide)⟩ : Fin 4096) = k := fun k => Fin.ext (Nat.mod_eq_of_lt k.isLt)
  rw [dot_blocks]
  unfold gemmOut actN wgtN rsN csN bsN
  simp only [e0, e1, hk]

/-- What a last block of the contracted dimension writes back is its block of the output array. -/
theorem flushed_eq2 (t : Fin cfg2.N) (hf : (cfg2.win 5).flush t = true) :
    (dat2 V c).flushed 5 t = ((cfg2.win 5).blk t).view.read (Elt Ideal)
      (gemmOut (V c main_v4_0) (V c main_v2) (V c main_v4_1) (V c main_v3) (V c main_v5)) := by
  have hN : t.val < 64 := lt_of_lt_of_eq t.isLt (show cfg2.N = 64 from N_2)
  have h7 : t.val % 8 = 7 := (flush2_5 t).mp hf
  show (cfg2.win 5).cut (grid2.coords t) ((dat2 V c).after 5 t) = _
  rw [after2_5, outsAt_out V c t h7]
  funext y
  obtain ⟨p, q, rfl⟩ : ∃ (p : Fin 2048) (q : Fin 2048), y = ix2 p q := ⟨y 0, y 1, eq_ix2 y⟩
  have hp := p.isLt
  have hq := q.isLt
  refine Eq.trans ?_ (read_blk2_5 (F := Ideal) (gemmOut (V c main_v4_0) (V c main_v2) (V c main_v4_1) (V c main_v3) (V c main_v5)) t p q
    (ix2 (⟨2048 * (t.val / 16) + p.val, by omega⟩ : Fin 8192) (⟨2048 * (t.val / 8 % 2) + q.val, by omega⟩ : Fin 4096)) rfl rfl).symm
  rw [out2_apply]
  show k2_pay3 (accAt V c t.val t.isLt) (iblk2 V c 2 t) (iblk2 V c 3 t) (iblk2 V c 4 t) (ix2 p q) = _
  refine (pay_out _ _ _ _ p q).trans ?_
  rw [accAt_apply, blk2_2, blk2_3, blk2_4, h7]

/-- THE MATRIX-PRODUCT REGION'S OUTPUT ARRAY: after the last point it holds, at row M and column n, the sum over the
    contracted dimension of activation times weight, from zero, scaled by the row's and the column's scale, plus the
    column's bias — the eight written-back blocks tile the array, and each is its block of that one function. -/
theorem arr2_out : (dat2 (F := Ideal) V c).arrAt 5 cfg2.N
    = gemmOut (V c main_v4_0) (V c main_v2) (V c main_v4_1) (V c main_v3) (V c main_v5) :=
  (dat2 V c).arrAt_eq_of_cover 5 _ (flushed_eq2 V c) covered2_5

end Cert.KernelIdeal.Hand

end
-- ==== Proof.HostLayout.lean ====
/-
  The host's layout operations, read at one index.

  Around its three kernels the program only rearranges arrays. The activations [4, 2048, 4096] are flattened to
  [8192, 4096]: row 2048 * i + j of the flat array is row (i, j) of the original, because both sit at the same place when
  the entries are laid out row by row. The quantized weights [4096, 4096] are transposed: entry (k, n) of the result is
  entry (n, k) of the operand. The column [4096, 1] of weight scales and the vector [4096] of biases are each laid out as
  a single row [1, 4096]: entry (0, n) of the row is entry (n, 0) of the column, or entry n of the vector. And the flat
  result [8192, 4096] is cut back into [4, 2048, 4096], the flattening read backwards. General in the type of the
  entries.
-/
import proofs.«124754_j56530359550878_2_alg».proof.KernelIdeal
import Idealize.ShloMosaic.Lib.Pipeline.Value
import Idealize.ShloMosaic.Lib.ValueIdx
import Idealize.ShloMosaic.Lib.ValueLayout

namespace Cert.QuantLinear.Layout

open Cert.KernelIdeal Idealize.ShloMosaic Idealize.ShloMosaic.ValueIdx
open Cert.KernelIdeal.Facts₀

variable [Facts₀] {α : Type}

/-- The activations flattened: row 2048 * i + j, column k, is entry (i, j, k). -/
theorem flatten_apply (x : S4x2048x4096.Idx → α) (i : Fin 4) (j : Fin 2048) (k : Fin 4096) :
    shapeCast S8192x4096 x shapeCasts_S4x2048x4096_S8192x4096 (ix2 ⟨2048 * i.val + j.val, by omega⟩ k)
      = x (ix3 i j k) :=
  shapeCast_apply x shapeCasts_S4x2048x4096_S8192x4096 _ (ix3 i j k) (by
    rw [Shape.rowMajor_val_three, Shape.rowMajor_val_two]
    show (i.val * 2048 + j.val) * 4096 + k.val = (2048 * i.val + j.val) * 4096 + k.val
    omega)

/-- The weights transposed: entry (k, n) is the operand's entry (n, k). -/
theorem transpose_apply' (x : S4096x4096.Idx → α) (k n : Fin 4096) :
    transpose S4096x4096 [1, 0] x transposes_S4096x4096_S4096x4096_1_0 (ix2 k n) = x (ix2 n k) :=
  transpose_ix2_apply x transposes_S4096x4096_S4096x4096_1_0 k n

/-- The column of weight scales laid out as a row: entry (0, n) is the column's entry (n, 0). -/
theorem colToRow_apply (x : S4096x1.Idx → α) (n : Fin 4096) :
    shapeCast S1x4096 x shapeCasts_S4096x1_S1x4096 (ix2 0 n) = x (ix2 n 0) :=
  shapeCast_apply x shapeCasts_S4096x1_S1x4096 _ (ix2 n 0) (by
    rw [Shape.rowMajor_val_two, Shape.rowMajor_val_two]
    show n.val * 1 + 0 = 0 * 4096 + n.val
    omega)

/-- The vector of biases laid out as a row: entry (0, n) is the vector's entry n. -/
theorem vecToRow_apply (x : S4096.Idx → α) (n : Fin 4096) :
    shapeCast S1x4096 x shapeCasts_S4096_S1x4096 (ix2 0 n) = x (ix1 n) :=
  shapeCast_a_1a_apply x shapeCasts_S4096_S1x4096 0 n

/-- The flat result cut back into four slabs: entry (i, j, n) is row 2048 * i + j, column n. -/
theorem unflatten_apply (y : S8192x4096.Idx → α) (i : Fin 4) (j : Fin 2048) (n : Fin 4096) :
    shapeCast S4x2048x4096 y shapeCasts_S8192x4096_S4x2048x4096 (ix3 i j n)
      = y (ix2 ⟨2048 * i.val + j.val, by omega⟩ n) :=
  shapeCast_apply y shapeCasts_S8192x4096_S4x2048x4096 _ (ix2 ⟨2048 * i.val + j.val, by omega⟩ n) (by
    rw [Shape.rowMajor_val_two, Shape.rowMajor_val_three]
    show (2048 * i.val + j.val) * 4096 + n.val = (i.val * 2048 + j.val) * 4096 + n.val
    omega)

end Cert.QuantLinear.Layout
-- ==== Proof.KernelValue.lean ====
/-
  What the idealized kernel's result array holds, as one function of the three argument arrays. Boundary by boundary:
  the flattened activations are a re-indexing of the argument; the first pipeline leaves the quantized weights and the
  column of their row scales; the transpose and the reshape re-index them; the second pipeline leaves the shifted
  quantized activations and the column of their scales; the bias is laid out as a row; the third pipeline leaves, at
  row M = 2048 i + j and column n, ((0 + the sum over the 4096 contracted entries of quantized activation times
  quantized weight) times the activation scale) times the weight scale plus the bias; and the last reshape re-indexes
  that to (i, j, n). The zero word added in front of the sum is the real number zero.
-/
import proofs.«124754_j56530359550878_2_alg».proof.Proof.MainRun
import proofs.«124754_j56530359550878_2_alg».proof.Proof.QuantArrays
import proofs.«124754_j56530359550878_2_alg».proof.Proof.GemmArray
import proofs.«124754_j56530359550878_2_alg».proof.Proof.GemmOut
import proofs.«124754_j56530359550878_2_alg».proof.Proof.HostLayout
import proofs.«124754_j56530359550878_2_alg».proof.Proof.Spec
import Idealize.ShloMosaic.Lib.StableHlo.Run
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem Idealize.ShloMosaic.StableHlo
open Idealize.ShloMosaic.ValueIdx
open Cert.KernelIdeal Cert.KernelIdeal.Gen Cert.QuantLinear Cert.QuantLinear.Layout

variable (m : (ℓ : Loc nD τ sig) → Buf (Elt Ideal) ℓ) (ρ : Dev nD → PrngReg) (c : Dev nD)

/-! ## The host stretches' results -/

theorem W1_v0 : (W1 m ρ c (Proc.devRef .tc main_v0) : S8192x4096.Idx → EReal)
    = shapeCast S8192x4096 (W0 m ρ c (Proc.devRef .tc main_arg0)) shapeCasts_S4x2048x4096_S8192x4096 := by
  show StableHlo.after hostOps0 (W0 m ρ c) (Proc.devRef .tc main_v0) = _
  after_results <;> rfl
theorem W3_v2 : (W3 m ρ c (Proc.devRef .tc main_v2) : S4096x4096.Idx → EReal)
    = transpose S4096x4096 [1, 0] (W2 m ρ c (Proc.devRef .tc main_v1_0)) transposes_S4096x4096_S4096x4096_1_0 := by
  show StableHlo.after hostOps1 (W2 m ρ c) (Proc.devRef .tc main_v2) = _
  after_results <;> rfl
theorem W3_v3 : (W3 m ρ c (Proc.devRef .tc main_v3) : S1x4096.Idx → EReal)
    = shapeCast S1x4096 (W2 m ρ c (Proc.devRef .tc main_v1_1)) shapeCasts_S4096x1_S1x4096 := by
  show StableHlo.after hostOps1 (W2 m ρ c) (Proc.devRef .tc main_v3) = _
  after_results <;> rfl
theorem W5_v5 : (W5 m ρ c (Proc.devRef .tc main_v5) : S1x4096.Idx → EReal)
    = shapeCast S1x4096 (W4 m ρ c (Proc.devRef .tc main_arg2)) shapeCasts_S4096_S1x4096 := by
  show StableHlo.after hostOps2 (W4 m ρ c) (Proc.devRef .tc main_v5) = _
  after_results <;> rfl
theorem W7_v7 : (W7 m ρ c (Proc.devRef .tc main_v7) : S4x2048x4096.Idx → EReal)
    = shapeCast S4x2048x4096 (W6 m ρ c (Proc.devRef .tc main_v6)) shapeCasts_S8192x4096_S4x2048x4096 := by
  show StableHlo.after hostOps3 (W6 m ρ c) (Proc.devRef .tc main_v7) = _
  after_results <;> rfl

/-! ## What passes a stretch or a region untouched -/

theorem W1_arg1 : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W3_v0 : W3 m ρ c (Proc.devRef .tc main_v0) = W1 m ρ c (Proc.devRef .tc main_v0) :=
  (StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_v0 (by decide))
theorem W4_arg2 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl
theorem W5_v4_0 : W5 m ρ c (Proc.devRef .tc main_v4_0) = W4 m ρ c (Proc.devRef .tc main_v4_0) :=
  StableHlo.after_of_forall_not_mem (b := Proc.devRef .tc main_v4_0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W5_v4_1 : W5 m ρ c (Proc.devRef .tc main_v4_1) = W4 m ρ c (Proc.devRef .tc main_v4_1) :=
  StableHlo.after_of_forall_not_mem (b := Proc.devRef .tc main_v4_1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W5_v2 : W5 m ρ c (Proc.devRef .tc main_v2) = W3 m ρ c (Proc.devRef .tc main_v2) :=
  (StableHlo.after_of_forall_not_mem (b := Proc.devRef .tc main_v2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_of_ne m ρ c main_v2 (by decide))
theorem W5_v3 : W5 m ρ c (Proc.devRef .tc main_v3) = W3 m ρ c (Proc.devRef .tc main_v3) :=
  (StableHlo.after_of_forall_not_mem (b := Proc.devRef .tc main_v3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_of_ne m ρ c main_v3 (by decide))

/-! ## The arrays the third pipeline reads, entry by entry, in terms of the arguments -/

/-- The flattened activations at row 2048 i + j are the argument's row (i, j). -/
theorem flat_at (i : Fin 4) (j : Fin 2048) (k : Fin 4096) :
    (V3 m ρ c main_v0 : S8192x4096.Idx → EReal) (ix2 ⟨2048 * i.val + j.val, by omega⟩ k) = m ((c : Thread nD τ).loc main_arg0) (ix3 i j k) := by
  show (W3 m ρ c (Proc.devRef .tc main_v0) : S8192x4096.Idx → EReal) _ = _
  rw [W3_v0, W1_v0, flatten_apply]

/-- The shifted quantized activations. -/
theorem act_at (i : Fin 4) (j : Fin 2048) (k : Fin 4096) :
    (V5 m ρ c main_v4_0 : S8192x4096.Idx → EReal) (ix2 ⟨2048 * i.val + j.val, by omega⟩ k)
      = aq (xRow (m ((c : Thread nD τ).loc main_arg0)) i j) k := by
  show (W5 m ρ c (Proc.devRef .tc main_v4_0) : S8192x4096.Idx → EReal) _ = _
  rw [W5_v4_0, show W4 m ρ c (Proc.devRef .tc main_v4_0) = (dat1 (V3 m ρ) c).arrAt 1 cfg1.N from W4_arr m ρ c 1, arr1_aq]
  show aq (fun k' => V3 m ρ c main_v0 (ix2 ⟨2048 * i.val + j.val, _⟩ k')) k = _
  exact congrArg (fun r => aq r k) (funext fun k' => flat_at m ρ c i j k')

/-- The activation scales. -/
theorem actScale_at (i : Fin 4) (j : Fin 2048) :
    (V5 m ρ c main_v4_1 : S8192x1.Idx → EReal) (ix2 ⟨2048 * i.val + j.val, by omega⟩ 0)
      = colScale (xRow (m ((c : Thread nD τ).loc main_arg0)) i j) := by
  show (W5 m ρ c (Proc.devRef .tc main_v4_1) : S8192x1.Idx → EReal) _ = _
  rw [W5_v4_1, show W4 m ρ c (Proc.devRef .tc main_v4_1) = (dat1 (V3 m ρ) c).arrAt 2 cfg1.N from W4_arr m ρ c 2, arr1_scale]
  show colScale (fun k' => V3 m ρ c main_v0 (ix2 ⟨2048 * i.val + j.val, _⟩ k')) = _
  exact congrArg colScale (funext fun k' => flat_at m ρ c i j k')

/-- The transposed quantized weights. -/
theorem wt_at (k n : Fin 4096) :
    (V5 m ρ c main_v2 : S4096x4096.Idx → EReal) (ix2 k n) = wq (wRow (m ((c : Thread nD τ).loc main_arg1)) n) k := by
  show (W5 m ρ c (Proc.devRef .tc main_v2) : S4096x4096.Idx → EReal) _ = _
  rw [W5_v2, W3_v2, transpose_apply', show W2 m ρ c (Proc.devRef .tc main_v1_0) = (dat0 (V1 m ρ) c).arrAt 1 cfg0.N from W2_arr m ρ c 1, arr0_wq]
  show wq (fun k' => V1 m ρ c main_arg1 (ix2 n k')) k = _
  exact congrArg (fun r => wq r k) (funext fun k' => congrFun (W1_arg1 m ρ c) (ix2 n k'))

/-- The weight scales laid out as a row. -/
theorem wtScale_at (n : Fin 4096) :
    (V5 m ρ c main_v3 : S1x4096.Idx → EReal) (ix2 0 n) = rowScale (wRow (m ((c : Thread nD τ).loc main_arg1)) n) := by
  show (W5 m ρ c (Proc.devRef .tc main_v3) : S1x4096.Idx → EReal) _ = _
  rw [W5_v3, W3_v3, colToRow_apply, show W2 m ρ c (Proc.devRef .tc main_v1_1) = (dat0 (V1 m ρ) c).arrAt 2 cfg0.N from W2_arr m ρ c 2, arr0_scale]
  show rowScale (fun k' => V1 m ρ c main_arg1 (ix2 n k')) = _
  exact congrArg rowScale (funext fun k' => congrFun (W1_arg1 m ρ c) (ix2 n k'))

/-- The bias laid out as a row. -/
theorem bias_at (n : Fin 4096) :
    (V5 m ρ c main_v5 : S1x4096.Idx → EReal) (ix2 0 n) = m ((c : Thread nD τ).loc main_arg2) (ix1 n) := by
  show (W5 m ρ c (Proc.devRef .tc main_v5) : S1x4096.Idx → EReal) _ = _
  rw [W5_v5, vecToRow_apply, W4_arg2]

/-! ## The result -/

/-- The kernel's result array is the specification's function of the three arguments. -/
theorem W7_result : (W7 m ρ c (Proc.devRef .tc main_v7) : S4x2048x4096.Idx → EReal)
    = result (m ((c : Thread nD τ).loc main_arg0)) (m ((c : Thread nD τ).loc main_arg1)) (m ((c : Thread nD τ).loc main_arg2)) := by
  funext idx
  obtain ⟨i, j, n, rfl⟩ : ∃ (i : Fin 4) (j : Fin 2048) (n : Fin 4096), idx = ix3 i j n := ⟨idx 0, idx 1, idx 2, eq_ix3 idx⟩
  rw [W7_v7, unflatten_apply, show W6 m ρ c (Proc.devRef .tc main_v6) = (dat2 (V5 m ρ) c).arrAt 5 cfg2.N from W6_arr m ρ c 5, arr2_out]
  refine (gemmOut_eq (hA := fun k => act_at m ρ c i j k) (hB := fun k => wt_at m ρ c k n) (hcs := actScale_at m ρ c i j)
    (hrs := wtScale_at m ρ c n) (hbs := bias_at m ρ c n)).trans ?_
  show ((c0 + dotRow _ _) * _) * _ + _ = outEntry _ _ _
  unfold outEntry
  rw [show (c0 : EReal) = 0 from Ideal.ofBits_zero_f32, zero_add]

end Cert.KernelIdeal.Hand

end
-- ==== Proof.RefIsSpec.lean ====
/-
  The reference program computes the specification.

  The reference quantizes each weight row with the scale (largest magnitude of the row) / 127, each activation row with
  the scale (max - min) / 255 and the zero point round(-min / scale), multiplies the quantized rows as integers, and
  rescales. Read one entry at a time, every stage of it is the matching function of the specification: the three row
  reductions are a supremum or an infimum (a maximum taken from minus infinity lies below z exactly when every entry does,
  and dually), the reshape [4, 2048, 4096] -> [8192, 4096] sends (i, j, k) to row 2048 i + j, and the spellings that
  differ are equal on the extended reals: a negation is a subtraction from zero, and a product may be re-associated.
-/
import proofs.«124754_j56530359550878_2_alg».proof.Proof.Gen.ReferenceIdeal.Read
import proofs.«124754_j56530359550878_2_alg».proof.Proof.Spec
import proofs.«124754_j56530359550878_2_alg».proof.Proof.LibMaxBounds

noncomputable section

namespace Cert.QuantLinear.Ref

open Cert.ReferenceIdeal Cert.ReferenceIdeal.Gen Cert.ReferenceIdeal.Read Idealize.ShloMosaic Idealize.ShloMosaic.ValueIdx
open Cert.QuantLinear

/-! ## A maximum or a minimum along the columns, from its neutral element -/

/-- The f32 word 0x7F800000 (sign clear, exponent all ones, significand zero) is plus infinity, the top element. -/
theorem ofBits_posInf : Ideal.ofBits .f32 0x7F800000#32 = ⊤ := by
  rfl

/-- The host's reduce with a maximum body along the columns of [a, b], from minus infinity, is at row r the supremum
    of the row. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (hinit : ∀ j, init j = ⊥) (r : Fin a) :
    Host.reduce FloatOps.maximumf x init h' hu (ix1 r) = ⨆ k : Fin b, x (ix2 r k) := by
  rw [Host.reduce_eq_fold_single FloatOps.maximumf x init h' h hu (ix1 r), hinit]
  refine eq_of_forall_ge_iff fun z => ?_
  rw [iSup_le_iff]
  refine (Cert.MaxBounds.fold_max_bot_le_iff _ _ z).trans ⟨fun hk k => ?_, fun hk k _ => ?_⟩
  · have hz := hk ⟨k.val, k.isLt⟩ (Finset.mem_univ _)
    rwa [Function.comp_apply, Cert.MaxBounds.lift_cols h r] at hz
  · rw [Function.comp_apply, Cert.MaxBounds.lift_cols h r]
    exact hk _

/-- Dually, with a minimum body from plus infinity it is the infimum of the row. -/
theorem hostMin_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (hinit : ∀ j, init j = ⊤) (r : Fin a) :
    Host.reduce FloatOps.minimumf x init h' hu (ix1 r) = ⨅ k : Fin b, x (ix2 r k) := by
  rw [Host.reduce_eq_fold_single FloatOps.minimumf x init h' h hu (ix1 r), hinit]
  refine eq_of_forall_le_iff fun z => ?_
  rw [le_iInf_iff]
  refine (Finset.le_fold_min z).trans ⟨fun hk k => ?_, fun hk => ⟨le_top, fun k _ => ?_⟩⟩
  · have hz := hk.2 ⟨k.val, k.isLt⟩ (Finset.mem_univ _)
    rwa [Function.comp_apply, Cert.MaxBounds.lift_cols h r] at hz
  · rw [Function.comp_apply, Cert.MaxBounds.lift_cols h r]
    exact hk _

/-! ## The weights: row scale and quantized rows -/

variable (x0 : (⟨S4x2048x4096, .f32⟩ : BufTy).Contents (Elt Ideal))
  (x1 : (⟨S4096x4096, .f32⟩ : BufTy).Contents (Elt Ideal))
  (x2 : (⟨S4096, .f32⟩ : BufTy).Contents (Elt Ideal))

/-- The row maximum of the magnitudes is the largest magnitude of the row. -/
theorem v1_eq (n : Fin 4096) : val_main_v1 (F := Ideal) x1 (ix1 n) = absMax (wRow x1 n) := by
  unfold val_main_v1
  exact (hostMax_cols (val_main_v0 (F := Ideal) x1) (val_main_cst (F := Ideal)) reducesTo_S4096x4096_S4096_d1
    (by decide) h_S_ (fun _ => Cert.MaxBounds.ofBits_negInf) n).trans (iSup_congr fun k => rfl)

/-- The scale of weight row n. -/
theorem v6_eq (n : Fin 4096) : val_main_v6 (F := Ideal) x1 (ix1 n) = rowScale (wRow x1 n) := by
  rw [val_main_v6_apply, val_main_v3_apply, val_main_v5_apply, v1_eq, val_main_v2_apply, val_main_v4_apply,
    val_main_call0_v1_apply]
  rfl

/-- The column [4096] -> [4096, 1] -> [4096, 4096] read at (n, k) is entry n. -/
theorem idx_v8 (n k : Fin 4096) : idx_main_v7 (idx_main_v8 (ix2 n k)) = ix1 n :=
  funext fun a => match a with | ⟨0, _⟩ => rfl

theorem v8_eq (n k : Fin 4096) : val_main_v8 (F := Ideal) x1 (ix2 n k) = rowScale (wRow x1 n) := by
  rw [val_main_v8_apply, val_main_v7_apply]
  exact (congrArg (val_main_v6 (F := Ideal) x1) (idx_v8 n k)).trans (v6_eq x1 n)

/-- The quantized weight (n, k). -/
theorem v11_eq (n k : Fin 4096) : val_main_v11 (F := Ideal) x1 (ix2 n k) = wq (wRow x1 n) k := by
  rw [val_main_v11_apply, val_main_call2_v2_apply, val_main_v10_apply, val_main_v9_apply, v8_eq,
    val_main_call2_v4_apply, val_main_call2_v1_apply]
  rfl

/-! ## The activations: rows of the flattened array, their scale and zero point -/

/-- Row 2048 i + j of the flattened activations. -/
def row (i : Fin 4) (j : Fin 2048) : Fin 8192 := ⟨i.val * 2048 + j.val, by have := i.isLt; have := j.isLt; omega⟩

/-- The flattened array at (2048 i + j, k) is the array at (i, j, k). -/
theorem idx_v12 (i : Fin 4) (j : Fin 2048) (k : Fin 4096) : idx_main_v12 (ix2 (row i j) k) = ix3 i j k := by
  have hi := i.isLt; have hj := j.isLt; have hk := k.isLt
  funext a; apply Fin.ext
  match a with
  | ⟨0, _⟩ => show ((i.val * 2048 + j.val) * 4096 + k.val) / 8388608 = i.val; omega
  | ⟨1, _⟩ => show ((i.val * 2048 + j.val) * 4096 + k.val) / 4096 % 2048 = j.val; omega
  | ⟨2, _⟩ => show ((i.val * 2048 + j.val) * 4096 + k.val) % 4096 = k.val; omega

theorem v12_eq (i : Fin 4) (j : Fin 2048) (k : Fin 4096) :
    val_main_v12 (F := Ideal) x0 (ix2 (row i j) k) = xRow x0 i j k := by
  rw [val_main_v12_apply, idx_v12]
  rfl

/-- The row minimum and the row maximum. -/
theorem v13_eq (i : Fin 4) (j : Fin 2048) : val_main_v13 (F := Ideal) x0 (ix1 (row i j)) = rowMin (xRow x0 i j) := by
  unfold val_main_v13
  exact (hostMin_cols (val_main_v12 (F := Ideal) x0) (val_main_cst_5 (F := Ideal)) reducesTo_S8192x4096_S8192_d1
    (by decide) h_S_ (fun _ => ofBits_posInf) (row i j)).trans (iInf_congr fun k => v12_eq x0 i j k)

theorem v14_eq (i : Fin 4) (j : Fin 2048) : val_main_v14 (F := Ideal) x0 (ix1 (row i j)) = rowMax (xRow x0 i j) := by
  unfold val_main_v14
  exact (hostMax_cols (val_main_v12 (F := Ideal) x0) (val_main_cst_6 (F := Ideal)) reducesTo_S8192x4096_S8192_d1
    (by decide) h_S_ (fun _ => Cert.MaxBounds.ofBits_negInf) (row i j)).trans (iSup_congr fun k => v12_eq x0 i j k)

/-- The scale of activation row (i, j). -/
theorem v20_eq (i : Fin 4) (j : Fin 2048) : val_main_v20 (F := Ideal) x0 (ix1 (row i j)) = colScale (xRow x0 i j) := by
  rw [val_main_v20_apply, val_main_v17_apply, val_main_v19_apply, val_main_v15_apply, v14_eq, v13_eq,
    val_main_v16_apply, val_main_v18_apply, val_main_call3_v1_apply]
  rfl

/-- The zero word is the extended real 0, and subtracting from it negates. -/
theorem c0_sub (y : EReal) : c0 - y = -y := by
  rw [show c0 = 0 from Ideal.ofBits_zero_f32, zero_sub]

/-- The zero point of activation row (i, j): the reference negates the minimum, the specification subtracts it from
    zero. -/
theorem v23_eq (i : Fin 4) (j : Fin 2048) : val_main_v23 (F := Ideal) x0 (ix1 (row i j)) = zp (xRow x0 i j) := by
  rw [val_main_v23_apply, val_main_v22_apply, val_main_v21_apply, v13_eq, v20_eq]
  unfold zp
  rw [c0_sub]
  rfl

/-- The columns [8192] -> [8192, 1] -> [8192, 4096] read at (m, k) are entry m. -/
theorem idx_v25 (m : Fin 8192) (k : Fin 4096) : idx_main_v24 (idx_main_v25 (ix2 m k)) = ix1 m :=
  funext fun a => match a with | ⟨0, _⟩ => rfl

theorem idx_v29 (m : Fin 8192) (k : Fin 4096) : idx_main_v28 (idx_main_v29 (ix2 m k)) = ix1 m :=
  funext fun a => match a with | ⟨0, _⟩ => rfl

theorem idx_v33 (m : Fin 8192) (k : Fin 4096) : idx_main_v32 (idx_main_v33 (ix2 m k)) = ix1 m :=
  funext fun a => match a with | ⟨0, _⟩ => rfl

theorem idx_v38 (m : Fin 8192) (k : Fin 4096) : idx_main_v36 (idx_main_v38 (ix2 m k)) = ix1 m :=
  funext fun a => match a with | ⟨0, _⟩ => rfl

theorem v25_eq (i : Fin 4) (j : Fin 2048) (k : Fin 4096) :
    val_main_v25 (F := Ideal) x0 (ix2 (row i j) k) = colScale (xRow x0 i j) := by
  rw [val_main_v25_apply, val_main_v24_apply]
  exact (congrArg (val_main_v20 (F := Ideal) x0) (idx_v25 (row i j) k)).trans (v20_eq x0 i j)

theorem v29_eq (i : Fin 4) (j : Fin 2048) (k : Fin 4096) :
    val_main_v29 (F := Ideal) x0 (ix2 (row i j) k) = zp (xRow x0 i j) := by
  rw [val_main_v29_apply, val_main_v28_apply]
  exact (congrArg (val_main_v23 (F := Ideal) x0) (idx_v29 (row i j) k)).trans (v23_eq x0 i j)

theorem v33_eq (i : Fin 4) (j : Fin 2048) (k : Fin 4096) :
    val_main_v33 (F := Ideal) x0 (ix2 (row i j) k) = zp (xRow x0 i j) := by
  rw [val_main_v33_apply, val_main_v32_apply]
  exact (congrArg (val_main_v23 (F := Ideal) x0) (idx_v33 (row i j) k)).trans (v23_eq x0 i j)

theorem v38_eq (i : Fin 4) (j : Fin 2048) (n : Fin 4096) :
    val_main_v38 (F := Ideal) x0 (ix2 (row i j) n) = colScale (xRow x0 i j) := by
  rw [val_main_v38_apply, val_main_v36_apply]
  exact (congrArg (val_main_v20 (F := Ideal) x0) (idx_v38 (row i j) n)).trans (v20_eq x0 i j)

/-- The quantized activation (i, j, k), shifted back by the zero point. -/
theorem v34_eq (i : Fin 4) (j : Fin 2048) (k : Fin 4096) :
    val_main_v34 (F := Ideal) x0 (ix2 (row i j) k) = aq (xRow x0 i j) k := by
  rw [val_main_v34_apply, val_main_v31_apply, val_main_call6_v2_apply, val_main_v30_apply, val_main_v27_apply,
    val_main_v26_apply, v12_eq, v25_eq, v29_eq, v33_eq, val_main_call6_v4_apply, val_main_call6_v1_apply]
  rfl

/-! ## The product, the rescaling and the bias -/

/-- The product's operands at contraction index k: activation row m at k, weight row n at k. -/
theorem lidx_v35 (m : Fin 8192) (n k : Fin 4096) : lidx_main_v35 (ix2 m n) k = ix2 m k :=
  funext fun a => match a with | ⟨0, _⟩ => rfl | ⟨1, _⟩ => rfl

theorem ridx_v35 (m : Fin 8192) (n k : Fin 4096) : ridx_main_v35 (ix2 m n) k = ix2 n k :=
  funext fun a => match a with | ⟨0, _⟩ => rfl | ⟨1, _⟩ => rfl

/-- The integer product of activation row (i, j) and weight row n. -/
theorem v35_eq (i : Fin 4) (j : Fin 2048) (n : Fin 4096) :
    val_main_v35 (F := Ideal) x0 x1 (ix2 (row i j) n) = dotRow (xRow x0 i j) (wRow x1 n) := by
  rw [val_main_v35_apply]
  refine Finset.sum_congr rfl fun k _ => ?_
  rw [lidx_v35, ridx_v35, v34_eq, v11_eq]

/-- The row [4096] -> [1, 4096] -> [8192, 4096] read at (m, n) is entry n. -/
theorem idx_v39 (m : Fin 8192) (n : Fin 4096) : idx_main_v37 (idx_main_v39 (ix2 m n)) = ix1 n :=
  funext fun a => match a with | ⟨0, _⟩ => rfl

theorem idx_v43 (m : Fin 8192) (n : Fin 4096) : idx_main_v42 (idx_main_v43 (ix2 m n)) = ix1 n :=
  funext fun a => match a with | ⟨0, _⟩ => rfl

theorem v39_eq (m : Fin 8192) (n : Fin 4096) : val_main_v39 (F := Ideal) x1 (ix2 m n) = rowScale (wRow x1 n) := by
  rw [val_main_v39_apply, val_main_v37_apply]
  exact (congrArg (val_main_v6 (F := Ideal) x1) (idx_v39 m n)).trans (v6_eq x1 n)

theorem v43_eq (m : Fin 8192) (n : Fin 4096) : val_main_v43 (F := Ideal) x2 (ix2 m n) = x2 (ix1 n) := by
  rw [val_main_v43_apply, val_main_v42_apply]
  exact congrArg x2 (idx_v43 m n)

/-- One entry of the flattened result: the reference multiplies the product by (s_x * s_w), the specification by s_x and
    then by s_w. -/
theorem v44_eq (i : Fin 4) (j : Fin 2048) (n : Fin 4096) :
    val_main_v44 (F := Ideal) x0 x1 x2 (ix2 (row i j) n) = outEntry (xRow x0 i j) (wRow x1 n) (x2 (ix1 n)) := by
  rw [val_main_v44_apply, val_main_v41_apply, val_main_v40_apply, v35_eq, v38_eq, v39_eq, v43_eq]
  show dotRow (xRow x0 i j) (wRow x1 n) * (colScale (xRow x0 i j) * rowScale (wRow x1 n)) + x2 (ix1 n)
    = dotRow (xRow x0 i j) (wRow x1 n) * colScale (xRow x0 i j) * rowScale (wRow x1 n) + x2 (ix1 n)
  rw [mul_assoc]

/-- The result at (i, j, n) is the flattened result at (2048 i + j, n). -/
theorem idx_v45 (i : Fin 4) (j : Fin 2048) (n : Fin 4096) : idx_main_v45 (ix3 i j n) = ix2 (row i j) n := by
  have hi := i.isLt; have hj := j.isLt; have hn := n.isLt
  funext a; apply Fin.ext
  match a with
  | ⟨0, _⟩ => show ((i.val * 2048 + j.val) * 4096 + n.val) / 4096 = i.val * 2048 + j.val; omega
  | ⟨1, _⟩ => show ((i.val * 2048 + j.val) * 4096 + n.val) % 4096 = n.val; omega

/-- The reference's result is the specification's. -/
theorem reference_is_result
    (x0 : (⟨Cert.ReferenceIdeal.S4x2048x4096, .f32⟩ : BufTy).Contents (Elt Ideal))
    (x1 : (⟨Cert.ReferenceIdeal.S4096x4096, .f32⟩ : BufTy).Contents (Elt Ideal))
    (x2 : (⟨Cert.ReferenceIdeal.S4096, .f32⟩ : BufTy).Contents (Elt Ideal)) :
    Cert.ReferenceIdeal.Read.val_main_v45 (F := Ideal) x0 x1 x2 = Cert.QuantLinear.result x0 x1 x2 := by
  funext idx
  obtain ⟨i, j, n, rfl⟩ : ∃ (i : Fin 4) (j : Fin 2048) (n : Fin 4096), idx = ix3 i j n :=
    ⟨idx 0, idx 1, idx 2, eq_ix3 idx⟩
  rw [val_main_v45_apply, idx_v45, v44_eq]
  rfl

end Cert.QuantLinear.Ref

end
-- ==== Proof.lean ====
/-
  The certificate of the quantized linear layer: a kernel of three pipelines (row-wise weight quantization, per-row
  activation quantization, and a blocked matrix product with an accumulator carried over the eight blocks of the
  contracted dimension, dequantized and biased at the last block) against the plain array program.

  The three frames: each program terminates on every weakly fair execution, faults nowhere and leaves its arguments as
  launched — the kernel and its idealization by the run of their seven segments (four host stretches around three
  pipelines), the reference by its straight-line run. The idealization rewrote nothing. At the ideal values both
  programs end with the same array: entry (i, j, n) is ((the sum over k of the quantized activation row (i, j) times the
  quantized weight row n) times the activation scale) times the weight scale plus the bias; the kernel reaches it block
  by block (a sum over eight blocks of 512 is the sum over 4096, and the zero the accumulator starts from is the real
  zero), the reference multiplies the two scales first (multiplication of extended reals is associative) and negates
  where the kernel subtracts from zero.
-/
import proofs.«124754_j56530359550878_2_alg».proof.Defs
import proofs.«124754_j56530359550878_2_alg».proof.Proof.Gen.Kernel
import proofs.«124754_j56530359550878_2_alg».proof.Proof.Gen.KernelIdeal
import proofs.«124754_j56530359550878_2_alg».proof.Proof.Gen.ReferenceIdeal
import proofs.«124754_j56530359550878_2_alg».proof.Proof.Gen.ReferenceIdeal.Run
import proofs.«124754_j56530359550878_2_alg».proof.Proof.Gen.ReferenceIdeal.Read
import proofs.«124754_j56530359550878_2_alg».proof.Proof.Gen.Pre_finite_inputs
import proofs.«124754_j56530359550878_2_alg».proof.Proof.MainRun
import proofs.«124754_j56530359550878_2_alg».proof.Proof.MainRunBits
import proofs.«124754_j56530359550878_2_alg».proof.Proof.KernelValue
import proofs.«124754_j56530359550878_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference's straight-line run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values, from memories that agree on the arguments, both programs end with the specification's array. -/
theorem algebraic : Cert.algebraic_KernelIdeal_ReferenceIdeal := by
  intro m ρ m' ρ' _ hagree
  refine ⟨fun c => Cert.QuantLinear.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Hand.W7_result m ρ c), (h c).2⟩) (Cert.KernelIdeal.Hand.run_value m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v45_eq, Cert.QuantLinear.Ref.reference_is_result,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
